-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x2048 : Shape := ⟨2, ![128, 2048]⟩
abbrev S4x2048x4096 : Shape := ⟨3, ![4, 2048, 4096]⟩
abbrev S16384 : Shape := ⟨1, ![16384]⟩
abbrev S2048 : Shape := ⟨1, ![2048]⟩
abbrev S4x2048 : Shape := ⟨2, ![4, 2048]⟩
abbrev S16384x2048 : Shape := ⟨2, ![16384, 2048]⟩
abbrev S_ : Shape := ⟨0, ![]⟩

class Facts : Prop where
  bcast_S_S128x2048 : S_.BroadcastsInDim S128x2048 (![] : Fin 0 → Fin S128x2048.rank)
  reducesTo_S128x2048_S_d0_1 : S128x2048.ReducesTo [0, 1] S_
  h_S_ : 0 < S_.numel
  bcast_S_S4x2048x4096 : S_.BroadcastsInDim S4x2048x4096 (![] : Fin 0 → Fin S4x2048x4096.rank)
  reducesTo_S4x2048x4096_S_d0_1_2 : S4x2048x4096.ReducesTo [0, 1, 2] S_
  bcast_S_S16384 : S_.BroadcastsInDim S16384 (![] : Fin 0 → Fin S16384.rank)
  reducesTo_S16384_S_d0 : S16384.ReducesTo [0] S_
  bcast_S_S2048 : S_.BroadcastsInDim S2048 (![] : Fin 0 → Fin S2048.rank)
  reducesTo_S2048_S_d0 : S2048.ReducesTo [0] S_
  bcast_S_S4x2048 : S_.BroadcastsInDim S4x2048 (![] : Fin 0 → Fin S4x2048.rank)
  reducesTo_S4x2048_S_d0_1 : S4x2048.ReducesTo [0, 1] S_
  bcast_S_S16384x2048 : S_.BroadcastsInDim S16384x2048 (![] : Fin 0 → Fin S16384x2048.rank)
  reducesTo_S16384x2048_S_d0_1 : S16384x2048.ReducesTo [0, 1] S_

variable [Facts]

def fn_part2 {F : FTy → Type} [FloatOps F] (main_arg7 : FVec F S16384x2048 .f32) (main_v33 : IVec S_ 1) : IVec S_ 1 :=
  let main_v34 : FVec F S16384x2048 .f32 := Host.absf main_arg7
  let main_cst_12 : FVec F S_ .f32 := constant S_ .f32 0x7F800000#32
  let main_v35 : FVec F S16384x2048 .f32 := broadcastInDim S16384x2048 ![] bcast_S_S16384x2048 main_cst_12
  let main_v36 : IVec S16384x2048 1 := cmpf .olt main_v34 main_v35
  let main_c_13 : IVec S_ 1 := constantI S_ 1 1#1
  let main_v37 : IVec S_ 1 := (fun x v => Host.reduce IntOp.andi x v reducesTo_S16384x2048_S_d0_1 h_S_) main_v36 main_c_13
  let main_v38 : IVec S_ 1 := andi main_v33 main_v37
  main_v38

def fn_part1 {F : FTy → Type} [FloatOps F] (main_arg4 : FVec F S4x2048 .f32) (main_arg5 : FVec F S16384 .f32) (main_arg6 : FVec F S16384 .f32) (main_arg7 : FVec F S16384x2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S4x2048 .f32 := Host.absf main_arg4
  let main_cst_6 : FVec F S_ .f32 := constant S_ .f32 0x7F800000#32
  let main_v20 : FVec F S4x2048 .f32 := broadcastInDim S4x2048 ![] bcast_S_S4x2048 main_cst_6
  let main_v21 : IVec S4x2048 1 := cmpf .olt main_v19 main_v20
  let main_c_7 : IVec S_ 1 := constantI S_ 1 1#1
  let main_v22 : IVec S_ 1 := (fun x v => Host.reduce IntOp.andi x v reducesTo_S4x2048_S_d0_1 h_S_) main_v21 main_c_7
  let main_v23 : IVec S_ 1 := andi main_v18 main_v22
  let main_v24 : FVec F S16384 .f32 := Host.absf main_arg5
  let main_cst_8 : FVec F S_ .f32 := constant S_ .f32 0x7F800000#32
  let main_v25 : FVec F S16384 .f32 := broadcastInDim S16384 ![] bcast_S_S16384 main_cst_8
  let main_v26 : IVec S16384 1 := cmpf .olt main_v24 main_v25
  let main_c_9 : IVec S_ 1 := constantI S_ 1 1#1
  let main_v27 : IVec S_ 1 := (fun x v => Host.reduce IntOp.andi x v reducesTo_S16384_S_d0 h_S_) main_v26 main_c_9
  let main_v28 : IVec S_ 1 := andi main_v23 main_v27
  let main_v29 : FVec F S16384 .f32 := Host.absf main_arg6
  let main_cst_10 : FVec F S_ .f32 := constant S_ .f32 0x7F800000#32
  let main_v30 : FVec F S16384 .f32 := broadcastInDim S16384 ![] bcast_S_S16384 main_cst_10
  let main_v31 : IVec S16384 1 := cmpf .olt main_v29 main_v30
  let main_c_11 : IVec S_ 1 := constantI S_ 1 1#1
  let main_v32 : IVec S_ 1 := (fun x v => Host.reduce IntOp.andi x v reducesTo_S16384_S_d0 h_S_) main_v31 main_c_11
  let main_v33 : IVec S_ 1 := andi main_v28 main_v32
  fn_part2 (F := F) main_arg7 main_v33

def fn {F : FTy → Type} [FloatOps F] (main_arg0 : FVec F S128x2048 .f32) (main_arg1 : FVec F S4x2048x4096 .f32) (main_arg2 : FVec F S16384 .f32) (main_arg3 : FVec F S2048 .f32) (main_arg4 : FVec F S4x2048 .f32) (main_arg5 : FVec F S16384 .f32) (main_arg6 : FVec F S16384 .f32) (main_arg7 : FVec F S16384x2048 .f32) : IVec S_ 1 :=
  let main_v0 : FVec F S128x2048 .f32 := Host.absf main_arg0
  let main_cst : FVec F S_ .f32 := constant S_ .f32 0x7F800000#32
  let main_v1 : FVec F S128x2048 .f32 := broadcastInDim S128x2048 ![] bcast_S_S128x2048 main_cst
  let main_v2 : IVec S128x2048 1 := cmpf .olt main_v0 main_v1
  let main_c : IVec S_ 1 := constantI S_ 1 1#1
  let main_v3 : IVec S_ 1 := (fun x v => Host.reduce IntOp.andi x v reducesTo_S128x2048_S_d0_1 h_S_) main_v2 main_c
  let main_v4 : FVec F S4x2048x4096 .f32 := Host.absf main_arg1
  let main_cst_0 : FVec F S_ .f32 := constant S_ .f32 0x7F800000#32
  let main_v5 : FVec F S4x2048x4096 .f32 := broadcastInDim S4x2048x4096 ![] bcast_S_S4x2048x4096 main_cst_0
  let main_v6 : IVec S4x2048x4096 1 := cmpf .olt main_v4 main_v5
  let main_c_1 : IVec S_ 1 := constantI S_ 1 1#1
  let main_v7 : IVec S_ 1 := (fun x v => Host.reduce IntOp.andi x v reducesTo_S4x2048x4096_S_d0_1_2 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_v13 main_v16
-- ==== Kernel.lean ====
abbrev S128x2048 : Shape := ⟨2, ![128, 2048]⟩
abbrev S4x2048x4096 : Shape := ⟨3, ![4, 2048, 4096]⟩
abbrev S16384 : Shape := ⟨1, ![16384]⟩
abbrev S2048 : Shape := ⟨1, ![2048]⟩
abbrev S4x2048 : Shape := ⟨2, ![4, 2048]⟩
abbrev S16384x2048 : Shape := ⟨2, ![16384, 2048]⟩
abbrev S4x32x2048 : Shape := ⟨3, ![4, 32, 2048]⟩
abbrev S4x1x2048 : Shape := ⟨3, ![4, 1, 2048]⟩
abbrev S1x2048 : Shape := ⟨2, ![1, 2048]⟩
abbrev S4x1x4096 : Shape := ⟨3, ![4, 1, 4096]⟩
abbrev S4x4096x2048 : Shape := ⟨3, ![4, 4096, 2048]⟩
abbrev S4x32x4096 : Shape := ⟨3, ![4, 32, 4096]⟩
abbrev S1x32x2048 : Shape := ⟨3, ![1, 32, 2048]⟩
abbrev S1x1x2048 : Shape := ⟨3, ![1, 1, 2048]⟩
abbrev S1x2048x512 : Shape := ⟨3, ![1, 2048, 512]⟩
abbrev S1x1x512 : Shape := ⟨3, ![1, 1, 512]⟩
abbrev S1x32x512 : Shape := ⟨3, ![1, 32, 512]⟩
abbrev S32x2048 : Shape := ⟨2, ![32, 2048]⟩
abbrev S2048x512 : Shape := ⟨2, ![2048, 512]⟩
abbrev S32x512 : Shape := ⟨2, ![32, 512]⟩
abbrev S1x512 : Shape := ⟨2, ![1, 512]⟩
abbrev S1x32x4096 : Shape := ⟨3, ![1, 32, 4096]⟩
abbrev S1x1x4096 : Shape := ⟨3, ![1, 1, 4096]⟩
abbrev S1x512x2048 : Shape := ⟨3, ![1, 512, 2048]⟩
abbrev S32x4096 : Shape := ⟨2, ![32, 4096]⟩
abbrev S32 : Shape := ⟨1, ![32]⟩
abbrev S32x1 : Shape := ⟨2, ![32, 1]⟩
abbrev S1x4096 : Shape := ⟨2, ![1, 4096]⟩
abbrev S512x2048 : Shape := ⟨2, ![512, 2048]⟩

abbrev nBuf : Space → Nat
  | .hbm => 18
  | .vmem => 24
  | .smem => 0
  | _ => 0

abbrev bufTy : (tb : Table) → Fin (tcTables nBuf tb) → BufTy
  | .hbm, ⟨0, _⟩ => ⟨S128x2048, .f32⟩
  | .hbm, ⟨1, _⟩ => ⟨S4x2048x4096, .f32⟩
  | .hbm, ⟨2, _⟩ => ⟨S16384, .f32⟩
  | .hbm, ⟨3, _⟩ => ⟨S2048, .f32⟩
  | .hbm, ⟨4, _⟩ => ⟨S4x2048, .f32⟩
  | .hbm, ⟨5, _⟩ => ⟨S16384, .f32⟩
  | .hbm, ⟨6, _⟩ => ⟨S16384, .f32⟩
  | .hbm, ⟨7, _⟩ => ⟨S16384x2048, .f32⟩
  | .hbm, ⟨8, _⟩ => ⟨S4x32x2048, .f32⟩
  | .hbm, ⟨9, _⟩ => ⟨S4x1x2048, .f32⟩
  | .hbm, ⟨10, _⟩ => ⟨S1x2048, .f32⟩
  | .hbm, ⟨11, _⟩ => ⟨S4x1x4096, .f32⟩
  | .hbm, ⟨12, _⟩ => ⟨S4x1x4096, .f32⟩
  | .hbm, ⟨13, _⟩ => ⟨S4x1x4096, .f32⟩
  | .hbm, ⟨14, _⟩ => ⟨S4x4096x2048, .f32⟩
  | .hbm, ⟨15, _⟩ => ⟨S4x32x4096, .f32⟩
  | .hbm, ⟨16, _⟩ => ⟨S4x32x2048, .f32⟩
  | .hbm, ⟨17, _⟩ => ⟨S128x2048, .f32⟩
  | .local _ .vmem, ⟨0, _⟩ => ⟨S1x32x2048, .f32⟩
  | .local _ .vmem, ⟨1, _⟩ => ⟨S1x32x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x2048, .f32⟩
  | .local _ .vmem, ⟨5, _⟩ => ⟨S1x2048x512, .f32⟩
  | .local _ .vmem, ⟨6, _⟩ => ⟨S1x2048x512, .f32⟩
  | .local _ .vmem, ⟨7, _⟩ => ⟨S1x1x512, .f32⟩
  | .local _ .vmem, ⟨8, _⟩ => ⟨S1x1x512, .f32⟩
  | .local _ .vmem, ⟨9, _⟩ => ⟨S1x32x512, .f32⟩
  | .local _ .vmem, ⟨10, _⟩ => ⟨S1x32x512, .f32⟩
  | .local _ .vmem, ⟨11, _⟩ => ⟨S1x32x4096, .f32⟩
  | .local _ .vmem, ⟨12, _⟩ => ⟨S1x32x4096, .f32⟩
  | .local _ .vmem, ⟨13, _⟩ => ⟨S1x1x4096, .f32⟩
  | .local _ .vmem, ⟨14, _⟩ => ⟨S1x1x4096, .f32⟩
  | .local _ .vmem, ⟨15, _⟩ => ⟨S1x1x4096, .f32⟩
  | .local _ .vmem, ⟨16, _⟩ => ⟨S1x1x4096, .f32⟩
  | .local _ .vmem, ⟨17, _⟩ => ⟨S1x512x2048, .f32⟩
  | .local _ .vmem, ⟨18, _⟩ => ⟨S1x512x2048, .f32⟩
  | .local _ .vmem, ⟨19, _⟩ => ⟨S1x2048, .f32⟩
  | .local _ .vmem, ⟨20, _⟩ => ⟨S1x32x2048, .f32⟩
  | .local _ .vmem, ⟨21, _⟩ => ⟨S1x32x2048, .f32⟩
  | .local _ .vmem, ⟨22, _⟩ => ⟨S32x4096, .bf16⟩
  | .local _ .vmem, ⟨23, _⟩ => ⟨S32x2048, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc1_scratch0 : Ref sig .tc := ⟨.vmem, 22, rfl⟩
abbrev cc1_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 8], ![false, false]⟩

def k1_mult1 (i : grid1.Coords) : BitVec 32 :=
  let arg1 : BitVec 32 := BitVec.ofNat 32 (i 1).val
  let c512_i32 : BitVec 32 := 512#32
  let v3 : BitVec 32 := Scalar.muli arg1 c512_i32
  v3
def k1_off1 (i : grid1.Coords) : Fin 2 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  ![0, v5.toNat]
def k1_cond2 (i : grid1.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_8 : BitVec 32 := 0#32
  let v18 : BitVec 1 := Scalar.cmpi .ne v17 c0_i32_8
  v18

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x32x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x32x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  shapeCasts_S128x2048_S4x32x2048 : S128x2048.ShapeCasts S4x32x2048
  shapeCasts_S4x2048_S4x1x2048 : S4x2048.ShapeCasts S4x1x2048
  shapeCasts_S2048_S1x2048 : S2048.ShapeCasts S1x2048
  shapeCasts_S16384_S4x1x4096 : S16384.ShapeCasts S4x1x4096
  shapeCasts_S16384x2048_S4x4096x2048 : S16384x2048.ShapeCasts S4x4096x2048
  inb_S1x32x2048_S1x32x2048_0_0_0 : ∀ a, (![0, 0, 0] : Fin 3 → Nat) a + S1x32x2048.size a ≤ S1x32x2048.size a
  h_S1x32x2048 : 0 < S1x32x2048.numel
  shapeCasts_S1x32x2048_S32x2048 : S1x32x2048.ShapeCasts S32x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S32x2048 : S1x2048.Broadcasts S32x2048
  bitsLt_bf16_f32 : FTy.bits .bf16 < FTy.bits .f32
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S32x512 : S1x512.Broadcasts S32x512
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  shapeCasts_S32x512_S1x32x512 : S32x512.ShapeCasts S1x32x512
  inb_S1x32x4096_S1x32x4096_0_0_0 : ∀ a, (![0, 0, 0] : Fin 3 → Nat) a + S1x32x4096.size a ≤ S1x32x4096.size a
  h_S1x32x4096 : 0 < S1x32x4096.numel
  shapeCasts_S1x32x4096_S32x4096 : S1x32x4096.ShapeCasts S32x4096
  reduces_S32x4096_S32 : S32x4096.Reduces [1] S32
  shapeCasts_S32_S32x1 : S32.ShapeCasts S32x1
  broadcasts_S32x1_S32x4096 : S32x1.Broadcasts S32x4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  broadcasts_S1x4096_S32x4096 : S1x4096.Broadcasts S32x4096
  inb_S32x4096_S32x4096_0_0 : ∀ a, (![0, 0] : Fin 2 → Nat) a + S32x4096.size a ≤ S32x4096.size a
  h_S32x4096 : 0 < S32x4096.numel
  shapeCasts_S32x4096_S32x4096 : S32x4096.ShapeCasts S32x4096
  packedbf16_S32x4096_S32x4096_0_0 : (Rect.unit (s := S32x4096) ![0, 0] S32x4096.size inb_S32x4096_S32x4096_0_0).PackedRows (EltTy.packing .bf16)
  inb_S32x2048_S32x2048_0_0 : ∀ a, (![0, 0] : Fin 2 → Nat) a + S32x2048.size a ≤ S32x2048.size a
  h_S32x2048 : 0 < S32x2048.numel
  shapeCasts_S32x2048_S32x2048 : S32x2048.ShapeCasts S32x2048
  h_S32x512 : 0 < S32x512.numel
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S32x2048_S1x32x2048 : S32x2048.ShapeCasts S1x32x2048
  shapeCasts_S4x32x2048_S128x2048 : S4x32x2048.ShapeCasts S128x2048
  dot_S32x2048_S2048x512_S32x512_1_0_0_1_n_n_wf : DotDims.WF S32x2048 S2048x512 S32x512 [1] [0] [0] [1] [] []
  dot_S32x512_S512x2048_S32x2048_1_0_0_1_n_n_wf : DotDims.WF S32x512 S512x2048 S32x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x2048.size a ≤ S4x32x2048.size a
  hwx0_0 : ∀ i : grid0.Coords, EltTy.bits .f32 = 32 ∨ (Rect.block (s := S4x32x2048) S1x32x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048.size a ≤ S4x1x2048.size a
  hwx0_1 : ∀ i : grid0.Coords, EltTy.bits .f32 = 32 ∨ (Rect.block (s := S4x1x2048) S1x1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x512.size a ≤ S4x2048x4096.size a
  hwx0_3 : ∀ i : grid0.Coords, EltTy.bits .f32 = 32 ∨ (Rect.block (s := S4x2048x4096) S1x2048x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512.size a ≤ S4x1x4096.size a
  hwx0_4 : ∀ i : grid0.Coords, EltTy.bits .f32 = 32 ∨ (Rect.block (s := S4x1x4096) S1x1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x32x512.size a ≤ S4x32x4096.size a
  hwx0_5 : ∀ i : grid0.Coords, EltTy.bits .f32 = 32 ∨ (Rect.block (s := S4x32x4096) S1x32x512.size (cc0_transform_5 i) (hinb0_5 i)).WholeWords (EltTy.packing .f32)
  hrank1 : 0 < grid1.rank
  k1_mult1_dvd : ∀ i : grid1.Coords, 512 ∣ (k1_mult1 i).toNat
  k1_off1_inb : ∀ i : grid1.Coords, ∀ a, (k1_off1 i) a + S32x512.size a ≤ S32x4096.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x32x4096.size a ≤ S4x32x4096.size a
  hwx1_0 : ∀ i : grid1.Coords, EltTy.bits .f32 = 32 ∨ (Rect.block (s := S4x32x4096) S1x32x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x4096.size a ≤ S4x1x4096.size a
  hwx1_1 : ∀ i : grid1.Coords, EltTy.bits .f32 = 32 ∨ (Rect.block (s := S4x1x4096) S1x1x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x4096.size a ≤ S4x1x4096.size a
  hwx1_2 : ∀ i : grid1.Coords, EltTy.bits .f32 = 32 ∨ (Rect.block (s := S4x1x4096) S1x1x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x2048.size a ≤ S4x4096x2048.size a
  hwx1_3 : ∀ i : grid1.Coords, EltTy.bits .f32 = 32 ∨ (Rect.block (s := S4x4096x2048) S1x512x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2048.size a ≤ S1x2048.size a
  hwx1_4 : ∀ i : grid1.Coords, EltTy.bits .f32 = 32 ∨ (Rect.block (s := S1x2048) S1x2048.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x32x2048.size a ≤ S4x32x2048.size a
  hwx1_5 : ∀ i : grid1.Coords, EltTy.bits .f32 = 32 ∨ (Rect.block (s := S4x32x2048) S1x32x2048.size (cc1_transform_5 i) (hinb1_5 i)).WholeWords (EltTy.packing .f32)

variable [Facts₀]

def dot_S32x2048_S2048x512_S32x512_1_0_0_1_n_n : DotDims S32x2048 S2048x512 S32x512 where
  lhsContracting := [1]
  rhsContracting := [0]
  lhsNonContracting := [0]
  rhsNonContracting := [1]
  lhsBatch := []
  rhsBatch := []
  wf := dot_S32x2048_S2048x512_S32x512_1_0_0_1_n_n_wf
def dot_S32x512_S512x2048_S32x2048_1_0_0_1_n_n : DotDims S32x512 S512x2048 S32x2048 where
  lhsContracting := [1]
  rhsContracting := [0]
  lhsNonContracting := [0]
  rhsNonContracting := [1]
  lhsBatch := []
  rhsBatch := []
  wf := dot_S32x512_S512x2048_S32x2048_1_0_0_1_n_n_wf

abbrev win0_0 : Pipeline.Window sig grid0 :=
  Pipeline.Window.ofSpec (Memref.whole main_v0) S1x32x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x2048x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x32x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v7) S1x32x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x1x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x512x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x2048.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S1x32x2048.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S128x2048 : Shape := ⟨2, ![128, 2048]⟩
abbrev S4x2048x4096 : Shape := ⟨3, ![4, 2048, 4096]⟩
abbrev S16384 : Shape := ⟨1, ![16384]⟩
abbrev S2048 : Shape := ⟨1, ![2048]⟩
abbrev S4x2048 : Shape := ⟨2, ![4, 2048]⟩
abbrev S16384x2048 : Shape := ⟨2, ![16384, 2048]⟩
abbrev S4x32x2048 : Shape := ⟨3, ![4, 32, 2048]⟩
abbrev S4x1x2048 : Shape := ⟨3, ![4, 1, 2048]⟩
abbrev S1x1x2048 : Shape := ⟨3, ![1, 1, 2048]⟩
abbrev S4x32x4096 : Shape := ⟨3, ![4, 32, 4096]⟩
abbrev S4x1x4096 : Shape := ⟨3, ![4, 1, 4096]⟩
abbrev S_ : Shape := ⟨0, ![]⟩
abbrev S4x32 : Shape := ⟨2, ![4, 32]⟩
abbrev S4x32x1 : Shape := ⟨3, ![4, 32, 1]⟩
abbrev S128x16384 : Shape := ⟨2, ![128, 16384]⟩
abbrev S1x32x4096 : Shape := ⟨3, ![1, 32, 4096]⟩
abbrev S32x4096 : Shape := ⟨2, ![32, 4096]⟩
abbrev S1 : Shape := ⟨1, ![1]⟩
abbrev S2 : Shape := ⟨1, ![2]⟩
abbrev S1x2048 : Shape := ⟨2, ![1, 2048]⟩

abbrev nBuf : Space → Nat
  | .hbm => 89
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S4x2048x4096, .f32⟩
  | .hbm, ⟨2, _⟩ => ⟨S16384, .f32⟩
  | .hbm, ⟨3, _⟩ => ⟨S2048, .f32⟩
  | .hbm, ⟨4, _⟩ => ⟨S4x2048, .f32⟩
  | .hbm, ⟨5, _⟩ => ⟨S16384, .f32⟩
  | .hbm, ⟨6, _⟩ => ⟨S16384, .f32⟩
  | .hbm, ⟨7, _⟩ => ⟨S16384x2048, .f32⟩
  | .hbm, ⟨8, _⟩ => ⟨S4x32x2048, .f32⟩
  | .hbm, ⟨9, _⟩ => ⟨S4x1x2048, .f32⟩
  | .hbm, ⟨10, _⟩ => ⟨S4x32x2048, .f32⟩
  | .hbm, ⟨11, _⟩ => ⟨S4x32x2048, .f32⟩
  | .hbm, ⟨12, _⟩ => ⟨S1x1x2048, .f32⟩
  | .hbm, ⟨13, _⟩ => ⟨S4x32x2048, .f32⟩
  | .hbm, ⟨14, _⟩ => ⟨S4x32x2048, .f32⟩
  | .hbm, ⟨15, _⟩ => ⟨S4x32x4096, .f32⟩
  | .hbm, ⟨16, _⟩ => ⟨S4x1x4096, .f32⟩
  | .hbm, ⟨17, _⟩ => ⟨S4x32x4096, .f32⟩
  | .hbm, ⟨18, _⟩ => ⟨S4x32x4096, .f32⟩
  | .hbm, ⟨19, _⟩ => ⟨S_, .f32⟩
  | .hbm, ⟨20, _⟩ => ⟨S4x32, .f32⟩
  | .hbm, ⟨21, _⟩ => ⟨S4x32x1, .f32⟩
  | .hbm, ⟨22, _⟩ => ⟨S_, .f32⟩
  | .hbm, ⟨23, _⟩ => ⟨S4x32x1, .f32⟩
  | .hbm, ⟨24, _⟩ => ⟨S4x32x1, .f32⟩
  | .hbm, ⟨25, _⟩ => ⟨S4x32x4096, .f32⟩
  | .hbm, ⟨26, _⟩ => ⟨S4x32x4096, .f32⟩
  | .hbm, ⟨27, _⟩ => ⟨S4x32x4096, .f32⟩
  | .hbm, ⟨28, _⟩ => ⟨S_, .f32⟩
  | .hbm, ⟨29, _⟩ => ⟨S4x32, .f32⟩
  | .hbm, ⟨30, _⟩ => ⟨S4x32x1, .f32⟩
  | .hbm, ⟨31, _⟩ => ⟨S_, .f32⟩
  | .hbm, ⟨32, _⟩ => ⟨S4x32x1, .f32⟩
  | .hbm, ⟨33, _⟩ => ⟨S4x32x1, .f32⟩
  | .hbm, ⟨34, _⟩ => ⟨S4x32x4096, .f32⟩
  | .hbm, ⟨35, _⟩ => ⟨S4x32x4096, .f32⟩
  | .hbm, ⟨36, _⟩ => ⟨S_, .f32⟩
  | .hbm, ⟨37, _⟩ => ⟨S4x32x1, .f32⟩
  | .hbm, ⟨38, _⟩ => ⟨S4x32x1, .f32⟩
  | .hbm, ⟨39, _⟩ => ⟨S4x32x1, .f32⟩
  | .hbm, ⟨40, _⟩ => ⟨S4x32x4096, .f32⟩
  | .hbm, ⟨41, _⟩ => ⟨S4x32x4096, .f32⟩
  | .hbm, ⟨42, _⟩ => ⟨S4x1x4096, .f32⟩
  | .hbm, ⟨43, _⟩ => ⟨S4x32x4096, .f32⟩
  | .hbm, ⟨44, _⟩ => ⟨S4x32x4096, .f32⟩
  | .hbm, ⟨45, _⟩ => ⟨S4x1x4096, .f32⟩
  | .hbm, ⟨46, _⟩ => ⟨S4x32x4096, .f32⟩
  | .hbm, ⟨47, _⟩ => ⟨S4x32x4096, .f32⟩
  | .hbm, ⟨48, _⟩ => ⟨S_, .f32⟩
  | .hbm, ⟨49, _⟩ => ⟨S4x32x4096, .f32⟩
  | .hbm, ⟨50, _⟩ => ⟨S4x32x4096, .f32⟩
  | .hbm, ⟨51, _⟩ => ⟨S_, .f32⟩
  | .hbm, ⟨52, _⟩ => ⟨S128x16384, .f32⟩
  | .hbm, ⟨53, _⟩ => ⟨S1x32x4096, .f32⟩
  | .hbm, ⟨54, _⟩ => ⟨S32x4096, .f32⟩
  | .hbm, ⟨55, _⟩ => ⟨S_, .i32⟩
  | .hbm, ⟨56, _⟩ => ⟨S1, .i32⟩
  | .hbm, ⟨57, _⟩ => ⟨S_, .i32⟩
  | .hbm, ⟨58, _⟩ => ⟨S1, .i32⟩
  | .hbm, ⟨59, _⟩ => ⟨S2, .i32⟩
  | .hbm, ⟨60, _⟩ => ⟨S128x16384, .f32⟩
  | .hbm, ⟨61, _⟩ => ⟨S1x32x4096, .f32⟩
  | .hbm, ⟨62, _⟩ => ⟨S32x4096, .f32⟩
  | .hbm, ⟨63, _⟩ => ⟨S_, .i32⟩
  | .hbm, ⟨64, _⟩ => ⟨S1, .i32⟩
  | .hbm, ⟨65, _⟩ => ⟨S_, .i32⟩
  | .hbm, ⟨66, _⟩ => ⟨S1, .i32⟩
  | .hbm, ⟨67, _⟩ => ⟨S2, .i32⟩
  | .hbm, ⟨68, _⟩ => ⟨S128x16384, .f32⟩
  | .hbm, ⟨69, _⟩ => ⟨S1x32x4096, .f32⟩
  | .hbm, ⟨70, _⟩ => ⟨S32x4096, .f32⟩
  | .hbm, ⟨71, _⟩ => ⟨S_, .i32⟩
  | .hbm, ⟨72, _⟩ => ⟨S1, .i32⟩
  | .hbm, ⟨73, _⟩ => ⟨S_, .i32⟩
  | .hbm, ⟨74, _⟩ => ⟨S1, .i32⟩
  | .hbm, ⟨75, _⟩ => ⟨S2, .i32⟩
  | .hbm, ⟨76, _⟩ => ⟨S128x16384, .f32⟩
  | .hbm, ⟨77, _⟩ => ⟨S1x32x4096, .f32⟩
  | .hbm, ⟨78, _⟩ => ⟨S32x4096, .f32⟩
  | .hbm, ⟨79, _⟩ => ⟨S_, .i32⟩
  | .hbm, ⟨80, _⟩ => ⟨S1, .i32⟩
  | .hbm, ⟨81, _⟩ => ⟨S_, .i32⟩
  | .hbm, ⟨82, _⟩ => ⟨S1, .i32⟩
  | .hbm, ⟨83, _⟩ => ⟨S2, .i32⟩
  | .hbm, ⟨84, _⟩ => ⟨S128x16384, .f32⟩
  | .hbm, ⟨85, _⟩ => ⟨S128x2048, .f32⟩
  | .hbm, ⟨86, _⟩ => ⟨S1x2048, .f32⟩
  | .hbm, ⟨87, _⟩ => ⟨S128x2048, .f32⟩
  | .hbm, ⟨88, _⟩ => ⟨S128x2048, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_call0_cst : Ref sig .tc := ⟨.hbm, 48, rfl⟩
abbrev main_call0_v0 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c : Ref sig .tc := ⟨.hbm, 55, rfl⟩
abbrev main_v39 : Ref sig .tc := ⟨.hbm, 56, rfl⟩
abbrev main_c_5 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_6 : Ref sig .tc := ⟨.hbm, 63, rfl⟩
abbrev main_v45 : Ref sig .tc := ⟨.hbm, 64, rfl⟩
abbrev main_c_7 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_8 : Ref sig .tc := ⟨.hbm, 71, rfl⟩
abbrev main_v51 : Ref sig .tc := ⟨.hbm, 72, rfl⟩
abbrev main_c_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_10 : Ref sig .tc := ⟨.hbm, 79, rfl⟩
abbrev main_v57 : Ref sig .tc := ⟨.hbm, 80, rfl⟩
abbrev main_c_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  shapeCasts_S128x2048_S4x32x2048 : S128x2048.ShapeCasts S4x32x2048
  bcast_S4x2048_S4x1x2048_0_2 : S4x2048.BroadcastsInDim S4x1x2048 (![0, 2] : Fin 2 → Fin S4x1x2048.rank)
  bcast_S4x1x2048_S4x32x2048_0_1_2 : S4x1x2048.BroadcastsInDim S4x32x2048 (![0, 1, 2] : Fin 3 → Fin S4x32x2048.rank)
  bcast_S2048_S1x1x2048_2 : S2048.BroadcastsInDim S1x1x2048 (![2] : Fin 1 → Fin S1x1x2048.rank)
  bcast_S1x1x2048_S4x32x2048_0_1_2 : S1x1x2048.BroadcastsInDim S4x32x2048 (![0, 1, 2] : Fin 3 → Fin S4x32x2048.rank)
  shapeCasts_S16384_S4x1x4096 : S16384.ShapeCasts S4x1x4096
  bcast_S4x1x4096_S4x32x4096_0_1_2 : S4x1x4096.BroadcastsInDim S4x32x4096 (![0, 1, 2] : Fin 3 → Fin S4x32x4096.rank)
  reducesTo_S4x32x4096_S4x32_d2 : S4x32x4096.ReducesTo [2] S4x32
  h_S_ : 0 < S_.numel
  bcast_S4x32_S4x32x1_0_1 : S4x32.BroadcastsInDim S4x32x1 (![0, 1] : Fin 2 → Fin S4x32x1.rank)
  bcast_S_S4x32x1 : S_.BroadcastsInDim S4x32x1 (![] : Fin 0 → Fin S4x32x1.rank)
  bcast_S4x32x1_S4x32x4096_0_1_2 : S4x32x1.BroadcastsInDim S4x32x4096 (![0, 1, 2] : Fin 3 → Fin S4x32x4096.rank)
  bcast_S_S4x32x4096 : S_.BroadcastsInDim S4x32x4096 (![] : Fin 0 → Fin S4x32x4096.rank)
  bcast_S_S128x16384 : S_.BroadcastsInDim S128x16384 (![] : Fin 0 → Fin S128x16384.rank)
  slices_S4x32x4096_S1x32x4096_0_0_0 : S4x32x4096.Slices ![0, 0, 0] S1x32x4096
  shapeCasts_S1x32x4096_S32x4096 : S1x32x4096.ShapeCasts S32x4096
  bcast_S_S1 : S_.BroadcastsInDim S1 (![] : Fin 0 → Fin S1.rank)
  concatenates_S1_S1_S2_d0 : Shape.Concatenates [S1, S1] S2 0
  slices_S4x32x4096_S1x32x4096_1_0_0 : S4x32x4096.Slices ![1, 0, 0] S1x32x4096
  slices_S4x32x4096_S1x32x4096_2_0_0 : S4x32x4096.Slices ![2, 0, 0] S1x32x4096
  slices_S4x32x4096_S1x32x4096_3_0_0 : S4x32x4096.Slices ![3, 0, 0] S1x32x4096
  bcast_S2048_S1x2048_1 : S2048.BroadcastsInDim S1x2048 (![1] : Fin 1 → Fin S1x2048.rank)
  bcast_S1x2048_S128x2048_0_1 : S1x2048.BroadcastsInDim S128x2048 (![0, 1] : Fin 2 → Fin S128x2048.rank)
  dot_S4x32x2048_S4x2048x4096_S4x32x4096_2_1_1_2_0_0_wf : DotDims.WF S4x32x2048 S4x2048x4096 S4x32x4096 [2] [1] [1] [2] [0] [0]
  scatter_S128x16384_S2_S32x4096_01_n_01_0_wf : ScatterDims.WF S128x16384 S2 S32x4096 [0, 1] [] [0, 1] 0
  dot_S128x16384_S16384x2048_S128x2048_1_0_0_1_n_n_wf : DotDims.WF S128x16384 S16384x2048 S128x2048 [1] [0] [0] [1] [] []

variable [Facts₀]

def dot_S4x32x2048_S4x2048x4096_S4x32x4096_2_1_1_2_0_0 : DotDims S4x32x2048 S4x2048x4096 S4x32x4096 where
  lhsContracting := [2]
  rhsContracting := [1]
  lhsNonContracting := [1]
  rhsNonContracting := [2]
  lhsBatch := [0]
  rhsBatch := [0]
  wf := dot_S4x32x2048_S4x2048x4096_S4x32x4096_2_1_1_2_0_0_wf
def scatter_S128x16384_S2_S32x4096_01_n_01_0 : ScatterDims S128x16384 S2 S32x4096 where
  updateWindowDims := [0, 1]
  insertedWindowDims := []
  scatterDimsToOperandDims := [0, 1]
  indexVectorDim := 0
  wf := scatter_S128x16384_S2_S32x4096_01_n_01_0_wf
def dot_S128x16384_S16384x2048_S128x2048_1_0_0_1_n_n : DotDims S128x16384 S16384x2048 S128x2048 where
  lhsContracting := [1]
  rhsContracting := [0]
  lhsNonContracting := [0]
  rhsNonContracting := [1]
  lhsBatch := []
  rhsBatch := []
  wf := dot_S128x16384_S16384x2048_S128x2048_1_0_0_1_n_n_wf

class Facts : Prop extends Facts₀ where

variable [Facts]
-- ==== Proof.KFrame.Enc.lean ====
/-
  The encoder call (the first of the two grid programs), its half of the frame argument, for any float instance.

  The grid has 4 x 8 = 32 points. At a point the body reads five input blocks whole,
      x0 : [1, 32, 2048]   x1 : [1, 1, 2048]   x2 : [1, 2048]   x3 : [1, 2048, 512]   x4 : [1, 1, 512],
  and overwrites the whole [1, 32, 512] output block with one value computed from them. So what the output block
  holds after the body is a closed function of the five input blocks at the point, and each input block is left as
  it was found. This file names that function, proves the body's triple, and packages both as the data the
  pipeline argument takes, at an arbitrary contents V of the arrays on entry.
-/
import proofs.«109662_j11768210391682_2_alg».proof.Proof.Gen.Kernel.Launch
import proofs.«109662_j11768210391682_2_alg».proof.Proof.Gen.Kernel.Skeleton
import proofs.«109662_j11768210391682_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with an axis of length 2048 recurses once per coordinate of that axis
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every array when the call is entered: everything below is stated at an arbitrary such V
variable (V : (c : Dev nD) → (b : Ref sig .tc) → Buf (Elt F) ((c : Thread nD τ).loc b))

/-! ## The windows' blocks -/

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current buffer holds its block at every point, whether or not the block was fetched at that
    point: if it was not, the block index is the previous point's, and the body left that block in place. One
    statement per input window, for any data whose array is V's and whose body leaves the block as found. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store go through the whole block -/

abbrev r0_0 : Rect S1x32x2048 := Rect.unit (s := S1x32x2048) ![0, 0, 0] S1x32x2048.size inb_S1x32x2048_S1x32x2048_0_0_0
abbrev r0_1 : Rect S1x1x2048 := Rect.unit (s := S1x1x2048) ![0, 0, 0] S1x1x2048.size inb_S1x1x2048_S1x1x2048_0_0_0
abbrev r0_2 : Rect S1x2048 := Rect.unit (s := S1x2048) ![0, 0] S1x2048.size inb_S1x2048_S1x2048_0_0
abbrev r0_3 : Rect S1x2048x512 := Rect.unit (s := S1x2048x512) ![0, 0, 0] S1x2048x512.size inb_S1x2048x512_S1x2048x512_0_0_0
abbrev r0_4 : Rect S1x1x512 := Rect.unit (s := S1x1x512) ![0, 0, 0] S1x1x512.size inb_S1x1x512_S1x1x512_0_0_0
abbrev r0_5 : Rect S1x32x512 := Rect.unit (s := S1x32x512) ![0, 0, 0] S1x32x512.size inb_S1x32x512_S1x32x512_0_0_0

/-! ## What the body leaves in the output window's buffer -/

/-- The output block after the body, from the five input blocks: the one store's value laid over the whole block. -/
def out0_5 (x0 : Vec F S1x32x2048 .f32) (x1 : Vec F S1x1x2048 .f32) (x2 : Vec F S1x2048 .f32) (x3 : Vec F S1x2048x512 .f32) (x4 : Vec F S1x1x512 .f32) : Vec F S1x32x512 .f32 :=
  View.canon [⟨r0_5, k0_pay1 (View.ld x0 r0_0) (View.ld x1 r0_1) (View.ld x2 r0_2) (View.ld x3 r0_3) (View.ld x4 r0_4)⟩]

/-- The one store covers the block: its rectangle is the block. -/
theorem cover0_5 (p0 : Vec F S1x32x512 .f32) (y : S1x32x512.Idx) :
    ∃ pc ∈ ([⟨r0_5, p0⟩] : List (View.Piece (Elt F) S1x32x512 .f32)), y ∈ pc.1.set :=
  View.cover_of_tiled [⟨r0_5, p0⟩] S1x32x512.size (by rfl) y

/-! ## The body's triple -/

set_option maxHeartbeats 1000000 in
/-- The body on whole buffers, the inputs' reading x0 .. x4 and the output's anything, runs to a state in which the
    inputs' read what they did and the output's reads out0_5 x0 .. x4. -/
theorem sound_kernel0 (c : Dev nD) (E : Set ℕ) (i : grid0.Coords)
    (arg2 : Memref sig .tc .vmem S1x32x2048 .f32) (harg2 : arg2.IsWhole) (arg3 : Memref sig .tc .vmem S1x1x2048 .f32) (harg3 : arg3.IsWhole)
    (arg4 : Memref sig .tc .vmem S1x2048 .f32) (harg4 : arg4.IsWhole) (arg5 : Memref sig .tc .vmem S1x2048x512 .f32) (harg5 : arg5.IsWhole)
    (arg6 : Memref sig .tc .vmem S1x1x512 .f32) (harg6 : arg6.IsWhole) (arg7 : Memref sig .tc .vmem S1x32x512 .f32) (harg7 : arg7.IsWhole)
    (x0 : Vec F S1x32x2048 .f32) (x1 : Vec F S1x1x2048 .f32) (x2 : Vec F S1x2048 .f32) (x3 : Vec F S1x2048x512 .f32) (x4 : Vec F S1x1x512 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out0_5 x0 x1 x2 x3 x4)) -∗ K ⟨⟩))
      ⊢ wp frame (wpE (defs₀ (F := F)) Variants.none c none) E (cc0__encode_kernel i arg2 harg2 arg3 harg3 arg4 harg4 arg5 harg5 arg6 harg6 arg7 harg7) K := by
  simp only [cc0__encode_kernel_eq_skeleton]; unfold cc0__encode_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's data -/

/-- The data of the encoder call on core c: the arrays as the call finds them; after the body at point t each
    input's buffer at its block and the output's at out0_5 of the five input blocks; the invariant that of a body
    keeping nothing from point to point; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The data's arrays are the contents on entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

/-- Each input's current buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline argument, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KFrame.DecShared.lean ====
/-
  The decoder call (the second of the two grid programs): what the three runs of its body share.

  The grid has 4 x 8 = 32 points; point t = 8 r + k works on range r and on the k-th slab of 512 hidden units. The
  body is called with six windows' current buffers,
      x0 : [1, 32, 4096]   x1, x2 : [1, 1, 4096]   x3 : [1, 512, 2048]   x4 : [1, 2048]     (inputs)
      y  : [1, 32, 2048]                                                                    (output)
  and with two buffers of its own that live across points: a [32, 4096] half-precision buffer holding the range's
  features, and a [32, 2048] single-precision accumulator. Two tests on k split the points into three kinds:
      k = 0        the features are computed from x0, x1, x2 and stored, the accumulator is zeroed, then the slab's
                   product is added to the accumulator;
      1 ≤ k ≤ 6    only the slab's product is added;
      k = 7        the slab's product is added, and the accumulator plus x4 is stored over the whole output block.
  The output block is stored at k = 7 only, and the pipeline writes it back at those points only.

  This file states, at an arbitrary contents V of the arrays on entry: each window's block at a point; that an
  input's current buffer holds its block at every point; the two tests in closed form; at which points the output
  window is left alone; the names of the buffers the body is called with; and the call's invariant with the two
  carried buffers separated from the other buffers it merely holds.
-/
import proofs.«109662_j11768210391682_2_alg».proof.Proof.Gen.Kernel.Launch
import proofs.«109662_j11768210391682_2_alg».proof.Proof.Gen.Kernel.Skeleton
import proofs.«109662_j11768210391682_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with an axis of length 4096 recurses once per coordinate of that axis
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every array when the call is entered: everything below is stated at an arbitrary such V
variable (V : (c : Dev nD) → (b : Ref sig .tc) → Buf (Elt F) ((c : Thread nD τ).loc b))

/-! ## The windows' blocks -/

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current buffer holds its block at every point, whether or not the block was fetched at that
    point: if it was not, the block index is the previous point's, and the body left that block in place. One
    statement per input window, for any data whose array is V's and whose body leaves the block as found. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's two tests -/

/-- The first test, "k = 0", as the body computes it from the grid coordinates. -/
abbrev cond1_0 (i : grid1.Coords) : Prop := (Scalar.cmpi .ne (Scalar.extui (Scalar.cmpi .eq (BitVec.ofNat 32 (i 1).val) 0#32)) 0#32) = 1#1
/-- It holds exactly at the points t with t % 8 = 0: checked point by point. -/
theorem hcond1_0 : ∀ t : Fin cfg1.N, cond1_0 (grid1.coords t) ↔ t.val % 8 = 0 :=
  (by decide +kernel : ∀ t : Fin grid1.N, cond1_0 (grid1.coords t) ↔ t.val % 8 = 0)

/-- The second test, "k = 7", as the body computes it from the grid coordinates. -/
abbrev cond1_1 (i : grid1.Coords) : Prop := k1_cond2 i = 1#1
/-- It holds exactly at the points t with t % 8 = 7: checked point by point. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where a window is left alone

  The five inputs are read at every point. The output block is stored only where the second test holds; elsewhere
  the body does not touch its buffer and the pipeline does not write the block back. -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- At a point with k = 0 the output window is left alone, -/
theorem idleAt1_5_A : ∀ t : Fin cfg1.N, cond1_0 (grid1.coords t) → ¬cond1_1 (grid1.coords t) → cfg1.idle 5 (grid1.coords t) = true := by decide +kernel
/-- and its block is not written back. -/
theorem noFlush1_5_A : ∀ t : Fin cfg1.N, cond1_0 (grid1.coords t) → ¬cond1_1 (grid1.coords t) → (cfg1.win 5).flush t = false := by decide +kernel
/-- At a point with 1 ≤ k ≤ 6 the output window is left alone, -/
theorem idleAt1_5_B : ∀ t : Fin cfg1.N, ¬cond1_0 (grid1.coords t) → ¬cond1_1 (grid1.coords t) → cfg1.idle 5 (grid1.coords t) = true := by decide +kernel
/-- and its block is not written back. -/
theorem noFlush1_5_B : ∀ t : Fin cfg1.N, ¬cond1_0 (grid1.coords t) → ¬cond1_1 (grid1.coords t) → (cfg1.win 5).flush t = false := by decide +kernel
/-- At a point with k = 7 the output block is stored. -/
theorem liveAt1_5_C : ∀ t : Fin cfg1.N, ¬cond1_0 (grid1.coords t) → cond1_1 (grid1.coords t) → cfg1.idle 5 (grid1.coords t) = false := by decide +kernel

/-! ## The buffers the body is called with -/

/-- One of the output window's two buffers, as a view: contents of the output block are stated through it (which of
    the two is immaterial: a block's contents covered by stores do not depend on the buffer). -/
abbrev VO1_5 : View sig .tc .vmem S1x32x2048 .f32 := (Memref.whole cc1_stg5_0 : Memref sig .tc .vmem S1x32x2048 .f32).view
/-- Each window's current buffer at point t, as the pipeline passes it, and that it is a whole buffer. -/
abbrev ms1_0 (t : Fin cfg1.N) : Memref sig .tc .vmem S1x32x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x4096 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x2048 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x2048 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x32x2048 .f32 := win1_5.stage (cfg1.slots t 5)
abbrev hs1_5 (t : Fin cfg1.N) : (ms1_5 t).IsWhole := hstage1_5 ((cfg1.slots t 5).cast nbuf1_5)
/-- The feature buffer [32, 4096], half precision: a whole buffer of the call's own, passed beside the windows. -/
abbrev scM1_0 : Memref sig .tc .vmem S32x4096 .bf16 := Memref.whole cc1_scratch0
/-- The accumulator [32, 2048], single precision: likewise. -/
abbrev scM1_1 : Memref sig .tc .vmem S32x2048 .f32 := Memref.whole cc1_scratch1
/-- The feature buffer as a view: what it holds between points is stated through it. -/
abbrev VS1_0 : View sig .tc .vmem S32x4096 .bf16 := scM1_0.view
/-- The accumulator as a view. -/
abbrev VS1_1 : View sig .tc .vmem S32x2048 .f32 := scM1_1.view

/-! ## The call's invariant -/

/-- The buffers the core holds during this call that this call's body never touches: the encoder call's eleven
    window buffers, each whole at some contents. -/
def OTHERS1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f))

/-- What the call starts from and must give back, with the two carried buffers brought to the front: the feature
    buffer and the accumulator at some contents each, the untouched buffers, and the generator register at some
    state. (The same separating conjunction as the library's, reordered.) -/
theorem PhiA1_eq (c : Dev nD) :
    (Pipeline.ΦA spec1 c : sProp 𝕄)
      = iprop(iprop((∃ d, owns (c : Thread nD τ) scM1_0 fullShare d) ∗ (∃ d, owns (c : Thread nD τ) scM1_1 fullShare d) ∗ OTHERS1 c) ∗ (∃ r, prngReg c r)) := by
  unfold Pipeline.ΦA; rw [scopedRest1_eq]; simp only [scM1_0, scM1_1, owns_whole]; unfold OTHERS1
  have h₁ : (iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ (∃ r, prngReg c r)) : sProp 𝕄)
      ⊢ (iprop(iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f)) ∗ (∃ r, prngReg c r)) : sProp 𝕄) := by
    iintro ⟨⟨H0, H1, H2, H3, H4, H5, H6, H7, H8, H9, H10, HS0, HS1⟩, Hg⟩
    isplitr [Hg]
    · skip
      isplitl [HS0]; · iexact HS0
      isplitl [HS1]; · iexact HS1
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    iexact Hg
  have h₂ : (iprop(iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f)) ∗ (∃ r, prngReg c r)) : sProp 𝕄)
      ⊢ (iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ (∃ r, prngReg c r)) : sProp 𝕄) := by
    iintro ⟨⟨HS0, HS1, H0, H1, H2, H3, H4, H5, H6, H7, H8, H9, H10⟩, Hg⟩
    isplitr [Hg]
    · skip
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      iexact HS1
    iexact Hg
  exact BI.equiv_iff.mp ⟨h₁, h₂⟩

end Cert.Kernel.Fr

end
-- ==== Proof.KFrame.DecRunA.lean ====
/-
  The decoder call's body run whole at a point with k = 0 (first test taken, second not).

  At such a point the body reads x0, x1, x2 whole, stores the range's features over the whole feature buffer, stores
  zero over the whole accumulator, reads slab k of the feature buffer and x3 whole, and stores accumulator + slab
  product over the whole accumulator. It does not touch the output block's buffer. Neither carried buffer is read
  before it is overwritten whole, so both may enter at any contents.
-/
import proofs.«109662_j11768210391682_2_alg».proof.Proof.KFrame.DecShared

-- membership of an index in a rectangle with an axis of length 4096 recurses once per coordinate of that axis
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large; the definition's closing pass over it needs more than the default budget)
set_option maxHeartbeats 1000000 in
/-- THE RUN AT k = 0. Three lists of stored pieces, last store first — for the output block's buffer (none: the body
    stores nothing there), for the feature buffer (one store of the whole buffer) and for the accumulator (two stores
    of the whole buffer) — WITH the proof that, on whole buffers, from
      the five inputs' buffers at their blocks x0 … x4, the output's buffer at any contents xi5, the feature buffer
      and the accumulator at anything,
    the body runs to a state with
      the inputs' buffers as they were, the output's buffer still at xi5, the feature buffer and the accumulator
      at their pieces written over what they held.
    Components: .1 the output's pieces, .2.1 the feature buffer's, .2.2.1 the accumulator's, .2.2.2 the triple. -/
noncomputable def kernelRun1_A (c : Dev nD) (i : grid1.Coords) (arg2 : Memref sig .tc .vmem S1x32x4096 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x512x2048 .f32) (harg5 : arg5.IsWhole) (arg6 : Memref sig .tc .vmem S1x2048 .f32) (harg6 : arg6.IsWhole) (arg7 : Memref sig .tc .vmem S1x32x2048 .f32) (harg7 : arg7.IsWhole) (arg8 : Memref sig .tc .vmem S32x4096 .bf16) (harg8 : arg8.IsWhole) (arg9 : Memref sig .tc .vmem S32x2048 .f32) (harg9 : arg9.IsWhole) (hc0 : cond1_0 i) (hc1 : ¬cond1_1 i)
    (x0 : Vec F S1x32x4096 .f32) (x1 : Vec F S1x1x4096 .f32) (x2 : Vec F S1x1x4096 .f32) (x3 : Vec F S1x512x2048 .f32) (x4 : Vec F S1x2048 .f32) :
    Σ' (L5 : List (View.Piece (Elt F) S1x32x2048 .f32)) (LS0 : List (View.Piece (Elt F) S32x4096 .bf16)), { LS1 : List (View.Piece (Elt F) S32x2048 .f32) //
      ∀ (xi5 : Vec F S1x32x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__decode_kernel i arg2 harg2 arg3 harg3 arg4 harg4 arg5 harg5 arg6 harg6 arg7 harg7 arg8 harg8 arg9 harg9) K } := by
  refine ⟨[], ?_, ?_, fun xi5 E K => ?run⟩
  case run =>
    simp only [cc1__decode_kernel_eq_skeleton]; unfold cc1__decode_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.Kernel.Fr

end
-- ==== Proof.KFrame.DecRunB.lean ====
/-
  The decoder call's body run whole at a point with 1 ≤ k ≤ 6 (neither test taken).

  At such a point the body reads slab k of the feature buffer and x3 whole, and stores accumulator + slab product
  over the whole accumulator. It stores nothing else: the feature buffer is only read, the output block's buffer is
  not touched.
-/
import proofs.«109662_j11768210391682_2_alg».proof.Proof.KFrame.DecRunA

-- membership of an index in a rectangle with an axis of length 4096 recurses once per coordinate of that axis
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large; the definition's closing pass over it needs more than the default budget)
set_option maxHeartbeats 1000000 in
/-- THE RUN AT 1 ≤ k ≤ 6. Two lists of stored pieces, last store first — for the output block's buffer (none) and
    for the accumulator (one store of the whole buffer) — WITH the proof that, on whole buffers, from
      the five inputs' buffers at their blocks x0 … x4, the output's buffer at any contents xi5, the feature buffer
      at the contents xs0 and the accumulator at the contents xs1 the point before left,
    the body runs to a state with
      the inputs' buffers as they were, the output's buffer still at xi5, the feature buffer still at xs0, the
      accumulator at its pieces written over what it held.
    Components: .1 the output's pieces, .2.1 the accumulator's, .2.2 the triple. -/
noncomputable def kernelRun1_B (c : Dev nD) (i : grid1.Coords) (arg2 : Memref sig .tc .vmem S1x32x4096 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x512x2048 .f32) (harg5 : arg5.IsWhole) (arg6 : Memref sig .tc .vmem S1x2048 .f32) (harg6 : arg6.IsWhole) (arg7 : Memref sig .tc .vmem S1x32x2048 .f32) (harg7 : arg7.IsWhole) (arg8 : Memref sig .tc .vmem S32x4096 .bf16) (harg8 : arg8.IsWhole) (arg9 : Memref sig .tc .vmem S32x2048 .f32) (harg9 : arg9.IsWhole) (hc0 : ¬cond1_0 i) (hc1 : ¬cond1_1 i)
    (x0 : Vec F S1x32x4096 .f32) (x1 : Vec F S1x1x4096 .f32) (x2 : Vec F S1x1x4096 .f32) (x3 : Vec F S1x512x2048 .f32) (x4 : Vec F S1x2048 .f32) (xs0 : Vec F S32x4096 .bf16) (xs1 : Vec F S32x2048 .f32) :
    Σ' (L5 : List (View.Piece (Elt F) S1x32x2048 .f32)), { LS1 : List (View.Piece (Elt F) S32x2048 .f32) //
      ∀ (xi5 : Vec F S1x32x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ (∃ f, arg9.view.loc (c : Thread nD τ) ↦[arg9.view.set]{fullShare} arg9.view.writes (Elt F) f LS1)) -∗ K ⟨⟩))
          ⊢ wp frame (wpE (defs₀ (F := F)) Variants.none c none) E (cc1__decode_kernel i arg2 harg2 arg3 harg3 arg4 harg4 arg5 harg5 arg6 harg6 arg7 harg7 arg8 harg8 arg9 harg9) K } := by
  refine ⟨[], ?_, fun xi5 E K => ?run⟩
  case run =>
    simp only [cc1__decode_kernel_eq_skeleton]; unfold cc1__decode_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; isplitr; · ipureintro; exact harg8.read_unread _
      iexact HS0
    iexists _; iexact HS1

end Cert.Kernel.Fr

end
-- ==== Proof.KFrame.DecRunC.lean ====
/-
  The decoder call's body run whole at a point with k = 7 (second test taken, first not).

  At such a point the body reads slab k of the feature buffer and x3 whole, stores accumulator + slab product over
  the whole accumulator, then reads x4 and the accumulator whole and stores accumulator + x4 (x4 repeated along
  the 32 rows) over the whole output block's buffer. The feature buffer is only read. The output's buffer is
  overwritten whole without its old contents being used, so it may enter at any contents.
-/
import proofs.«109662_j11768210391682_2_alg».proof.Proof.KFrame.DecRunB

-- membership of an index in a rectangle with an axis of length 4096 recurses once per coordinate of that axis
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large; the definition's closing pass over it needs more than the default budget)
set_option maxHeartbeats 1000000 in
/-- THE RUN AT k = 7. Two lists of stored pieces, last store first — for the output block's buffer (one store of
    the whole buffer) and for the accumulator (one store of the whole buffer) — WITH the proof that, on whole
    buffers, from
      the five inputs' buffers at their blocks x0 … x4, the output's buffer at anything, the feature buffer at the
      contents xs0 and the accumulator at the contents xs1 the point before left,
    the body runs to a state with
      the inputs' buffers as they were, the feature buffer still at xs0, the output's buffer and the accumulator at
      their pieces written over what they held.
    Components: .1 the output's pieces, .2.1 the accumulator's, .2.2 the triple. -/
noncomputable def kernelRun1_C (c : Dev nD) (i : grid1.Coords) (arg2 : Memref sig .tc .vmem S1x32x4096 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x512x2048 .f32) (harg5 : arg5.IsWhole) (arg6 : Memref sig .tc .vmem S1x2048 .f32) (harg6 : arg6.IsWhole) (arg7 : Memref sig .tc .vmem S1x32x2048 .f32) (harg7 : arg7.IsWhole) (arg8 : Memref sig .tc .vmem S32x4096 .bf16) (harg8 : arg8.IsWhole) (arg9 : Memref sig .tc .vmem S32x2048 .f32) (harg9 : arg9.IsWhole) (hc0 : ¬cond1_0 i) (hc1 : cond1_1 i)
    (x0 : Vec F S1x32x4096 .f32) (x1 : Vec F S1x1x4096 .f32) (x2 : Vec F S1x1x4096 .f32) (x3 : Vec F S1x512x2048 .f32) (x4 : Vec F S1x2048 .f32) (xs0 : Vec F S32x4096 .bf16) (xs1 : Vec F S32x2048 .f32) :
    Σ' (L5 : List (View.Piece (Elt F) S1x32x2048 .f32)), { LS1 : List (View.Piece (Elt F) S32x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xs0 ∗ (∃ f, arg9.view.loc (c : Thread nD τ) ↦[arg9.view.set]{fullShare} arg9.view.writes (Elt F) f LS1)) -∗ K ⟨⟩))
          ⊢ wp frame (wpE (defs₀ (F := F)) Variants.none c none) E (cc1__decode_kernel i arg2 harg2 arg3 harg3 arg4 harg4 arg5 harg5 arg6 harg6 arg7 harg7 arg8 harg8 arg9 harg9) K } := by
  refine ⟨?_, ?_, fun E K => ?run⟩
  case run =>
    simp only [cc1__decode_kernel_eq_skeleton]; unfold cc1__decode_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]
    · iexists _; isplitr; · ipureintro; exact harg8.read_unread _
      iexact HS0
    iexists _; iexact HS1

end Cert.Kernel.Fr

end
-- ==== Proof.KFrame.Dec.lean ====
/-
  The decoder call (the second of the two grid programs), its half of the frame argument, for any float instance.

  The three runs of the body (k = 0, 1 ≤ k ≤ 6, k = 7) give, per kind of point, the pieces the body stores into the
  output block's buffer, into the feature buffer and into the accumulator. This file
    * reads those pieces back as contents, having checked that they cover the buffer wherever the contents are used;
    * defines, by recursion along the 32 points, what the output's buffer, the feature buffer and the accumulator
      hold after each point (the feature buffer changes at k = 0 only; the accumulator at every point; the output's
      buffer at k = 7 only);
    * states the call's invariant: before the first point the two carried buffers hold anything, after point n they
      hold what the recursion says;
    * packages all this as the data the pipeline argument takes, at an arbitrary contents V of the arrays on entry,
      and proves the body's obligation at every point, and that the invariant starts from and ends in what the call
      is handed and must give back.
-/
import proofs.«109662_j11768210391682_2_alg».proof.Proof.KFrame.DecRunC

-- membership of an index in a rectangle with an axis of length 4096 recurses once per coordinate of that axis
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every array when the call is entered: everything below is stated at an arbitrary such V
variable (V : (c : Dev nD) → (b : Ref sig .tc) → Buf (Elt F) ((c : Thread nD τ).loc b))

/-! ## What each kind of point leaves, from its run's pieces -/

/-- At a point with k = 0 the body stores nothing into the output block's buffer: no pieces. A placeholder (junk read back) that nothing
    consults, since at these points the block is neither written back nor read at the next point. -/
def out1_A_5 (c : Dev nD) (i : grid1.Coords) (arg2 : Memref sig .tc .vmem S1x32x4096 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x512x2048 .f32) (harg5 : arg5.IsWhole) (arg6 : Memref sig .tc .vmem S1x2048 .f32) (harg6 : arg6.IsWhole) (arg7 : Memref sig .tc .vmem S1x32x2048 .f32) (harg7 : arg7.IsWhole) (arg8 : Memref sig .tc .vmem S32x4096 .bf16) (harg8 : arg8.IsWhole) (arg9 : Memref sig .tc .vmem S32x2048 .f32) (harg9 : arg9.IsWhole) (hc0 : cond1_0 i) (hc1 : ¬cond1_1 i)
    (x0 : Vec F S1x32x4096 .f32) (x1 : Vec F S1x1x4096 .f32) (x2 : Vec F S1x1x4096 .f32) (x3 : Vec F S1x512x2048 .f32) (x4 : Vec F S1x2048 .f32) : Vec F S1x32x2048 .f32 :=
  VO1_5.read (Elt F) (VO1_5.writes (Elt F) VO1_5.junk (kernelRun1_A c i arg2 harg2 arg3 harg3 arg4 harg4 arg5 harg5 arg6 harg6 arg7 harg7 arg8 harg8 arg9 harg9 hc0 hc1 x0 x1 x2 x3 x4).1)

/-- At a point with k = 0 the one store into the feature buffer is of the whole buffer, so its pieces cover it. -/
theorem scover1_A_0 (c : Dev nD) (i : grid1.Coords) (arg2 : Memref sig .tc .vmem S1x32x4096 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x512x2048 .f32) (harg5 : arg5.IsWhole) (arg6 : Memref sig .tc .vmem S1x2048 .f32) (harg6 : arg6.IsWhole) (arg7 : Memref sig .tc .vmem S1x32x2048 .f32) (harg7 : arg7.IsWhole) (arg8 : Memref sig .tc .vmem S32x4096 .bf16) (harg8 : arg8.IsWhole) (arg9 : Memref sig .tc .vmem S32x2048 .f32) (harg9 : arg9.IsWhole) (hc0 : cond1_0 i) (hc1 : ¬cond1_1 i)
    (x0 : Vec F S1x32x4096 .f32) (x1 : Vec F S1x1x4096 .f32) (x2 : Vec F S1x1x4096 .f32) (x3 : Vec F S1x512x2048 .f32) (x4 : Vec F S1x2048 .f32) (y : S32x4096.Idx) :
    ∃ pc ∈ (kernelRun1_A c i arg2 harg2 arg3 harg3 arg4 harg4 arg5 harg5 arg6 harg6 arg7 harg7 arg8 harg8 arg9 harg9 hc0 hc1 x0 x1 x2 x3 x4).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4).2.1 S32x4096.size (by sl_kernel_rfl) y

/-- What the body leaves in the feature buffer at such a point: its pieces read back over junk. -/
def sout1_A_0 (c : Dev nD) (i : grid1.Coords) (arg2 : Memref sig .tc .vmem S1x32x4096 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x512x2048 .f32) (harg5 : arg5.IsWhole) (arg6 : Memref sig .tc .vmem S1x2048 .f32) (harg6 : arg6.IsWhole) (arg7 : Memref sig .tc .vmem S1x32x2048 .f32) (harg7 : arg7.IsWhole) (arg8 : Memref sig .tc .vmem S32x4096 .bf16) (harg8 : arg8.IsWhole) (arg9 : Memref sig .tc .vmem S32x2048 .f32) (harg9 : arg9.IsWhole) (hc0 : cond1_0 i) (hc1 : ¬cond1_1 i)
    (x0 : Vec F S1x32x4096 .f32) (x1 : Vec F S1x1x4096 .f32) (x2 : Vec F S1x1x4096 .f32) (x3 : Vec F S1x512x2048 .f32) (x4 : Vec F S1x2048 .f32) : Vec F S32x4096 .bf16 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3 x4).2.1)

/-- At a point with k = 0 the stores into the accumulator are of the whole buffer, so its pieces cover it. -/
theorem scover1_A_1 (c : Dev nD) (i : grid1.Coords) (arg2 : Memref sig .tc .vmem S1x32x4096 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x512x2048 .f32) (harg5 : arg5.IsWhole) (arg6 : Memref sig .tc .vmem S1x2048 .f32) (harg6 : arg6.IsWhole) (arg7 : Memref sig .tc .vmem S1x32x2048 .f32) (harg7 : arg7.IsWhole) (arg8 : Memref sig .tc .vmem S32x4096 .bf16) (harg8 : arg8.IsWhole) (arg9 : Memref sig .tc .vmem S32x2048 .f32) (harg9 : arg9.IsWhole) (hc0 : cond1_0 i) (hc1 : ¬cond1_1 i)
    (x0 : Vec F S1x32x4096 .f32) (x1 : Vec F S1x1x4096 .f32) (x2 : Vec F S1x1x4096 .f32) (x3 : Vec F S1x512x2048 .f32) (x4 : Vec F S1x2048 .f32) (y : S32x2048.Idx) :
    ∃ pc ∈ (kernelRun1_A c i arg2 harg2 arg3 harg3 arg4 harg4 arg5 harg5 arg6 harg6 arg7 harg7 arg8 harg8 arg9 harg9 hc0 hc1 x0 x1 x2 x3 x4).2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4).2.2.1 S32x2048.size (by sl_kernel_rfl) y

/-- What the body leaves in the accumulator at such a point: its pieces read back over junk. -/
def sout1_A_1 (c : Dev nD) (i : grid1.Coords) (arg2 : Memref sig .tc .vmem S1x32x4096 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x512x2048 .f32) (harg5 : arg5.IsWhole) (arg6 : Memref sig .tc .vmem S1x2048 .f32) (harg6 : arg6.IsWhole) (arg7 : Memref sig .tc .vmem S1x32x2048 .f32) (harg7 : arg7.IsWhole) (arg8 : Memref sig .tc .vmem S32x4096 .bf16) (harg8 : arg8.IsWhole) (arg9 : Memref sig .tc .vmem S32x2048 .f32) (harg9 : arg9.IsWhole) (hc0 : cond1_0 i) (hc1 : ¬cond1_1 i)
    (x0 : Vec F S1x32x4096 .f32) (x1 : Vec F S1x1x4096 .f32) (x2 : Vec F S1x1x4096 .f32) (x3 : Vec F S1x512x2048 .f32) (x4 : Vec F S1x2048 .f32) : Vec F S32x2048 .f32 :=
  VS1_1.read (Elt F) (VS1_1.writes (Elt F) VS1_1.junk (kernelRun1_A c i arg2 harg2 arg3 harg3 arg4 harg4 arg5 harg5 arg6 harg6 arg7 harg7 arg8 harg8 arg9 harg9 hc0 hc1 x0 x1 x2 x3 x4).2.2.1)

/-- At a point with 1 ≤ k ≤ 6 the body stores nothing into the output block's buffer: no pieces. A placeholder (junk read back) that nothing
    consults, since at these points the block is neither written back nor read at the next point. -/
def out1_B_5 (c : Dev nD) (i : grid1.Coords) (arg2 : Memref sig .tc .vmem S1x32x4096 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x512x2048 .f32) (harg5 : arg5.IsWhole) (arg6 : Memref sig .tc .vmem S1x2048 .f32) (harg6 : arg6.IsWhole) (arg7 : Memref sig .tc .vmem S1x32x2048 .f32) (harg7 : arg7.IsWhole) (arg8 : Memref sig .tc .vmem S32x4096 .bf16) (harg8 : arg8.IsWhole) (arg9 : Memref sig .tc .vmem S32x2048 .f32) (harg9 : arg9.IsWhole) (hc0 : ¬cond1_0 i) (hc1 : ¬cond1_1 i)
    (x0 : Vec F S1x32x4096 .f32) (x1 : Vec F S1x1x4096 .f32) (x2 : Vec F S1x1x4096 .f32) (x3 : Vec F S1x512x2048 .f32) (x4 : Vec F S1x2048 .f32) (xs0 : Vec F S32x4096 .bf16) (xs1 : Vec F S32x2048 .f32) : Vec F S1x32x2048 .f32 :=
  VO1_5.read (Elt F) (VO1_5.writes (Elt F) VO1_5.junk (kernelRun1_B c i arg2 harg2 arg3 harg3 arg4 harg4 arg5 harg5 arg6 harg6 arg7 harg7 arg8 harg8 arg9 harg9 hc0 hc1 x0 x1 x2 x3 x4 xs0 xs1).1)

/-- At a point with 1 ≤ k ≤ 6 the stores into the accumulator are of the whole buffer, so its pieces cover it. -/
theorem scover1_B_1 (c : Dev nD) (i : grid1.Coords) (arg2 : Memref sig .tc .vmem S1x32x4096 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x512x2048 .f32) (harg5 : arg5.IsWhole) (arg6 : Memref sig .tc .vmem S1x2048 .f32) (harg6 : arg6.IsWhole) (arg7 : Memref sig .tc .vmem S1x32x2048 .f32) (harg7 : arg7.IsWhole) (arg8 : Memref sig .tc .vmem S32x4096 .bf16) (harg8 : arg8.IsWhole) (arg9 : Memref sig .tc .vmem S32x2048 .f32) (harg9 : arg9.IsWhole) (hc0 : ¬cond1_0 i) (hc1 : ¬cond1_1 i)
    (x0 : Vec F S1x32x4096 .f32) (x1 : Vec F S1x1x4096 .f32) (x2 : Vec F S1x1x4096 .f32) (x3 : Vec F S1x512x2048 .f32) (x4 : Vec F S1x2048 .f32) (xs0 : Vec F S32x4096 .bf16) (xs1 : Vec F S32x2048 .f32) (y : S32x2048.Idx) :
    ∃ pc ∈ (kernelRun1_B c i arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 xs0 xs1).2.1 S32x2048.size (by sl_kernel_rfl) y

/-- What the body leaves in the accumulator at such a point: its pieces read back over junk. -/
def sout1_B_1 (c : Dev nD) (i : grid1.Coords) (arg2 : Memref sig .tc .vmem S1x32x4096 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x512x2048 .f32) (harg5 : arg5.IsWhole) (arg6 : Memref sig .tc .vmem S1x2048 .f32) (harg6 : arg6.IsWhole) (arg7 : Memref sig .tc .vmem S1x32x2048 .f32) (harg7 : arg7.IsWhole) (arg8 : Memref sig .tc .vmem S32x4096 .bf16) (harg8 : arg8.IsWhole) (arg9 : Memref sig .tc .vmem S32x2048 .f32) (harg9 : arg9.IsWhole) (hc0 : ¬cond1_0 i) (hc1 : ¬cond1_1 i)
    (x0 : Vec F S1x32x4096 .f32) (x1 : Vec F S1x1x4096 .f32) (x2 : Vec F S1x1x4096 .f32) (x3 : Vec F S1x512x2048 .f32) (x4 : Vec F S1x2048 .f32) (xs0 : Vec F S32x4096 .bf16) (xs1 : Vec F S32x2048 .f32) : Vec F S32x2048 .f32 :=
  VS1_1.read (Elt F) (VS1_1.writes (Elt F) VS1_1.junk (kernelRun1_B c i arg2 harg2 arg3 harg3 arg4 harg4 arg5 harg5 arg6 harg6 arg7 harg7 arg8 harg8 arg9 harg9 hc0 hc1 x0 x1 x2 x3 x4 xs0 xs1).2.1)

/-- At a point with k = 7 the one store into the output block's buffer is of the whole block, so its pieces cover the block. -/
theorem cover1_C_5 (c : Dev nD) (i : grid1.Coords) (arg2 : Memref sig .tc .vmem S1x32x4096 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x512x2048 .f32) (harg5 : arg5.IsWhole) (arg6 : Memref sig .tc .vmem S1x2048 .f32) (harg6 : arg6.IsWhole) (arg7 : Memref sig .tc .vmem S1x32x2048 .f32) (harg7 : arg7.IsWhole) (arg8 : Memref sig .tc .vmem S32x4096 .bf16) (harg8 : arg8.IsWhole) (arg9 : Memref sig .tc .vmem S32x2048 .f32) (harg9 : arg9.IsWhole) (hc0 : ¬cond1_0 i) (hc1 : cond1_1 i)
    (x0 : Vec F S1x32x4096 .f32) (x1 : Vec F S1x1x4096 .f32) (x2 : Vec F S1x1x4096 .f32) (x3 : Vec F S1x512x2048 .f32) (x4 : Vec F S1x2048 .f32) (xs0 : Vec F S32x4096 .bf16) (xs1 : Vec F S32x2048 .f32) (y : S1x32x2048.Idx) :
    ∃ pc ∈ (kernelRun1_C c i arg2 harg2 arg3 harg3 arg4 harg4 arg5 harg5 arg6 harg6 arg7 harg7 arg8 harg8 arg9 harg9 hc0 hc1 x0 x1 x2 x3 x4 xs0 xs1).1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 xs0 xs1).1 S1x32x2048.size (by sl_kernel_rfl) y

/-- What the body leaves in the output block's buffer at a point with k = 7: its pieces read back over junk (they cover the block, so the
    junk is nowhere read). -/
def out1_C_5 (c : Dev nD) (i : grid1.Coords) (arg2 : Memref sig .tc .vmem S1x32x4096 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x512x2048 .f32) (harg5 : arg5.IsWhole) (arg6 : Memref sig .tc .vmem S1x2048 .f32) (harg6 : arg6.IsWhole) (arg7 : Memref sig .tc .vmem S1x32x2048 .f32) (harg7 : arg7.IsWhole) (arg8 : Memref sig .tc .vmem S32x4096 .bf16) (harg8 : arg8.IsWhole) (arg9 : Memref sig .tc .vmem S32x2048 .f32) (harg9 : arg9.IsWhole) (hc0 : ¬cond1_0 i) (hc1 : cond1_1 i)
    (x0 : Vec F S1x32x4096 .f32) (x1 : Vec F S1x1x4096 .f32) (x2 : Vec F S1x1x4096 .f32) (x3 : Vec F S1x512x2048 .f32) (x4 : Vec F S1x2048 .f32) (xs0 : Vec F S32x4096 .bf16) (xs1 : Vec F S32x2048 .f32) : Vec F S1x32x2048 .f32 :=
  VO1_5.read (Elt F) (VO1_5.writes (Elt F) VO1_5.junk (kernelRun1_C c i arg2 harg2 arg3 harg3 arg4 harg4 arg5 harg5 arg6 harg6 arg7 harg7 arg8 harg8 arg9 harg9 hc0 hc1 x0 x1 x2 x3 x4 xs0 xs1).1)

/-- At a point with k = 7 the stores into the accumulator are of the whole buffer, so its pieces cover it. -/
theorem scover1_C_1 (c : Dev nD) (i : grid1.Coords) (arg2 : Memref sig .tc .vmem S1x32x4096 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x512x2048 .f32) (harg5 : arg5.IsWhole) (arg6 : Memref sig .tc .vmem S1x2048 .f32) (harg6 : arg6.IsWhole) (arg7 : Memref sig .tc .vmem S1x32x2048 .f32) (harg7 : arg7.IsWhole) (arg8 : Memref sig .tc .vmem S32x4096 .bf16) (harg8 : arg8.IsWhole) (arg9 : Memref sig .tc .vmem S32x2048 .f32) (harg9 : arg9.IsWhole) (hc0 : ¬cond1_0 i) (hc1 : cond1_1 i)
    (x0 : Vec F S1x32x4096 .f32) (x1 : Vec F S1x1x4096 .f32) (x2 : Vec F S1x1x4096 .f32) (x3 : Vec F S1x512x2048 .f32) (x4 : Vec F S1x2048 .f32) (xs0 : Vec F S32x4096 .bf16) (xs1 : Vec F S32x2048 .f32) (y : S32x2048.Idx) :
    ∃ pc ∈ (kernelRun1_C c i arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 xs0 xs1).2.1 S32x2048.size (by sl_kernel_rfl) y

/-- What the body leaves in the accumulator at such a point: its pieces read back over junk. -/
def sout1_C_1 (c : Dev nD) (i : grid1.Coords) (arg2 : Memref sig .tc .vmem S1x32x4096 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x512x2048 .f32) (harg5 : arg5.IsWhole) (arg6 : Memref sig .tc .vmem S1x2048 .f32) (harg6 : arg6.IsWhole) (arg7 : Memref sig .tc .vmem S1x32x2048 .f32) (harg7 : arg7.IsWhole) (arg8 : Memref sig .tc .vmem S32x4096 .bf16) (harg8 : arg8.IsWhole) (arg9 : Memref sig .tc .vmem S32x2048 .f32) (harg9 : arg9.IsWhole) (hc0 : ¬cond1_0 i) (hc1 : cond1_1 i)
    (x0 : Vec F S1x32x4096 .f32) (x1 : Vec F S1x1x4096 .f32) (x2 : Vec F S1x1x4096 .f32) (x3 : Vec F S1x512x2048 .f32) (x4 : Vec F S1x2048 .f32) (xs0 : Vec F S32x4096 .bf16) (xs1 : Vec F S32x2048 .f32) : Vec F S32x2048 .f32 :=
  VS1_1.read (Elt F) (VS1_1.writes (Elt F) VS1_1.junk (kernelRun1_C c i arg2 harg2 arg3 harg3 arg4 harg4 arg5 harg5 arg6 harg6 arg7 harg7 arg8 harg8 arg9 harg9 hc0 hc1 x0 x1 x2 x3 x4 xs0 xs1).2.1)

/-! ## What the buffers hold after each point -/

/-- THE ACCUMULATION. After the body at position n: (what the output block's buffer holds, what the feature buffer
    holds, what the accumulator holds). The kind of point is read off n % 8; the run of that kind is taken at the
    point's buffers and input blocks and, for 1 ≤ k ≤ 7, at what the two carried buffers held after position n - 1.
    At 1 ≤ k ≤ 7 the feature buffer's component is that of position n - 1, unchanged. (No point has both k = 0 and
    k = 7.) -/
def outsAt1 (c : Dev nD) : (n : ℕ) → n < cfg1.N → Vec F S1x32x2048 .f32 × Vec F S32x4096 .bf16 × Vec F S32x2048 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩),
          sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩),
          sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 8 = 0 then
      if h1 : (n + 1) % 8 = 7 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩),
          sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩),
          sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 8 = 7 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2,
          (outsAt1 c n (Nat.lt_of_succ_lt hn)).2.1,
          sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2,
          (outsAt1 c n (Nat.lt_of_succ_lt hn)).2.1,
          sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2)

/-- At a point with k = 0: that kind's contents, whatever came before. -/
theorem outsAt1_A (c : Dev nD) (t : Fin cfg1.N) (h0 : t.val % 8 = 0) (h1 : ¬t.val % 8 = 7) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t),
          sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t),
          sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- At a point with 1 ≤ k ≤ 6: that kind's contents over what the point before left; the feature buffer's component
    is the point before's. -/
theorem outsAt1_B (c : Dev nD) (t : Fin cfg1.N) (h0 : ¬t.val % 8 = 0) (h1 : ¬t.val % 8 = 7) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2,
          (outsAt1 V c (t.val - 1) (Nat.lt_of_le_of_lt (Nat.sub_le _ _) t.isLt)).2.1,
          sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a point with k = 7: that kind's contents over what the point before left; the feature buffer's component is
    the point before's. -/
theorem outsAt1_C (c : Dev nD) (t : Fin cfg1.N) (h0 : ¬t.val % 8 = 0) (h1 : t.val % 8 = 7) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2,
          (outsAt1 V c (t.val - 1) (Nat.lt_of_le_of_lt (Nat.sub_le _ _) t.isLt)).2.1,
          sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The call's invariant, point by point -/

/-- Before position n: at n = 0 what the call is handed (the two carried buffers at anything); at n + 1 the feature
    buffer and the accumulator at what position n left in them, the buffers the body never touches, and the
    generator register at some state. -/
def PhiS1 (c : Dev nD) : (n : ℕ) → n ≤ cfg1.N → sProp 𝕄
  | 0, _ => Pipeline.ΦA spec1 c
  | n + 1, hn => iprop(iprop(owns (c : Thread nD τ) scM1_0 fullShare (outsAt1 V c n hn).2.1 ∗ owns (c : Thread nD τ) scM1_1 fullShare (outsAt1 V c n hn).2.2 ∗ OTHERS1 c) ∗ (∃ r, prngReg c r))

theorem PhiS1_zero (c : Dev nD) (n : ℕ) (h : n ≤ cfg1.N) (hz : n = 0) : PhiS1 V c n h = Pipeline.ΦA spec1 c := by
  subst hz; rfl

/-- After point n (before point n + 1): the carried buffers at that point's contents. -/
theorem PhiS1_succ (c : Dev nD) (n : ℕ) (hn : n < cfg1.N) :
    PhiS1 V c (n + 1) hn = iprop(iprop(owns (c : Thread nD τ) scM1_0 fullShare (outsAt1 V c n hn).2.1 ∗ owns (c : Thread nD τ) scM1_1 fullShare (outsAt1 V c n hn).2.2 ∗ OTHERS1 c) ∗ (∃ r, prngReg c r)) := rfl

/-- Before a point that is not the first: the carried buffers at what the point before left. -/
theorem PhiS1_pos (c : Dev nD) (n : ℕ) (h : n ≤ cfg1.N) (hz : n ≠ 0) :
    PhiS1 V c n h = iprop(iprop(owns (c : Thread nD τ) scM1_0 fullShare (outsAt1 V c (n - 1) (by omega)).2.1 ∗ owns (c : Thread nD τ) scM1_1 fullShare (outsAt1 V c (n - 1) (by omega)).2.2 ∗ OTHERS1 c) ∗ (∃ r, prngReg c r)) := by
  cases n with
  | zero => exact absurd rfl hz
  | succ n => rfl

/-! ## The data of the pipeline argument -/

/-- The data of the decoder call's pipeline on core c: the arrays as the call finds them (V); after the body at
    point t each input's buffer at its block and the output's buffer at the first component of the accumulation; the
    invariant PhiS1; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

/-- The data's arrays are the contents on entry. -/
theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

/-- Each input's current buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns: each window's buffer as the pipeline argument wants it left (an input's at its block; the
    output's at the accumulation's first component where the block is stored, as found where it is left alone). -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' buffers hold their blocks; t % 8 says which kind of point it is, so that kind's
    run applies. The invariant hands the body the two carried buffers — at anything at the very first point, else at
    what the point before left (forgotten again at k = 0, where the body overwrites both before reading them) — and
    takes them back at this point's contents: a buffer the run stored into at its pieces read back (they cover it),
    the feature buffer at 1 ≤ k ≤ 7 as it was. The buffers the body never touches, the generator register and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 8 = 0
  · by_cases h1 : t.val % 8 = 7
    · exfalso; omega
    · -- k = 0
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold sout1_A_0 sout1_A_1; (try dsimp only)
      by_cases hz : t.val = 0
      · -- the very first point: the carried buffers as the call was handed them
        rw [PhiS1_castSucc V c t, PhiS1_zero V c _ _ hz, PhiA1_eq]
        iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 HR Hg]
        · isplitr [Hg]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · -- a later range's first point: what the point before left is forgotten
        rw [PhiS1_castSucc V c t, PhiS1_pos V c _ _ hz]
        iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        iintro ⟨H0, H1, H2, H3, H4, H5, ⟨%es0, HS0⟩, ⟨%es1, HS1⟩⟩
        isplitl [HS0 HS1 HR Hg]
        · isplitr [Hg]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · have hz : t.val ≠ 0 := fun e => h0 (by rw [e])
    by_cases h1 : t.val % 8 = 7
    · -- k = 7
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold out1_C_5 sout1_C_1; (try dsimp only)
      rw [PhiS1_castSucc V c t, PhiS1_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, HS0, ⟨%es1, HS1⟩⟩
      isplitl [HS0 HS1 HR Hg]
      · isplitr [Hg]
        · isplitl [HS0]; · iexact HS0
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _ _ _ _)
    · -- 1 ≤ k ≤ 6
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold sout1_B_1; (try dsimp only)
      rw [PhiS1_castSucc V c t, PhiS1_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _ _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, ⟨%es1, HS1⟩⟩
      isplitl [HS0 HS1 HR Hg]
      · isplitr [Hg]
        · isplitl [HS0]; · iexact HS0
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation of the pipeline argument, at every point. -/
theorem body_obligation1 (c : Dev nD) : BodyObligation (dat1 (F := F) V c) (defs₀ (F := F)) Variants.none () Set.univ := fun t => by
  rw [bigSep_W1, bigSep_W1]
  exact sound_body1 V c t

/-- What the call is handed is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives back what the call was handed: the carried buffers' named contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HS1, HR⟩, Hg⟩
  isplitr [Hg]
  · isplitl [HS0]; · iexists _; iexact HS0
    isplitl [HS1]; · iexists _; iexact HS1
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.Kernel.Fr

end
-- ==== Proof.KFrame.Run.lean ====
/-
  The whole run of the kernel program: @main is four segments in order — seven host reshapes, the encoder region,
  the decoder region, one host reshape — and the contents of every unscoped buffer are followed through them:
  `W0` the launch memory, `W1` after the reshapes, `W2` with the encoder's arrays at what its write-backs leave,
  `W3` likewise after the decoder, `W4` after the last reshape. No segment writes an argument array, so each is
  read back through the fold to its launch contents (the frame), and the result buffer is read at `W4`.
  Stated at any float instance.
-/
import proofs.«109662_j11768210391682_2_alg».proof.Proof.KFrame.Enc
import proofs.«109662_j11768210391682_2_alg».proof.Proof.KFrame.Dec
import proofs.«109662_j11768210391682_2_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

/-- Core `c`'s buffers at launch. -/
abbrev W0 : Dev nD → Valuation τ sig (Elt F) := fun c b => m (c, b)
/-- After the seven reshapes (the encoder's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At the encoder's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (the decoder's entry: no host operation lies between the regions). -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the decoder's exit: its arrays at what the pipeline leaves, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the last reshape. -/
abbrev W4 : Dev nD → Valuation τ sig (Elt F) := fun c => StableHlo.after hostOps2 (W3 m c)

/-! ### The arguments end as launched: no host operation and no region writes one -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (r := main_arg0) (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (r := main_arg1) (by decide)
    _ = W2 m c (Proc.devRef .tc main_arg1) := W3_of_ne m c main_arg1 (by decide)
    _ = W1 m c (Proc.devRef .tc main_arg1) := (W2_arr m c 3).trans (((dat0 (V1 m) c).arrAt_in 3 rfl _).trans (A_eq0 (V1 m) c 3))
    _ = W0 m c (Proc.devRef .tc main_arg1) := StableHlo.after_of_writes_sub hostOps0 _ hostOps0_writes (r := main_arg1) (by decide)
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (r := main_arg2) (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_writes_sub hostOps2 _ hostOps2_writes (r := main_arg3) (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := StableHlo.after_of_writes_sub hostOps2 _ hostOps2_writes (r := main_arg4) (by decide)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl

theorem W4_main_arg5 (c : Dev nD) : W4 m c (Proc.devRef .tc main_arg5) = m ((c : Thread nD τ).loc main_arg5) :=
  calc W4 m c (Proc.devRef .tc main_arg5)
    _ = W3 m c (Proc.devRef .tc main_arg5) := StableHlo.after_of_writes_sub hostOps2 _ hostOps2_writes (r := main_arg5) (by decide)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl

theorem W4_main_arg6 (c : Dev nD) : W4 m c (Proc.devRef .tc main_arg6) = m ((c : Thread nD τ).loc main_arg6) :=
  calc W4 m c (Proc.devRef .tc main_arg6)
    _ = W3 m c (Proc.devRef .tc main_arg6) := StableHlo.after_of_writes_sub hostOps2 _ hostOps2_writes (r := main_arg6) (by decide)
    _ = W2 m c (Proc.devRef .tc main_arg6) := W3_of_ne m c main_arg6 (by decide)
    _ = W1 m c (Proc.devRef .tc main_arg6) := W2_of_ne m c main_arg6 (by decide)
    _ = W0 m c (Proc.devRef .tc main_arg6) := StableHlo.after_of_writes_sub hostOps0 _ hostOps0_writes (r := main_arg6) (by decide)
    _ = m ((c : Thread nD τ).loc main_arg6) := rfl

theorem W4_main_arg7 (c : Dev nD) : W4 m c (Proc.devRef .tc main_arg7) = m ((c : Thread nD τ).loc main_arg7) :=
  calc W4 m c (Proc.devRef .tc main_arg7)
    _ = W3 m c (Proc.devRef .tc main_arg7) := StableHlo.after_of_writes_sub hostOps2 _ hostOps2_writes (r := main_arg7) (by decide)
    _ = W2 m c (Proc.devRef .tc main_arg7) := W3_of_ne m c main_arg7 (by decide)
    _ = W1 m c (Proc.devRef .tc main_arg7) := W2_of_ne m c main_arg7 (by decide)
    _ = W0 m c (Proc.devRef .tc main_arg7) := StableHlo.after_of_writes_sub hostOps0 _ hostOps0_writes (r := main_arg7) (by decide)
    _ = m ((c : Thread nD τ).loc main_arg7) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W4`, the generator register at some state. -/
abbrev Tₙ (c : Dev nD) : sProp 𝕄 := iprop(StableHlo.held (c : Thread nD τ) (Pipeline.ucRefs τ sig) (W4 m c) ∗ ∃ r, prngReg c r)

/-! ## The regions as segments -/

-- a library lemma stated over the pinned configuration unifies with the printed one only when unification may unfold
-- plain definitions in a metavariable's type
set_option backward.isDefEq.respectTransparency.types false in
/-- Region 0 over the thread state: entered from every unscoped buffer at `W1`, left at `W2`. Its arrays are split
    out of the unscoped buffers and put back at the exit contents; the generator register goes into the region's
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `W2`, left at `W3`. Its arrays are split
    out of the unscoped buffers and put back at the exit contents; the generator register goes into the region's
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m) c)
    unfold Pipeline.ΦA
    iintro ⟨Hp, -, Hr⟩
    isplitl [Hr]; · iexact Hr
    iexact Hp
  hout c := by
    refine BIBase.Entails.trans (hout1 (V2 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
/-- @main IS the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final memory holds every unscoped buffer at `W4`; any post that follows from that holds of every final state. -/
theorem run_W4 (ρ : Dev nD → PrngReg) {Q : PUnit × MemSt nD τ sig (Elt F) → Prop}
    (hQ : ∀ s : MemSt nD τ sig (Elt F), (∀ c : Dev nD, ∀ b ∈ Pipeline.ucRefs τ sig, s.mem (((c : Thread nD τ)).1, b) = W4 m c b) → Q (⟨⟩, s)) :
    θ_run defs (onTc (τ := τ) (main (F := F))) ⟨m, fun _ => 0, ρ⟩ Q :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := hQ)

/-- THE FRAME: every weakly fair execution terminates, nothing faulting, and the argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_W4 m ρ fun s h c =>
    ⟨(h c _ (mem_uc main_arg0 (by decide))).trans (W4_main_arg0 m c),
      (h c _ (mem_uc main_arg1 (by decide))).trans (W4_main_arg1 m c),
      (h c _ (mem_uc main_arg2 (by decide))).trans (W4_main_arg2 m c),
      (h c _ (mem_uc main_arg3 (by decide))).trans (W4_main_arg3 m c),
      (h c _ (mem_uc main_arg4 (by decide))).trans (W4_main_arg4 m c),
      (h c _ (mem_uc main_arg5 (by decide))).trans (W4_main_arg5 m c),
      (h c _ (mem_uc main_arg6 (by decide))).trans (W4_main_arg6 m c),
      (h c _ (mem_uc main_arg7 (by decide))).trans (W4_main_arg7 m c)⟩

/-- The same run with the result buffer named: it ends at `W4`'s contents, the arguments as launched. -/
theorem run_result (ρ : Dev nD → PrngReg) : θ_run defs (onTc (τ := τ) (main (F := F))) ⟨m, fun _ => 0, ρ⟩ (fun r => ∀ c : Dev nD,
      r.2.mem ((c.tc : Thread nD τ).loc main_v9) = W4 m c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_W4 m ρ fun s h c =>
    ⟨h c _ (mem_uc main_v9 (by decide)),
      (h c _ (mem_uc main_arg0 (by decide))).trans (W4_main_arg0 m c),
      (h c _ (mem_uc main_arg1 (by decide))).trans (W4_main_arg1 m c),
      (h c _ (mem_uc main_arg2 (by decide))).trans (W4_main_arg2 m c),
      (h c _ (mem_uc main_arg3 (by decide))).trans (W4_main_arg3 m c),
      (h c _ (mem_uc main_arg4 (by decide))).trans (W4_main_arg4 m c),
      (h c _ (mem_uc main_arg5 (by decide))).trans (W4_main_arg5 m c),
      (h c _ (mem_uc main_arg6 (by decide))).trans (W4_main_arg6 m c),
      (h c _ (mem_uc main_arg7 (by decide))).trans (W4_main_arg7 m c)⟩

end Cert.Kernel.Fr

end
-- ==== Proof.KIFrame.Enc.lean ====
/-
  The encoder call (the first of the two grid programs), its half of the frame argument, for any float instance.

  The grid has 4 x 8 = 32 points. At a point the body reads five input blocks whole,
      x0 : [1, 32, 2048]   x1 : [1, 1, 2048]   x2 : [1, 2048]   x3 : [1, 2048, 512]   x4 : [1, 1, 512],
  and overwrites the whole [1, 32, 512] output block with one value computed from them. So what the output block
  holds after the body is a closed function of the five input blocks at the point, and each input block is left as
  it was found. This file names that function, proves the body's triple, and packages both as the data the
  pipeline argument takes, at an arbitrary contents V of the arrays on entry.
-/
import proofs.«109662_j11768210391682_2_alg».proof.Proof.Gen.KernelIdeal.Launch
import proofs.«109662_j11768210391682_2_alg».proof.Proof.Gen.KernelIdeal.Skeleton
import proofs.«109662_j11768210391682_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with an axis of length 2048 recurses once per coordinate of that axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every array when the call is entered: everything below is stated at an arbitrary such V
variable (V : (c : Dev nD) → (b : Ref sig .tc) → Buf (Elt F) ((c : Thread nD τ).loc b))

/-! ## The windows' blocks -/

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current buffer holds its block at every point, whether or not the block was fetched at that
    point: if it was not, the block index is the previous point's, and the body left that block in place. One
    statement per input window, for any data whose array is V's and whose body leaves the block as found. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store go through the whole block -/

abbrev r0_0 : Rect S1x32x2048 := Rect.unit (s := S1x32x2048) ![0, 0, 0] S1x32x2048.size inb_S1x32x2048_S1x32x2048_0_0_0
abbrev r0_1 : Rect S1x1x2048 := Rect.unit (s := S1x1x2048) ![0, 0, 0] S1x1x2048.size inb_S1x1x2048_S1x1x2048_0_0_0
abbrev r0_2 : Rect S1x2048 := Rect.unit (s := S1x2048) ![0, 0] S1x2048.size inb_S1x2048_S1x2048_0_0
abbrev r0_3 : Rect S1x2048x512 := Rect.unit (s := S1x2048x512) ![0, 0, 0] S1x2048x512.size inb_S1x2048x512_S1x2048x512_0_0_0
abbrev r0_4 : Rect S1x1x512 := Rect.unit (s := S1x1x512) ![0, 0, 0] S1x1x512.size inb_S1x1x512_S1x1x512_0_0_0
abbrev r0_5 : Rect S1x32x512 := Rect.unit (s := S1x32x512) ![0, 0, 0] S1x32x512.size inb_S1x32x512_S1x32x512_0_0_0

/-! ## What the body leaves in the output window's buffer -/

/-- The output block after the body, from the five input blocks: the one store's value laid over the whole block. -/
def out0_5 (x0 : Vec F S1x32x2048 .f32) (x1 : Vec F S1x1x2048 .f32) (x2 : Vec F S1x2048 .f32) (x3 : Vec F S1x2048x512 .f32) (x4 : Vec F S1x1x512 .f32) : Vec F S1x32x512 .f32 :=
  View.canon [⟨r0_5, k0_pay1 (View.ld x0 r0_0) (View.ld x1 r0_1) (View.ld x2 r0_2) (View.ld x3 r0_3) (View.ld x4 r0_4)⟩]

/-- The one store covers the block: its rectangle is the block. -/
theorem cover0_5 (p0 : Vec F S1x32x512 .f32) (y : S1x32x512.Idx) :
    ∃ pc ∈ ([⟨r0_5, p0⟩] : List (View.Piece (Elt F) S1x32x512 .f32)), y ∈ pc.1.set :=
  View.cover_of_tiled [⟨r0_5, p0⟩] S1x32x512.size (by rfl) y

/-! ## The body's triple -/

set_option maxHeartbeats 1000000 in
/-- The body on whole buffers, the inputs' reading x0 .. x4 and the output's anything, runs to a state in which the
    inputs' read what they did and the output's reads out0_5 x0 .. x4. -/
theorem sound_kernel0 (c : Dev nD) (E : Set ℕ) (i : grid0.Coords)
    (arg2 : Memref sig .tc .vmem S1x32x2048 .f32) (harg2 : arg2.IsWhole) (arg3 : Memref sig .tc .vmem S1x1x2048 .f32) (harg3 : arg3.IsWhole)
    (arg4 : Memref sig .tc .vmem S1x2048 .f32) (harg4 : arg4.IsWhole) (arg5 : Memref sig .tc .vmem S1x2048x512 .f32) (harg5 : arg5.IsWhole)
    (arg6 : Memref sig .tc .vmem S1x1x512 .f32) (harg6 : arg6.IsWhole) (arg7 : Memref sig .tc .vmem S1x32x512 .f32) (harg7 : arg7.IsWhole)
    (x0 : Vec F S1x32x2048 .f32) (x1 : Vec F S1x1x2048 .f32) (x2 : Vec F S1x2048 .f32) (x3 : Vec F S1x2048x512 .f32) (x4 : Vec F S1x1x512 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out0_5 x0 x1 x2 x3 x4)) -∗ K ⟨⟩))
      ⊢ wp frame (wpE (defs₀ (F := F)) Variants.none c none) E (cc0__encode_kernel i arg2 harg2 arg3 harg3 arg4 harg4 arg5 harg5 arg6 harg6 arg7 harg7) K := by
  simp only [cc0__encode_kernel_eq_skeleton]; unfold cc0__encode_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's data -/

/-- The data of the encoder call on core c: the arrays as the call finds them; after the body at point t each
    input's buffer at its block and the output's at out0_5 of the five input blocks; the invariant that of a body
    keeping nothing from point to point; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The data's arrays are the contents on entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

/-- Each input's current buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline argument, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KIFrame.DecShared.lean ====
/-
  The decoder call (the second of the two grid programs): what the three runs of its body share.

  The grid has 4 x 8 = 32 points; point t = 8 r + k works on range r and on the k-th slab of 512 hidden units. The
  body is called with six windows' current buffers,
      x0 : [1, 32, 4096]   x1, x2 : [1, 1, 4096]   x3 : [1, 512, 2048]   x4 : [1, 2048]     (inputs)
      y  : [1, 32, 2048]                                                                    (output)
  and with two buffers of its own that live across points: a [32, 4096] half-precision buffer holding the range's
  features, and a [32, 2048] single-precision accumulator. Two tests on k split the points into three kinds:
      k = 0        the features are computed from x0, x1, x2 and stored, the accumulator is zeroed, then the slab's
                   product is added to the accumulator;
      1 ≤ k ≤ 6    only the slab's product is added;
      k = 7        the slab's product is added, and the accumulator plus x4 is stored over the whole output block.
  The output block is stored at k = 7 only, and the pipeline writes it back at those points only.

  This file states, at an arbitrary contents V of the arrays on entry: each window's block at a point; that an
  input's current buffer holds its block at every point; the two tests in closed form; at which points the output
  window is left alone; the names of the buffers the body is called with; and the call's invariant with the two
  carried buffers separated from the other buffers it merely holds.
-/
import proofs.«109662_j11768210391682_2_alg».proof.Proof.Gen.KernelIdeal.Launch
import proofs.«109662_j11768210391682_2_alg».proof.Proof.Gen.KernelIdeal.Skeleton
import proofs.«109662_j11768210391682_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with an axis of length 4096 recurses once per coordinate of that axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every array when the call is entered: everything below is stated at an arbitrary such V
variable (V : (c : Dev nD) → (b : Ref sig .tc) → Buf (Elt F) ((c : Thread nD τ).loc b))

/-! ## The windows' blocks -/

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current buffer holds its block at every point, whether or not the block was fetched at that
    point: if it was not, the block index is the previous point's, and the body left that block in place. One
    statement per input window, for any data whose array is V's and whose body leaves the block as found. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's two tests -/

/-- The first test, "k = 0", as the body computes it from the grid coordinates. -/
abbrev cond1_0 (i : grid1.Coords) : Prop := (Scalar.cmpi .ne (Scalar.extui (Scalar.cmpi .eq (BitVec.ofNat 32 (i 1).val) 0#32)) 0#32) = 1#1
/-- It holds exactly at the points t with t % 8 = 0: checked point by point. -/
theorem hcond1_0 : ∀ t : Fin cfg1.N, cond1_0 (grid1.coords t) ↔ t.val % 8 = 0 :=
  (by decide +kernel : ∀ t : Fin grid1.N, cond1_0 (grid1.coords t) ↔ t.val % 8 = 0)

/-- The second test, "k = 7", as the body computes it from the grid coordinates. -/
abbrev cond1_1 (i : grid1.Coords) : Prop := k1_cond2 i = 1#1
/-- It holds exactly at the points t with t % 8 = 7: checked point by point. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where a window is left alone

  The five inputs are read at every point. The output block is stored only where the second test holds; elsewhere
  the body does not touch its buffer and the pipeline does not write the block back. -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- At a point with k = 0 the output window is left alone, -/
theorem idleAt1_5_A : ∀ t : Fin cfg1.N, cond1_0 (grid1.coords t) → ¬cond1_1 (grid1.coords t) → cfg1.idle 5 (grid1.coords t) = true := by decide +kernel
/-- and its block is not written back. -/
theorem noFlush1_5_A : ∀ t : Fin cfg1.N, cond1_0 (grid1.coords t) → ¬cond1_1 (grid1.coords t) → (cfg1.win 5).flush t = false := by decide +kernel
/-- At a point with 1 ≤ k ≤ 6 the output window is left alone, -/
theorem idleAt1_5_B : ∀ t : Fin cfg1.N, ¬cond1_0 (grid1.coords t) → ¬cond1_1 (grid1.coords t) → cfg1.idle 5 (grid1.coords t) = true := by decide +kernel
/-- and its block is not written back. -/
theorem noFlush1_5_B : ∀ t : Fin cfg1.N, ¬cond1_0 (grid1.coords t) → ¬cond1_1 (grid1.coords t) → (cfg1.win 5).flush t = false := by decide +kernel
/-- At a point with k = 7 the output block is stored. -/
theorem liveAt1_5_C : ∀ t : Fin cfg1.N, ¬cond1_0 (grid1.coords t) → cond1_1 (grid1.coords t) → cfg1.idle 5 (grid1.coords t) = false := by decide +kernel

/-! ## The buffers the body is called with -/

/-- One of the output window's two buffers, as a view: contents of the output block are stated through it (which of
    the two is immaterial: a block's contents covered by stores do not depend on the buffer). -/
abbrev VO1_5 : View sig .tc .vmem S1x32x2048 .f32 := (Memref.whole cc1_stg5_0 : Memref sig .tc .vmem S1x32x2048 .f32).view
/-- Each window's current buffer at point t, as the pipeline passes it, and that it is a whole buffer. -/
abbrev ms1_0 (t : Fin cfg1.N) : Memref sig .tc .vmem S1x32x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x4096 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x2048 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x2048 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x32x2048 .f32 := win1_5.stage (cfg1.slots t 5)
abbrev hs1_5 (t : Fin cfg1.N) : (ms1_5 t).IsWhole := hstage1_5 ((cfg1.slots t 5).cast nbuf1_5)
/-- The feature buffer [32, 4096], half precision: a whole buffer of the call's own, passed beside the windows. -/
abbrev scM1_0 : Memref sig .tc .vmem S32x4096 .bf16 := Memref.whole cc1_scratch0
/-- The accumulator [32, 2048], single precision: likewise. -/
abbrev scM1_1 : Memref sig .tc .vmem S32x2048 .f32 := Memref.whole cc1_scratch1
/-- The feature buffer as a view: what it holds between points is stated through it. -/
abbrev VS1_0 : View sig .tc .vmem S32x4096 .bf16 := scM1_0.view
/-- The accumulator as a view. -/
abbrev VS1_1 : View sig .tc .vmem S32x2048 .f32 := scM1_1.view

/-! ## The call's invariant -/

/-- The buffers the core holds during this call that this call's body never touches: the encoder call's eleven
    window buffers, each whole at some contents. -/
def OTHERS1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f))

/-- What the call starts from and must give back, with the two carried buffers brought to the front: the feature
    buffer and the accumulator at some contents each, the untouched buffers, and the generator register at some
    state. (The same separating conjunction as the library's, reordered.) -/
theorem PhiA1_eq (c : Dev nD) :
    (Pipeline.ΦA spec1 c : sProp 𝕄)
      = iprop(iprop((∃ d, owns (c : Thread nD τ) scM1_0 fullShare d) ∗ (∃ d, owns (c : Thread nD τ) scM1_1 fullShare d) ∗ OTHERS1 c) ∗ (∃ r, prngReg c r)) := by
  unfold Pipeline.ΦA; rw [scopedRest1_eq]; simp only [scM1_0, scM1_1, owns_whole]; unfold OTHERS1
  have h₁ : (iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ (∃ r, prngReg c r)) : sProp 𝕄)
      ⊢ (iprop(iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f)) ∗ (∃ r, prngReg c r)) : sProp 𝕄) := by
    iintro ⟨⟨H0, H1, H2, H3, H4, H5, H6, H7, H8, H9, H10, HS0, HS1⟩, Hg⟩
    isplitr [Hg]
    · skip
      isplitl [HS0]; · iexact HS0
      isplitl [HS1]; · iexact HS1
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    iexact Hg
  have h₂ : (iprop(iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f)) ∗ (∃ r, prngReg c r)) : sProp 𝕄)
      ⊢ (iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ (∃ r, prngReg c r)) : sProp 𝕄) := by
    iintro ⟨⟨HS0, HS1, H0, H1, H2, H3, H4, H5, H6, H7, H8, H9, H10⟩, Hg⟩
    isplitr [Hg]
    · skip
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      iexact HS1
    iexact Hg
  exact BI.equiv_iff.mp ⟨h₁, h₂⟩

end Cert.KernelIdeal.Fr

end
-- ==== Proof.KIFrame.DecRunA.lean ====
/-
  The decoder call's body run whole at a point with k = 0 (first test taken, second not).

  At such a point the body reads x0, x1, x2 whole, stores the range's features over the whole feature buffer, stores
  zero over the whole accumulator, reads slab k of the feature buffer and x3 whole, and stores accumulator + slab
  product over the whole accumulator. It does not touch the output block's buffer. Neither carried buffer is read
  before it is overwritten whole, so both may enter at any contents.
-/
import proofs.«109662_j11768210391682_2_alg».proof.Proof.KIFrame.DecShared

-- membership of an index in a rectangle with an axis of length 4096 recurses once per coordinate of that axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large; the definition's closing pass over it needs more than the default budget)
set_option maxHeartbeats 1000000 in
/-- THE RUN AT k = 0. Three lists of stored pieces, last store first — for the output block's buffer (none: the body
    stores nothing there), for the feature buffer (one store of the whole buffer) and for the accumulator (two stores
    of the whole buffer) — WITH the proof that, on whole buffers, from
      the five inputs' buffers at their blocks x0 … x4, the output's buffer at any contents xi5, the feature buffer
      and the accumulator at anything,
    the body runs to a state with
      the inputs' buffers as they were, the output's buffer still at xi5, the feature buffer and the accumulator
      at their pieces written over what they held.
    Components: .1 the output's pieces, .2.1 the feature buffer's, .2.2.1 the accumulator's, .2.2.2 the triple. -/
noncomputable def kernelRun1_A (c : Dev nD) (i : grid1.Coords) (arg2 : Memref sig .tc .vmem S1x32x4096 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x512x2048 .f32) (harg5 : arg5.IsWhole) (arg6 : Memref sig .tc .vmem S1x2048 .f32) (harg6 : arg6.IsWhole) (arg7 : Memref sig .tc .vmem S1x32x2048 .f32) (harg7 : arg7.IsWhole) (arg8 : Memref sig .tc .vmem S32x4096 .bf16) (harg8 : arg8.IsWhole) (arg9 : Memref sig .tc .vmem S32x2048 .f32) (harg9 : arg9.IsWhole) (hc0 : cond1_0 i) (hc1 : ¬cond1_1 i)
    (x0 : Vec F S1x32x4096 .f32) (x1 : Vec F S1x1x4096 .f32) (x2 : Vec F S1x1x4096 .f32) (x3 : Vec F S1x512x2048 .f32) (x4 : Vec F S1x2048 .f32) :
    Σ' (L5 : List (View.Piece (Elt F) S1x32x2048 .f32)) (LS0 : List (View.Piece (Elt F) S32x4096 .bf16)), { LS1 : List (View.Piece (Elt F) S32x2048 .f32) //
      ∀ (xi5 : Vec F S1x32x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__decode_kernel i arg2 harg2 arg3 harg3 arg4 harg4 arg5 harg5 arg6 harg6 arg7 harg7 arg8 harg8 arg9 harg9) K } := by
  refine ⟨[], ?_, ?_, fun xi5 E K => ?run⟩
  case run =>
    simp only [cc1__decode_kernel_eq_skeleton]; unfold cc1__decode_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.KernelIdeal.Fr

end
-- ==== Proof.KIFrame.DecRunB.lean ====
/-
  The decoder call's body run whole at a point with 1 ≤ k ≤ 6 (neither test taken).

  At such a point the body reads slab k of the feature buffer and x3 whole, and stores accumulator + slab product
  over the whole accumulator. It stores nothing else: the feature buffer is only read, the output block's buffer is
  not touched.
-/
import proofs.«109662_j11768210391682_2_alg».proof.Proof.KIFrame.DecRunA

-- membership of an index in a rectangle with an axis of length 4096 recurses once per coordinate of that axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large; the definition's closing pass over it needs more than the default budget)
set_option maxHeartbeats 1000000 in
/-- THE RUN AT 1 ≤ k ≤ 6. Two lists of stored pieces, last store first — for the output block's buffer (none) and
    for the accumulator (one store of the whole buffer) — WITH the proof that, on whole buffers, from
      the five inputs' buffers at their blocks x0 … x4, the output's buffer at any contents xi5, the feature buffer
      at the contents xs0 and the accumulator at the contents xs1 the point before left,
    the body runs to a state with
      the inputs' buffers as they were, the output's buffer still at xi5, the feature buffer still at xs0, the
      accumulator at its pieces written over what it held.
    Components: .1 the output's pieces, .2.1 the accumulator's, .2.2 the triple. -/
noncomputable def kernelRun1_B (c : Dev nD) (i : grid1.Coords) (arg2 : Memref sig .tc .vmem S1x32x4096 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x512x2048 .f32) (harg5 : arg5.IsWhole) (arg6 : Memref sig .tc .vmem S1x2048 .f32) (harg6 : arg6.IsWhole) (arg7 : Memref sig .tc .vmem S1x32x2048 .f32) (harg7 : arg7.IsWhole) (arg8 : Memref sig .tc .vmem S32x4096 .bf16) (harg8 : arg8.IsWhole) (arg9 : Memref sig .tc .vmem S32x2048 .f32) (harg9 : arg9.IsWhole) (hc0 : ¬cond1_0 i) (hc1 : ¬cond1_1 i)
    (x0 : Vec F S1x32x4096 .f32) (x1 : Vec F S1x1x4096 .f32) (x2 : Vec F S1x1x4096 .f32) (x3 : Vec F S1x512x2048 .f32) (x4 : Vec F S1x2048 .f32) (xs0 : Vec F S32x4096 .bf16) (xs1 : Vec F S32x2048 .f32) :
    Σ' (L5 : List (View.Piece (Elt F) S1x32x2048 .f32)), { LS1 : List (View.Piece (Elt F) S32x2048 .f32) //
      ∀ (xi5 : Vec F S1x32x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ (∃ f, arg9.view.loc (c : Thread nD τ) ↦[arg9.view.set]{fullShare} arg9.view.writes (Elt F) f LS1)) -∗ K ⟨⟩))
          ⊢ wp frame (wpE (defs₀ (F := F)) Variants.none c none) E (cc1__decode_kernel i arg2 harg2 arg3 harg3 arg4 harg4 arg5 harg5 arg6 harg6 arg7 harg7 arg8 harg8 arg9 harg9) K } := by
  refine ⟨[], ?_, fun xi5 E K => ?run⟩
  case run =>
    simp only [cc1__decode_kernel_eq_skeleton]; unfold cc1__decode_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; isplitr; · ipureintro; exact harg8.read_unread _
      iexact HS0
    iexists _; iexact HS1

end Cert.KernelIdeal.Fr

end
-- ==== Proof.KIFrame.DecRunC.lean ====
/-
  The decoder call's body run whole at a point with k = 7 (second test taken, first not).

  At such a point the body reads slab k of the feature buffer and x3 whole, stores accumulator + slab product over
  the whole accumulator, then reads x4 and the accumulator whole and stores accumulator + x4 (x4 repeated along
  the 32 rows) over the whole output block's buffer. The feature buffer is only read. The output's buffer is
  overwritten whole without its old contents being used, so it may enter at any contents.
-/
import proofs.«109662_j11768210391682_2_alg».proof.Proof.KIFrame.DecRunB

-- membership of an index in a rectangle with an axis of length 4096 recurses once per coordinate of that axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large; the definition's closing pass over it needs more than the default budget)
set_option maxHeartbeats 1000000 in
/-- THE RUN AT k = 7. Two lists of stored pieces, last store first — for the output block's buffer (one store of
    the whole buffer) and for the accumulator (one store of the whole buffer) — WITH the proof that, on whole
    buffers, from
      the five inputs' buffers at their blocks x0 … x4, the output's buffer at anything, the feature buffer at the
      contents xs0 and the accumulator at the contents xs1 the point before left,
    the body runs to a state with
      the inputs' buffers as they were, the feature buffer still at xs0, the output's buffer and the accumulator at
      their pieces written over what they held.
    Components: .1 the output's pieces, .2.1 the accumulator's, .2.2 the triple. -/
noncomputable def kernelRun1_C (c : Dev nD) (i : grid1.Coords) (arg2 : Memref sig .tc .vmem S1x32x4096 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x512x2048 .f32) (harg5 : arg5.IsWhole) (arg6 : Memref sig .tc .vmem S1x2048 .f32) (harg6 : arg6.IsWhole) (arg7 : Memref sig .tc .vmem S1x32x2048 .f32) (harg7 : arg7.IsWhole) (arg8 : Memref sig .tc .vmem S32x4096 .bf16) (harg8 : arg8.IsWhole) (arg9 : Memref sig .tc .vmem S32x2048 .f32) (harg9 : arg9.IsWhole) (hc0 : ¬cond1_0 i) (hc1 : cond1_1 i)
    (x0 : Vec F S1x32x4096 .f32) (x1 : Vec F S1x1x4096 .f32) (x2 : Vec F S1x1x4096 .f32) (x3 : Vec F S1x512x2048 .f32) (x4 : Vec F S1x2048 .f32) (xs0 : Vec F S32x4096 .bf16) (xs1 : Vec F S32x2048 .f32) :
    Σ' (L5 : List (View.Piece (Elt F) S1x32x2048 .f32)), { LS1 : List (View.Piece (Elt F) S32x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xs0 ∗ (∃ f, arg9.view.loc (c : Thread nD τ) ↦[arg9.view.set]{fullShare} arg9.view.writes (Elt F) f LS1)) -∗ K ⟨⟩))
          ⊢ wp frame (wpE (defs₀ (F := F)) Variants.none c none) E (cc1__decode_kernel i arg2 harg2 arg3 harg3 arg4 harg4 arg5 harg5 arg6 harg6 arg7 harg7 arg8 harg8 arg9 harg9) K } := by
  refine ⟨?_, ?_, fun E K => ?run⟩
  case run =>
    simp only [cc1__decode_kernel_eq_skeleton]; unfold cc1__decode_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]
    · iexists _; isplitr; · ipureintro; exact harg8.read_unread _
      iexact HS0
    iexists _; iexact HS1

end Cert.KernelIdeal.Fr

end
-- ==== Proof.KIFrame.Dec.lean ====
/-
  The decoder call (the second of the two grid programs), its half of the frame argument, for any float instance.

  The three runs of the body (k = 0, 1 ≤ k ≤ 6, k = 7) give, per kind of point, the pieces the body stores into the
  output block's buffer, into the feature buffer and into the accumulator. This file
    * reads those pieces back as contents, having checked that they cover the buffer wherever the contents are used;
    * defines, by recursion along the 32 points, what the output's buffer, the feature buffer and the accumulator
      hold after each point (the feature buffer changes at k = 0 only; the accumulator at every point; the output's
      buffer at k = 7 only);
    * states the call's invariant: before the first point the two carried buffers hold anything, after point n they
      hold what the recursion says;
    * packages all this as the data the pipeline argument takes, at an arbitrary contents V of the arrays on entry,
      and proves the body's obligation at every point, and that the invariant starts from and ends in what the call
      is handed and must give back.
-/
import proofs.«109662_j11768210391682_2_alg».proof.Proof.KIFrame.DecRunC

-- membership of an index in a rectangle with an axis of length 4096 recurses once per coordinate of that axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every array when the call is entered: everything below is stated at an arbitrary such V
variable (V : (c : Dev nD) → (b : Ref sig .tc) → Buf (Elt F) ((c : Thread nD τ).loc b))

/-! ## What each kind of point leaves, from its run's pieces -/

/-- At a point with k = 0 the body stores nothing into the output block's buffer: no pieces. A placeholder (junk read back) that nothing
    consults, since at these points the block is neither written back nor read at the next point. -/
def out1_A_5 (c : Dev nD) (i : grid1.Coords) (arg2 : Memref sig .tc .vmem S1x32x4096 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x512x2048 .f32) (harg5 : arg5.IsWhole) (arg6 : Memref sig .tc .vmem S1x2048 .f32) (harg6 : arg6.IsWhole) (arg7 : Memref sig .tc .vmem S1x32x2048 .f32) (harg7 : arg7.IsWhole) (arg8 : Memref sig .tc .vmem S32x4096 .bf16) (harg8 : arg8.IsWhole) (arg9 : Memref sig .tc .vmem S32x2048 .f32) (harg9 : arg9.IsWhole) (hc0 : cond1_0 i) (hc1 : ¬cond1_1 i)
    (x0 : Vec F S1x32x4096 .f32) (x1 : Vec F S1x1x4096 .f32) (x2 : Vec F S1x1x4096 .f32) (x3 : Vec F S1x512x2048 .f32) (x4 : Vec F S1x2048 .f32) : Vec F S1x32x2048 .f32 :=
  VO1_5.read (Elt F) (VO1_5.writes (Elt F) VO1_5.junk (kernelRun1_A c i arg2 harg2 arg3 harg3 arg4 harg4 arg5 harg5 arg6 harg6 arg7 harg7 arg8 harg8 arg9 harg9 hc0 hc1 x0 x1 x2 x3 x4).1)

/-- At a point with k = 0 the one store into the feature buffer is of the whole buffer, so its pieces cover it. -/
theorem scover1_A_0 (c : Dev nD) (i : grid1.Coords) (arg2 : Memref sig .tc .vmem S1x32x4096 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x512x2048 .f32) (harg5 : arg5.IsWhole) (arg6 : Memref sig .tc .vmem S1x2048 .f32) (harg6 : arg6.IsWhole) (arg7 : Memref sig .tc .vmem S1x32x2048 .f32) (harg7 : arg7.IsWhole) (arg8 : Memref sig .tc .vmem S32x4096 .bf16) (harg8 : arg8.IsWhole) (arg9 : Memref sig .tc .vmem S32x2048 .f32) (harg9 : arg9.IsWhole) (hc0 : cond1_0 i) (hc1 : ¬cond1_1 i)
    (x0 : Vec F S1x32x4096 .f32) (x1 : Vec F S1x1x4096 .f32) (x2 : Vec F S1x1x4096 .f32) (x3 : Vec F S1x512x2048 .f32) (x4 : Vec F S1x2048 .f32) (y : S32x4096.Idx) :
    ∃ pc ∈ (kernelRun1_A c i arg2 harg2 arg3 harg3 arg4 harg4 arg5 harg5 arg6 harg6 arg7 harg7 arg8 harg8 arg9 harg9 hc0 hc1 x0 x1 x2 x3 x4).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4).2.1 S32x4096.size (by sl_kernel_rfl) y

/-- What the body leaves in the feature buffer at such a point: its pieces read back over junk. -/
def sout1_A_0 (c : Dev nD) (i : grid1.Coords) (arg2 : Memref sig .tc .vmem S1x32x4096 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x512x2048 .f32) (harg5 : arg5.IsWhole) (arg6 : Memref sig .tc .vmem S1x2048 .f32) (harg6 : arg6.IsWhole) (arg7 : Memref sig .tc .vmem S1x32x2048 .f32) (harg7 : arg7.IsWhole) (arg8 : Memref sig .tc .vmem S32x4096 .bf16) (harg8 : arg8.IsWhole) (arg9 : Memref sig .tc .vmem S32x2048 .f32) (harg9 : arg9.IsWhole) (hc0 : cond1_0 i) (hc1 : ¬cond1_1 i)
    (x0 : Vec F S1x32x4096 .f32) (x1 : Vec F S1x1x4096 .f32) (x2 : Vec F S1x1x4096 .f32) (x3 : Vec F S1x512x2048 .f32) (x4 : Vec F S1x2048 .f32) : Vec F S32x4096 .bf16 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3 x4).2.1)

/-- At a point with k = 0 the stores into the accumulator are of the whole buffer, so its pieces cover it. -/
theorem scover1_A_1 (c : Dev nD) (i : grid1.Coords) (arg2 : Memref sig .tc .vmem S1x32x4096 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x512x2048 .f32) (harg5 : arg5.IsWhole) (arg6 : Memref sig .tc .vmem S1x2048 .f32) (harg6 : arg6.IsWhole) (arg7 : Memref sig .tc .vmem S1x32x2048 .f32) (harg7 : arg7.IsWhole) (arg8 : Memref sig .tc .vmem S32x4096 .bf16) (harg8 : arg8.IsWhole) (arg9 : Memref sig .tc .vmem S32x2048 .f32) (harg9 : arg9.IsWhole) (hc0 : cond1_0 i) (hc1 : ¬cond1_1 i)
    (x0 : Vec F S1x32x4096 .f32) (x1 : Vec F S1x1x4096 .f32) (x2 : Vec F S1x1x4096 .f32) (x3 : Vec F S1x512x2048 .f32) (x4 : Vec F S1x2048 .f32) (y : S32x2048.Idx) :
    ∃ pc ∈ (kernelRun1_A c i arg2 harg2 arg3 harg3 arg4 harg4 arg5 harg5 arg6 harg6 arg7 harg7 arg8 harg8 arg9 harg9 hc0 hc1 x0 x1 x2 x3 x4).2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4).2.2.1 S32x2048.size (by sl_kernel_rfl) y

/-- What the body leaves in the accumulator at such a point: its pieces read back over junk. -/
def sout1_A_1 (c : Dev nD) (i : grid1.Coords) (arg2 : Memref sig .tc .vmem S1x32x4096 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x512x2048 .f32) (harg5 : arg5.IsWhole) (arg6 : Memref sig .tc .vmem S1x2048 .f32) (harg6 : arg6.IsWhole) (arg7 : Memref sig .tc .vmem S1x32x2048 .f32) (harg7 : arg7.IsWhole) (arg8 : Memref sig .tc .vmem S32x4096 .bf16) (harg8 : arg8.IsWhole) (arg9 : Memref sig .tc .vmem S32x2048 .f32) (harg9 : arg9.IsWhole) (hc0 : cond1_0 i) (hc1 : ¬cond1_1 i)
    (x0 : Vec F S1x32x4096 .f32) (x1 : Vec F S1x1x4096 .f32) (x2 : Vec F S1x1x4096 .f32) (x3 : Vec F S1x512x2048 .f32) (x4 : Vec F S1x2048 .f32) : Vec F S32x2048 .f32 :=
  VS1_1.read (Elt F) (VS1_1.writes (Elt F) VS1_1.junk (kernelRun1_A c i arg2 harg2 arg3 harg3 arg4 harg4 arg5 harg5 arg6 harg6 arg7 harg7 arg8 harg8 arg9 harg9 hc0 hc1 x0 x1 x2 x3 x4).2.2.1)

/-- At a point with 1 ≤ k ≤ 6 the body stores nothing into the output block's buffer: no pieces. A placeholder (junk read back) that nothing
    consults, since at these points the block is neither written back nor read at the next point. -/
def out1_B_5 (c : Dev nD) (i : grid1.Coords) (arg2 : Memref sig .tc .vmem S1x32x4096 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x512x2048 .f32) (harg5 : arg5.IsWhole) (arg6 : Memref sig .tc .vmem S1x2048 .f32) (harg6 : arg6.IsWhole) (arg7 : Memref sig .tc .vmem S1x32x2048 .f32) (harg7 : arg7.IsWhole) (arg8 : Memref sig .tc .vmem S32x4096 .bf16) (harg8 : arg8.IsWhole) (arg9 : Memref sig .tc .vmem S32x2048 .f32) (harg9 : arg9.IsWhole) (hc0 : ¬cond1_0 i) (hc1 : ¬cond1_1 i)
    (x0 : Vec F S1x32x4096 .f32) (x1 : Vec F S1x1x4096 .f32) (x2 : Vec F S1x1x4096 .f32) (x3 : Vec F S1x512x2048 .f32) (x4 : Vec F S1x2048 .f32) (xs0 : Vec F S32x4096 .bf16) (xs1 : Vec F S32x2048 .f32) : Vec F S1x32x2048 .f32 :=
  VO1_5.read (Elt F) (VO1_5.writes (Elt F) VO1_5.junk (kernelRun1_B c i arg2 harg2 arg3 harg3 arg4 harg4 arg5 harg5 arg6 harg6 arg7 harg7 arg8 harg8 arg9 harg9 hc0 hc1 x0 x1 x2 x3 x4 xs0 xs1).1)

/-- At a point with 1 ≤ k ≤ 6 the stores into the accumulator are of the whole buffer, so its pieces cover it. -/
theorem scover1_B_1 (c : Dev nD) (i : grid1.Coords) (arg2 : Memref sig .tc .vmem S1x32x4096 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x512x2048 .f32) (harg5 : arg5.IsWhole) (arg6 : Memref sig .tc .vmem S1x2048 .f32) (harg6 : arg6.IsWhole) (arg7 : Memref sig .tc .vmem S1x32x2048 .f32) (harg7 : arg7.IsWhole) (arg8 : Memref sig .tc .vmem S32x4096 .bf16) (harg8 : arg8.IsWhole) (arg9 : Memref sig .tc .vmem S32x2048 .f32) (harg9 : arg9.IsWhole) (hc0 : ¬cond1_0 i) (hc1 : ¬cond1_1 i)
    (x0 : Vec F S1x32x4096 .f32) (x1 : Vec F S1x1x4096 .f32) (x2 : Vec F S1x1x4096 .f32) (x3 : Vec F S1x512x2048 .f32) (x4 : Vec F S1x2048 .f32) (xs0 : Vec F S32x4096 .bf16) (xs1 : Vec F S32x2048 .f32) (y : S32x2048.Idx) :
    ∃ pc ∈ (kernelRun1_B c i arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 xs0 xs1).2.1 S32x2048.size (by sl_kernel_rfl) y

/-- What the body leaves in the accumulator at such a point: its pieces read back over junk. -/
def sout1_B_1 (c : Dev nD) (i : grid1.Coords) (arg2 : Memref sig .tc .vmem S1x32x4096 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x512x2048 .f32) (harg5 : arg5.IsWhole) (arg6 : Memref sig .tc .vmem S1x2048 .f32) (harg6 : arg6.IsWhole) (arg7 : Memref sig .tc .vmem S1x32x2048 .f32) (harg7 : arg7.IsWhole) (arg8 : Memref sig .tc .vmem S32x4096 .bf16) (harg8 : arg8.IsWhole) (arg9 : Memref sig .tc .vmem S32x2048 .f32) (harg9 : arg9.IsWhole) (hc0 : ¬cond1_0 i) (hc1 : ¬cond1_1 i)
    (x0 : Vec F S1x32x4096 .f32) (x1 : Vec F S1x1x4096 .f32) (x2 : Vec F S1x1x4096 .f32) (x3 : Vec F S1x512x2048 .f32) (x4 : Vec F S1x2048 .f32) (xs0 : Vec F S32x4096 .bf16) (xs1 : Vec F S32x2048 .f32) : Vec F S32x2048 .f32 :=
  VS1_1.read (Elt F) (VS1_1.writes (Elt F) VS1_1.junk (kernelRun1_B c i arg2 harg2 arg3 harg3 arg4 harg4 arg5 harg5 arg6 harg6 arg7 harg7 arg8 harg8 arg9 harg9 hc0 hc1 x0 x1 x2 x3 x4 xs0 xs1).2.1)

/-- At a point with k = 7 the one store into the output block's buffer is of the whole block, so its pieces cover the block. -/
theorem cover1_C_5 (c : Dev nD) (i : grid1.Coords) (arg2 : Memref sig .tc .vmem S1x32x4096 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x512x2048 .f32) (harg5 : arg5.IsWhole) (arg6 : Memref sig .tc .vmem S1x2048 .f32) (harg6 : arg6.IsWhole) (arg7 : Memref sig .tc .vmem S1x32x2048 .f32) (harg7 : arg7.IsWhole) (arg8 : Memref sig .tc .vmem S32x4096 .bf16) (harg8 : arg8.IsWhole) (arg9 : Memref sig .tc .vmem S32x2048 .f32) (harg9 : arg9.IsWhole) (hc0 : ¬cond1_0 i) (hc1 : cond1_1 i)
    (x0 : Vec F S1x32x4096 .f32) (x1 : Vec F S1x1x4096 .f32) (x2 : Vec F S1x1x4096 .f32) (x3 : Vec F S1x512x2048 .f32) (x4 : Vec F S1x2048 .f32) (xs0 : Vec F S32x4096 .bf16) (xs1 : Vec F S32x2048 .f32) (y : S1x32x2048.Idx) :
    ∃ pc ∈ (kernelRun1_C c i arg2 harg2 arg3 harg3 arg4 harg4 arg5 harg5 arg6 harg6 arg7 harg7 arg8 harg8 arg9 harg9 hc0 hc1 x0 x1 x2 x3 x4 xs0 xs1).1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 xs0 xs1).1 S1x32x2048.size (by sl_kernel_rfl) y

/-- What the body leaves in the output block's buffer at a point with k = 7: its pieces read back over junk (they cover the block, so the
    junk is nowhere read). -/
def out1_C_5 (c : Dev nD) (i : grid1.Coords) (arg2 : Memref sig .tc .vmem S1x32x4096 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x512x2048 .f32) (harg5 : arg5.IsWhole) (arg6 : Memref sig .tc .vmem S1x2048 .f32) (harg6 : arg6.IsWhole) (arg7 : Memref sig .tc .vmem S1x32x2048 .f32) (harg7 : arg7.IsWhole) (arg8 : Memref sig .tc .vmem S32x4096 .bf16) (harg8 : arg8.IsWhole) (arg9 : Memref sig .tc .vmem S32x2048 .f32) (harg9 : arg9.IsWhole) (hc0 : ¬cond1_0 i) (hc1 : cond1_1 i)
    (x0 : Vec F S1x32x4096 .f32) (x1 : Vec F S1x1x4096 .f32) (x2 : Vec F S1x1x4096 .f32) (x3 : Vec F S1x512x2048 .f32) (x4 : Vec F S1x2048 .f32) (xs0 : Vec F S32x4096 .bf16) (xs1 : Vec F S32x2048 .f32) : Vec F S1x32x2048 .f32 :=
  VO1_5.read (Elt F) (VO1_5.writes (Elt F) VO1_5.junk (kernelRun1_C c i arg2 harg2 arg3 harg3 arg4 harg4 arg5 harg5 arg6 harg6 arg7 harg7 arg8 harg8 arg9 harg9 hc0 hc1 x0 x1 x2 x3 x4 xs0 xs1).1)

/-- At a point with k = 7 the stores into the accumulator are of the whole buffer, so its pieces cover it. -/
theorem scover1_C_1 (c : Dev nD) (i : grid1.Coords) (arg2 : Memref sig .tc .vmem S1x32x4096 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x512x2048 .f32) (harg5 : arg5.IsWhole) (arg6 : Memref sig .tc .vmem S1x2048 .f32) (harg6 : arg6.IsWhole) (arg7 : Memref sig .tc .vmem S1x32x2048 .f32) (harg7 : arg7.IsWhole) (arg8 : Memref sig .tc .vmem S32x4096 .bf16) (harg8 : arg8.IsWhole) (arg9 : Memref sig .tc .vmem S32x2048 .f32) (harg9 : arg9.IsWhole) (hc0 : ¬cond1_0 i) (hc1 : cond1_1 i)
    (x0 : Vec F S1x32x4096 .f32) (x1 : Vec F S1x1x4096 .f32) (x2 : Vec F S1x1x4096 .f32) (x3 : Vec F S1x512x2048 .f32) (x4 : Vec F S1x2048 .f32) (xs0 : Vec F S32x4096 .bf16) (xs1 : Vec F S32x2048 .f32) (y : S32x2048.Idx) :
    ∃ pc ∈ (kernelRun1_C c i arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 xs0 xs1).2.1 S32x2048.size (by sl_kernel_rfl) y

/-- What the body leaves in the accumulator at such a point: its pieces read back over junk. -/
def sout1_C_1 (c : Dev nD) (i : grid1.Coords) (arg2 : Memref sig .tc .vmem S1x32x4096 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x512x2048 .f32) (harg5 : arg5.IsWhole) (arg6 : Memref sig .tc .vmem S1x2048 .f32) (harg6 : arg6.IsWhole) (arg7 : Memref sig .tc .vmem S1x32x2048 .f32) (harg7 : arg7.IsWhole) (arg8 : Memref sig .tc .vmem S32x4096 .bf16) (harg8 : arg8.IsWhole) (arg9 : Memref sig .tc .vmem S32x2048 .f32) (harg9 : arg9.IsWhole) (hc0 : ¬cond1_0 i) (hc1 : cond1_1 i)
    (x0 : Vec F S1x32x4096 .f32) (x1 : Vec F S1x1x4096 .f32) (x2 : Vec F S1x1x4096 .f32) (x3 : Vec F S1x512x2048 .f32) (x4 : Vec F S1x2048 .f32) (xs0 : Vec F S32x4096 .bf16) (xs1 : Vec F S32x2048 .f32) : Vec F S32x2048 .f32 :=
  VS1_1.read (Elt F) (VS1_1.writes (Elt F) VS1_1.junk (kernelRun1_C c i arg2 harg2 arg3 harg3 arg4 harg4 arg5 harg5 arg6 harg6 arg7 harg7 arg8 harg8 arg9 harg9 hc0 hc1 x0 x1 x2 x3 x4 xs0 xs1).2.1)

/-! ## What the buffers hold after each point -/

/-- THE ACCUMULATION. After the body at position n: (what the output block's buffer holds, what the feature buffer
    holds, what the accumulator holds). The kind of point is read off n % 8; the run of that kind is taken at the
    point's buffers and input blocks and, for 1 ≤ k ≤ 7, at what the two carried buffers held after position n - 1.
    At 1 ≤ k ≤ 7 the feature buffer's component is that of position n - 1, unchanged. (No point has both k = 0 and
    k = 7.) -/
def outsAt1 (c : Dev nD) : (n : ℕ) → n < cfg1.N → Vec F S1x32x2048 .f32 × Vec F S32x4096 .bf16 × Vec F S32x2048 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩),
          sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩),
          sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 8 = 0 then
      if h1 : (n + 1) % 8 = 7 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩),
          sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩),
          sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 8 = 7 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2,
          (outsAt1 c n (Nat.lt_of_succ_lt hn)).2.1,
          sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2,
          (outsAt1 c n (Nat.lt_of_succ_lt hn)).2.1,
          sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2)

/-- At a point with k = 0: that kind's contents, whatever came before. -/
theorem outsAt1_A (c : Dev nD) (t : Fin cfg1.N) (h0 : t.val % 8 = 0) (h1 : ¬t.val % 8 = 7) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t),
          sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t),
          sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- At a point with 1 ≤ k ≤ 6: that kind's contents over what the point before left; the feature buffer's component
    is the point before's. -/
theorem outsAt1_B (c : Dev nD) (t : Fin cfg1.N) (h0 : ¬t.val % 8 = 0) (h1 : ¬t.val % 8 = 7) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2,
          (outsAt1 V c (t.val - 1) (Nat.lt_of_le_of_lt (Nat.sub_le _ _) t.isLt)).2.1,
          sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a point with k = 7: that kind's contents over what the point before left; the feature buffer's component is
    the point before's. -/
theorem outsAt1_C (c : Dev nD) (t : Fin cfg1.N) (h0 : ¬t.val % 8 = 0) (h1 : t.val % 8 = 7) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2,
          (outsAt1 V c (t.val - 1) (Nat.lt_of_le_of_lt (Nat.sub_le _ _) t.isLt)).2.1,
          sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The call's invariant, point by point -/

/-- Before position n: at n = 0 what the call is handed (the two carried buffers at anything); at n + 1 the feature
    buffer and the accumulator at what position n left in them, the buffers the body never touches, and the
    generator register at some state. -/
def PhiS1 (c : Dev nD) : (n : ℕ) → n ≤ cfg1.N → sProp 𝕄
  | 0, _ => Pipeline.ΦA spec1 c
  | n + 1, hn => iprop(iprop(owns (c : Thread nD τ) scM1_0 fullShare (outsAt1 V c n hn).2.1 ∗ owns (c : Thread nD τ) scM1_1 fullShare (outsAt1 V c n hn).2.2 ∗ OTHERS1 c) ∗ (∃ r, prngReg c r))

theorem PhiS1_zero (c : Dev nD) (n : ℕ) (h : n ≤ cfg1.N) (hz : n = 0) : PhiS1 V c n h = Pipeline.ΦA spec1 c := by
  subst hz; rfl

/-- After point n (before point n + 1): the carried buffers at that point's contents. -/
theorem PhiS1_succ (c : Dev nD) (n : ℕ) (hn : n < cfg1.N) :
    PhiS1 V c (n + 1) hn = iprop(iprop(owns (c : Thread nD τ) scM1_0 fullShare (outsAt1 V c n hn).2.1 ∗ owns (c : Thread nD τ) scM1_1 fullShare (outsAt1 V c n hn).2.2 ∗ OTHERS1 c) ∗ (∃ r, prngReg c r)) := rfl

/-- Before a point that is not the first: the carried buffers at what the point before left. -/
theorem PhiS1_pos (c : Dev nD) (n : ℕ) (h : n ≤ cfg1.N) (hz : n ≠ 0) :
    PhiS1 V c n h = iprop(iprop(owns (c : Thread nD τ) scM1_0 fullShare (outsAt1 V c (n - 1) (by omega)).2.1 ∗ owns (c : Thread nD τ) scM1_1 fullShare (outsAt1 V c (n - 1) (by omega)).2.2 ∗ OTHERS1 c) ∗ (∃ r, prngReg c r)) := by
  cases n with
  | zero => exact absurd rfl hz
  | succ n => rfl

/-! ## The data of the pipeline argument -/

/-- The data of the decoder call's pipeline on core c: the arrays as the call finds them (V); after the body at
    point t each input's buffer at its block and the output's buffer at the first component of the accumulation; the
    invariant PhiS1; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

/-- The data's arrays are the contents on entry. -/
theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

/-- Each input's current buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns: each window's buffer as the pipeline argument wants it left (an input's at its block; the
    output's at the accumulation's first component where the block is stored, as found where it is left alone). -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' buffers hold their blocks; t % 8 says which kind of point it is, so that kind's
    run applies. The invariant hands the body the two carried buffers — at anything at the very first point, else at
    what the point before left (forgotten again at k = 0, where the body overwrites both before reading them) — and
    takes them back at this point's contents: a buffer the run stored into at its pieces read back (they cover it),
    the feature buffer at 1 ≤ k ≤ 7 as it was. The buffers the body never touches, the generator register and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 8 = 0
  · by_cases h1 : t.val % 8 = 7
    · exfalso; omega
    · -- k = 0
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold sout1_A_0 sout1_A_1; (try dsimp only)
      by_cases hz : t.val = 0
      · -- the very first point: the carried buffers as the call was handed them
        rw [PhiS1_castSucc V c t, PhiS1_zero V c _ _ hz, PhiA1_eq]
        iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 HR Hg]
        · isplitr [Hg]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · -- a later range's first point: what the point before left is forgotten
        rw [PhiS1_castSucc V c t, PhiS1_pos V c _ _ hz]
        iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        iintro ⟨H0, H1, H2, H3, H4, H5, ⟨%es0, HS0⟩, ⟨%es1, HS1⟩⟩
        isplitl [HS0 HS1 HR Hg]
        · isplitr [Hg]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · have hz : t.val ≠ 0 := fun e => h0 (by rw [e])
    by_cases h1 : t.val % 8 = 7
    · -- k = 7
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold out1_C_5 sout1_C_1; (try dsimp only)
      rw [PhiS1_castSucc V c t, PhiS1_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, HS0, ⟨%es1, HS1⟩⟩
      isplitl [HS0 HS1 HR Hg]
      · isplitr [Hg]
        · isplitl [HS0]; · iexact HS0
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _ _ _ _)
    · -- 1 ≤ k ≤ 6
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold sout1_B_1; (try dsimp only)
      rw [PhiS1_castSucc V c t, PhiS1_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _ _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, ⟨%es1, HS1⟩⟩
      isplitl [HS0 HS1 HR Hg]
      · isplitr [Hg]
        · isplitl [HS0]; · iexact HS0
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation of the pipeline argument, at every point. -/
theorem body_obligation1 (c : Dev nD) : BodyObligation (dat1 (F := F) V c) (defs₀ (F := F)) Variants.none () Set.univ := fun t => by
  rw [bigSep_W1, bigSep_W1]
  exact sound_body1 V c t

/-- What the call is handed is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives back what the call was handed: the carried buffers' named contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HS1, HR⟩, Hg⟩
  isplitr [Hg]
  · isplitl [HS0]; · iexists _; iexact HS0
    isplitl [HS1]; · iexists _; iexact HS1
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.KernelIdeal.Fr

end
-- ==== Proof.KIFrame.Run.lean ====
/-
  The whole run of the kernel program: @main is four segments in order — seven host reshapes, the encoder region,
  the decoder region, one host reshape — and the contents of every unscoped buffer are followed through them:
  `W0` the launch memory, `W1` after the reshapes, `W2` with the encoder's arrays at what its write-backs leave,
  `W3` likewise after the decoder, `W4` after the last reshape. No segment writes an argument array, so each is
  read back through the fold to its launch contents (the frame), and the result buffer is read at `W4`.
  Stated at any float instance.
-/
import proofs.«109662_j11768210391682_2_alg».proof.Proof.KIFrame.Enc
import proofs.«109662_j11768210391682_2_alg».proof.Proof.KIFrame.Dec
import proofs.«109662_j11768210391682_2_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

/-- Core `c`'s buffers at launch. -/
abbrev W0 : Dev nD → Valuation τ sig (Elt F) := fun c b => m (c, b)
/-- After the seven reshapes (the encoder's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At the encoder's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (the decoder's entry: no host operation lies between the regions). -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the decoder's exit: its arrays at what the pipeline leaves, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the last reshape. -/
abbrev W4 : Dev nD → Valuation τ sig (Elt F) := fun c => StableHlo.after hostOps2 (W3 m c)

/-! ### The arguments end as launched: no host operation and no region writes one -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (r := main_arg0) (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (r := main_arg1) (by decide)
    _ = W2 m c (Proc.devRef .tc main_arg1) := W3_of_ne m c main_arg1 (by decide)
    _ = W1 m c (Proc.devRef .tc main_arg1) := (W2_arr m c 3).trans (((dat0 (V1 m) c).arrAt_in 3 rfl _).trans (A_eq0 (V1 m) c 3))
    _ = W0 m c (Proc.devRef .tc main_arg1) := StableHlo.after_of_writes_sub hostOps0 _ hostOps0_writes (r := main_arg1) (by decide)
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (r := main_arg2) (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_writes_sub hostOps2 _ hostOps2_writes (r := main_arg3) (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := StableHlo.after_of_writes_sub hostOps2 _ hostOps2_writes (r := main_arg4) (by decide)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl

theorem W4_main_arg5 (c : Dev nD) : W4 m c (Proc.devRef .tc main_arg5) = m ((c : Thread nD τ).loc main_arg5) :=
  calc W4 m c (Proc.devRef .tc main_arg5)
    _ = W3 m c (Proc.devRef .tc main_arg5) := StableHlo.after_of_writes_sub hostOps2 _ hostOps2_writes (r := main_arg5) (by decide)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl

theorem W4_main_arg6 (c : Dev nD) : W4 m c (Proc.devRef .tc main_arg6) = m ((c : Thread nD τ).loc main_arg6) :=
  calc W4 m c (Proc.devRef .tc main_arg6)
    _ = W3 m c (Proc.devRef .tc main_arg6) := StableHlo.after_of_writes_sub hostOps2 _ hostOps2_writes (r := main_arg6) (by decide)
    _ = W2 m c (Proc.devRef .tc main_arg6) := W3_of_ne m c main_arg6 (by decide)
    _ = W1 m c (Proc.devRef .tc main_arg6) := W2_of_ne m c main_arg6 (by decide)
    _ = W0 m c (Proc.devRef .tc main_arg6) := StableHlo.after_of_writes_sub hostOps0 _ hostOps0_writes (r := main_arg6) (by decide)
    _ = m ((c : Thread nD τ).loc main_arg6) := rfl

theorem W4_main_arg7 (c : Dev nD) : W4 m c (Proc.devRef .tc main_arg7) = m ((c : Thread nD τ).loc main_arg7) :=
  calc W4 m c (Proc.devRef .tc main_arg7)
    _ = W3 m c (Proc.devRef .tc main_arg7) := StableHlo.after_of_writes_sub hostOps2 _ hostOps2_writes (r := main_arg7) (by decide)
    _ = W2 m c (Proc.devRef .tc main_arg7) := W3_of_ne m c main_arg7 (by decide)
    _ = W1 m c (Proc.devRef .tc main_arg7) := W2_of_ne m c main_arg7 (by decide)
    _ = W0 m c (Proc.devRef .tc main_arg7) := StableHlo.after_of_writes_sub hostOps0 _ hostOps0_writes (r := main_arg7) (by decide)
    _ = m ((c : Thread nD τ).loc main_arg7) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W4`, the generator register at some state. -/
abbrev Tₙ (c : Dev nD) : sProp 𝕄 := iprop(StableHlo.held (c : Thread nD τ) (Pipeline.ucRefs τ sig) (W4 m c) ∗ ∃ r, prngReg c r)

/-! ## The regions as segments -/

-- a library lemma stated over the pinned configuration unifies with the printed one only when unification may unfold
-- plain definitions in a metavariable's type
set_option backward.isDefEq.respectTransparency.types false in
/-- Region 0 over the thread state: entered from every unscoped buffer at `W1`, left at `W2`. Its arrays are split
    out of the unscoped buffers and put back at the exit contents; the generator register goes into the region's
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `W2`, left at `W3`. Its arrays are split
    out of the unscoped buffers and put back at the exit contents; the generator register goes into the region's
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m) c)
    unfold Pipeline.ΦA
    iintro ⟨Hp, -, Hr⟩
    isplitl [Hr]; · iexact Hr
    iexact Hp
  hout c := by
    refine BIBase.Entails.trans (hout1 (V2 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
/-- @main IS the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final memory holds every unscoped buffer at `W4`; any post that follows from that holds of every final state. -/
theorem run_W4 (ρ : Dev nD → PrngReg) {Q : PUnit × MemSt nD τ sig (Elt F) → Prop}
    (hQ : ∀ s : MemSt nD τ sig (Elt F), (∀ c : Dev nD, ∀ b ∈ Pipeline.ucRefs τ sig, s.mem (((c : Thread nD τ)).1, b) = W4 m c b) → Q (⟨⟩, s)) :
    θ_run defs (onTc (τ := τ) (main (F := F))) ⟨m, fun _ => 0, ρ⟩ Q :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := hQ)

/-- THE FRAME: every weakly fair execution terminates, nothing faulting, and the argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_W4 m ρ fun s h c =>
    ⟨(h c _ (mem_uc main_arg0 (by decide))).trans (W4_main_arg0 m c),
      (h c _ (mem_uc main_arg1 (by decide))).trans (W4_main_arg1 m c),
      (h c _ (mem_uc main_arg2 (by decide))).trans (W4_main_arg2 m c),
      (h c _ (mem_uc main_arg3 (by decide))).trans (W4_main_arg3 m c),
      (h c _ (mem_uc main_arg4 (by decide))).trans (W4_main_arg4 m c),
      (h c _ (mem_uc main_arg5 (by decide))).trans (W4_main_arg5 m c),
      (h c _ (mem_uc main_arg6 (by decide))).trans (W4_main_arg6 m c),
      (h c _ (mem_uc main_arg7 (by decide))).trans (W4_main_arg7 m c)⟩

/-- The same run with the result buffer named: it ends at `W4`'s contents, the arguments as launched. -/
theorem run_result (ρ : Dev nD → PrngReg) : θ_run defs (onTc (τ := τ) (main (F := F))) ⟨m, fun _ => 0, ρ⟩ (fun r => ∀ c : Dev nD,
      r.2.mem ((c.tc : Thread nD τ).loc main_v9) = W4 m c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_W4 m ρ fun s h c =>
    ⟨h c _ (mem_uc main_v9 (by decide)),
      (h c _ (mem_uc main_arg0 (by decide))).trans (W4_main_arg0 m c),
      (h c _ (mem_uc main_arg1 (by decide))).trans (W4_main_arg1 m c),
      (h c _ (mem_uc main_arg2 (by decide))).trans (W4_main_arg2 m c),
      (h c _ (mem_uc main_arg3 (by decide))).trans (W4_main_arg3 m c),
      (h c _ (mem_uc main_arg4 (by decide))).trans (W4_main_arg4 m c),
      (h c _ (mem_uc main_arg5 (by decide))).trans (W4_main_arg5 m c),
      (h c _ (mem_uc main_arg6 (by decide))).trans (W4_main_arg6 m c),
      (h c _ (mem_uc main_arg7 (by decide))).trans (W4_main_arg7 m c)⟩

end Cert.KernelIdeal.Fr

end
-- ==== Proof.Spec.lean ====
/-
  The function both programs compute, on the extended reals.

  The 128 rows split into four ranges of 32 consecutive rows; range `r` has its own encoder matrix (slab `r` of a
  [4, 2048, 4096] stack), its own 4096 consecutive entries of the encoder bias, of the layer-norm scale and of the
  layer-norm shift, and its own 4096 consecutive rows of the [16384, 2048] decoder matrix. For a row `b` of range `r`:

    xin   = acts + pos_r - b_dec                                   (2048 entries)
    pre   = xin · W_enc[r] + b_enc_r                               (4096 entries)
    mean  = (Σ pre) / 4096,   var = (Σ (pre - mean)²) / 4096
    feat  = max (((pre - mean) · rsqrt (var + ε)) · γ_r + β_r) 0   (4096 entries)
    out   = feat · W_dec[rows of r] + b_dec                        (2048 entries)

  `encOf` and `decOf` are the two halves over arrays already laid out range by range ([4, 32, ·] and [4, 1, ·]); `G` is
  the whole over the argument arrays as given, reading each range's slice by index arithmetic.
-/
import Idealize.ShloMosaic.PureOps.Ideal
import Idealize.ShloMosaic.Lib.ValueIdx

noncomputable section

namespace Cert.Spec

open Idealize.ShloMosaic Idealize.ShloMosaic.ValueIdx

/-- The divisor 4096, the layer-norm epsilon and zero, as the words both programs spell. -/
abbrev c4096 : EReal := Ideal.ofBits .f32 0x45800000#32
abbrev cEps : EReal := Ideal.ofBits .f32 0x3727C5AC#32
abbrev cZero : EReal := Ideal.ofBits .f32 0x00000000#32

/-! ## A row's layer norm and positive part -/

/-- The mean of a row of 4096 entries. -/
def mean (p : Fin 4096 → EReal) : EReal := Ideal.div (∑ s : Fin 4096, p s) c4096

/-- Its (biased) variance. -/
def var (p : Fin 4096 → EReal) : EReal := Ideal.div (∑ s : Fin 4096, (p s - mean p) * (p s - mean p)) c4096

/-- The row normalised, scaled by `g`, shifted by `β`, and cut at zero. -/
def feat (p g β : Fin 4096 → EReal) (s : Fin 4096) : EReal :=
  max (((p s - mean p) * Ideal.rsqrt (var p + cEps)) * g s + β s) cZero

/-! ## The two halves over arrays laid out range by range -/

/-- The encoder: entry (r, b, s) of `(X + P_r - bd) · W_r + be_r`. -/
def encOf (X : FVec Ideal ⟨3, ![4, 32, 2048]⟩ .f32) (P : FVec Ideal ⟨3, ![4, 1, 2048]⟩ .f32) (bd : FVec Ideal ⟨2, ![1, 2048]⟩ .f32)
    (we : FVec Ideal ⟨3, ![4, 2048, 4096]⟩ .f32) (be : FVec Ideal ⟨3, ![4, 1, 4096]⟩ .f32) :
    FVec Ideal ⟨3, ![4, 32, 4096]⟩ .f32 := fun i =>
  (∑ d : Fin 2048, ((X (ix3 (i 0) (i 1) d) + P (ix3 (i 0) 0 d)) - bd (ix2 0 d)) * we (ix3 (i 0) d (i 2))) + be (ix3 (i 0) 0 (i 2))

/-- The decoder: entry (r, b, j) of `feat (Q_{r,b}) · Wd_r + bd`. -/
def decOf (Q : FVec Ideal ⟨3, ![4, 32, 4096]⟩ .f32) (g β : FVec Ideal ⟨3, ![4, 1, 4096]⟩ .f32)
    (wd : FVec Ideal ⟨3, ![4, 4096, 2048]⟩ .f32) (bd : FVec Ideal ⟨2, ![1, 2048]⟩ .f32) :
    FVec Ideal ⟨3, ![4, 32, 2048]⟩ .f32 := fun i =>
  (∑ s : Fin 4096, feat (fun s => Q (ix3 (i 0) (i 1) s)) (fun s => g (ix3 (i 0) 0 s)) (fun s => β (ix3 (i 0) 0 s)) s
      * wd (ix3 (i 0) s (i 2))) + bd (ix2 0 (i 2))

/-! ## The argument arrays read range by range -/

/-- Row `b` of range `r` among the 128 rows. -/
def row (r : Fin 4) (b : Fin 32) : Fin 128 := ⟨r.val * 32 + b.val, by omega⟩
/-- Entry `s` of range `r` among the 16384 hidden units. -/
def unit (r : Fin 4) (s : Fin 4096) : Fin 16384 := ⟨r.val * 4096 + s.val, by omega⟩

def actsR (x0 : FVec Ideal ⟨2, ![128, 2048]⟩ .f32) : FVec Ideal ⟨3, ![4, 32, 2048]⟩ .f32 := fun j => x0 (ix2 (row (j 0) (j 1)) (j 2))
def posR (x4 : FVec Ideal ⟨2, ![4, 2048]⟩ .f32) : FVec Ideal ⟨3, ![4, 1, 2048]⟩ .f32 := fun j => x4 (ix2 (j 0) (j 2))
def bdecR (x3 : FVec Ideal ⟨1, ![2048]⟩ .f32) : FVec Ideal ⟨2, ![1, 2048]⟩ .f32 := fun j => x3 (ix1 (j 1))
def unitsR (x : FVec Ideal ⟨1, ![16384]⟩ .f32) : FVec Ideal ⟨3, ![4, 1, 4096]⟩ .f32 := fun j => x (ix1 (unit (j 0) (j 2)))
def wdecR (x7 : FVec Ideal ⟨2, ![16384, 2048]⟩ .f32) : FVec Ideal ⟨3, ![4, 4096, 2048]⟩ .f32 := fun j => x7 (ix2 (unit (j 0) (j 1)) (j 2))

/-- The decoded rows, range by range, from the argument arrays. -/
def GR (x0 : FVec Ideal ⟨2, ![128, 2048]⟩ .f32) (x1 : FVec Ideal ⟨3, ![4, 2048, 4096]⟩ .f32) (x2 : FVec Ideal ⟨1, ![16384]⟩ .f32)
    (x3 : FVec Ideal ⟨1, ![2048]⟩ .f32) (x4 : FVec Ideal ⟨2, ![4, 2048]⟩ .f32) (x5 x6 : FVec Ideal ⟨1, ![16384]⟩ .f32)
    (x7 : FVec Ideal ⟨2, ![16384, 2048]⟩ .f32) : FVec Ideal ⟨3, ![4, 32, 2048]⟩ .f32 :=
  decOf (encOf (actsR x0) (posR x4) (bdecR x3) x1 (unitsR x2)) (unitsR x5) (unitsR x6) (wdecR x7) (bdecR x3)

/-- THE RESULT: entry (p, j), row `p` being row `p % 32` of range `p / 32`. -/
def G (x0 : FVec Ideal ⟨2, ![128, 2048]⟩ .f32) (x1 : FVec Ideal ⟨3, ![4, 2048, 4096]⟩ .f32) (x2 : FVec Ideal ⟨1, ![16384]⟩ .f32)
    (x3 : FVec Ideal ⟨1, ![2048]⟩ .f32) (x4 : FVec Ideal ⟨2, ![4, 2048]⟩ .f32) (x5 x6 : FVec Ideal ⟨1, ![16384]⟩ .f32)
    (x7 : FVec Ideal ⟨2, ![16384, 2048]⟩ .f32) : FVec Ideal ⟨2, ![128, 2048]⟩ .f32 := fun i =>
  GR x0 x1 x2 x3 x4 x5 x6 x7 (ix3 ⟨(i 0).val / 32, by have h : (i 0).val < 128 := (i 0).isLt; omega⟩ ⟨(i 0).val % 32, Nat.mod_lt _ (by decide)⟩ (i 1))

end Cert.Spec

end
-- ==== Proof.KIVal.EncValue.lean ====
/-
  What the encoder call leaves in its output array, on the extended reals.

  Point t of the 4 x 8 grid works on range r = t / 8 and on the tile of 512 consecutive hidden units starting at
  512 * (t % 8). Its input blocks are rows of range r of the activations, the range's position row, the decoder bias,
  the 2048 x 512 tile of the range's encoder matrix and the matching tile of the encoder bias; what it writes back is
  the [32, 512] tile of

      (X + P_r - bd) · W_r + be_r

  at those rows and columns. The 32 tiles are disjoint and fill the [4, 32, 4096] array, so after the last point the
  array holds that function everywhere.
-/
import proofs.«109662_j11768210391682_2_alg».proof.Proof.KIFrame.Enc
import proofs.«109662_j11768210391682_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx
open Idealize.ShloMosaic.Pipeline (Dat)

namespace Enc

/-! ## The body's value at an entry -/
/-- The left factor of the product: the row block plus the range's position row minus the decoder bias. -/
def leftFactor (x0 : Vec Ideal S1x32x2048 .f32) (x1 : Vec Ideal S1x1x2048 .f32) (x2 : Vec Ideal S1x2048 .f32) : FVec Ideal S32x2048 .bf16 :=
  truncf .bf16 (subf (addf (shapeCast S32x2048 x0 shapeCasts_S1x32x2048_S32x2048)
      (broadcastTo S32x2048 (shapeCast S1x2048 x1 shapeCasts_S1x1x2048_S1x2048) broadcasts_S1x2048_S32x2048))
    (broadcastTo S32x2048 (shapeCast S1x2048 x2 shapeCasts_S1x2048_S1x2048) broadcasts_S1x2048_S32x2048)) bitsLt_bf16_f32

/-- The right factor: the tile of the encoder matrix. -/
def rightFactor (x3 : Vec Ideal S1x2048x512 .f32) : FVec Ideal S2048x512 .bf16 :=
  truncf .bf16 (shapeCast S2048x512 x3 shapeCasts_S1x2048x512_S2048x512) bitsLt_bf16_f32

/-- The stored value as one expression of the five blocks: the product of the two factors into a zero accumulator,
    plus the bias tile on every row, under a leading unit axis. -/
theorem stored_eq (x0 : Vec Ideal S1x32x2048 .f32) (x1 : Vec Ideal S1x1x2048 .f32) (x2 : Vec Ideal S1x2048 .f32) (x3 : Vec Ideal S1x2048x512 .f32) (x4 : Vec Ideal S1x1x512 .f32) :
    k0_pay1 (F := Ideal) x0 x1 x2 x3 x4 = shapeCast S1x32x512 (addf (matmul dot_S32x2048_S2048x512_S32x512_1_0_0_1_n_n none (leftFactor x0 x1 x2) (rightFactor x3) (constant (F := Ideal) S32x512 .f32 0x00000000#32))
      (broadcastTo S32x512 (shapeCast S1x512 x4 shapeCasts_S1x1x512_S1x512) broadcasts_S1x512_S32x512)) shapeCasts_S32x512_S1x32x512 := rfl

theorem leftFactor_apply (x0 : Vec Ideal S1x32x2048 .f32) (x1 : Vec Ideal S1x1x2048 .f32) (x2 : Vec Ideal S1x2048 .f32) (b : Fin 32) (d : Fin 2048) :
    leftFactor x0 x1 x2 (ix2 b d) = (x0 (ix3 0 b d) + x1 (ix3 0 0 d)) - x2 (ix2 0 d) := by
  unfold leftFactor
  rw [truncf_apply (φ := .f32) (ψ := .bf16), subf_apply, addf_apply]
  have e0 : shapeCast S32x2048 x0 shapeCasts_S1x32x2048_S32x2048 (ix2 b d) = x0 (ix3 0 b d) :=
    shapeCast_1ab_ab_apply x0 shapeCasts_S1x32x2048_S32x2048 b d
  have e1 : broadcastTo S32x2048 (shapeCast S1x2048 x1 shapeCasts_S1x1x2048_S1x2048) broadcasts_S1x2048_S32x2048 (ix2 b d) = x1 (ix3 0 0 d) :=
    (broadcastTo_apply _ broadcasts_S1x2048_S32x2048 (ix2 b d) (ix2 (0 : Fin 1) d) (fun a => by
      match a with
      | ⟨0, _⟩ => rfl
      | ⟨1, _⟩ => rfl)).trans (shapeCast_1ab_ab_apply x1 shapeCasts_S1x1x2048_S1x2048 (0 : Fin 1) d)
  have e2 : broadcastTo S32x2048 (shapeCast S1x2048 x2 shapeCasts_S1x2048_S1x2048) broadcasts_S1x2048_S32x2048 (ix2 b d) = x2 (ix2 0 d) :=
    (broadcastTo_apply _ broadcasts_S1x2048_S32x2048 (ix2 b d) (ix2 (0 : Fin 1) d) (fun a => by
      match a with
      | ⟨0, _⟩ => rfl
      | ⟨1, _⟩ => rfl)).trans (congrFun (shapeCast_self x2 shapeCasts_S1x2048_S1x2048) _)
  rw [e0, e1, e2]

theorem rightFactor_apply (x3 : Vec Ideal S1x2048x512 .f32) (d : Fin 2048) (q : Fin 512) :
    rightFactor x3 (ix2 d q) = x3 (ix3 0 d q) := by
  unfold rightFactor
  rw [truncf_apply (φ := .f32) (ψ := .bf16)]
  exact shapeCast_1ab_ab_apply x3 shapeCasts_S1x2048x512_S2048x512 d q

/-! ### The product's index maps: output entry (b, q), contraction position d -/

theorem leftIdx_0 (j : S32x512.Idx) (k : dot_S32x2048_S2048x512_S32x512_1_0_0_1_n_n.contr.Idx) :
    (dot_S32x2048_S2048x512_S32x512_1_0_0_1_n_n.lhsIdx j k 0).val = (j 0).val := by
  unfold DotDims.lhsIdx
  rw [dif_neg (show ¬(0 : Fin S32x2048.rank) ∈ dot_S32x2048_S2048x512_S32x512_1_0_0_1_n_n.lhsBatch by decide),
    dif_pos (show (0 : Fin S32x2048.rank) ∈ dot_S32x2048_S2048x512_S32x512_1_0_0_1_n_n.lhsNonContracting by decide)]
  rfl
theorem leftIdx_1 (j : S32x512.Idx) (k : dot_S32x2048_S2048x512_S32x512_1_0_0_1_n_n.contr.Idx) :
    (dot_S32x2048_S2048x512_S32x512_1_0_0_1_n_n.lhsIdx j k 1).val = (k ⟨0, by decide⟩).val :=
  dot_S32x2048_S2048x512_S32x512_1_0_0_1_n_n.lhsIdx_val_of_single rfl j k
theorem rightIdx_0 (j : S32x512.Idx) (k : dot_S32x2048_S2048x512_S32x512_1_0_0_1_n_n.contr.Idx) :
    (dot_S32x2048_S2048x512_S32x512_1_0_0_1_n_n.rhsIdx j k 0).val = (k ⟨0, by decide⟩).val :=
  dot_S32x2048_S2048x512_S32x512_1_0_0_1_n_n.rhsIdx_val_of_single rfl j k
theorem rightIdx_1 (j : S32x512.Idx) (k : dot_S32x2048_S2048x512_S32x512_1_0_0_1_n_n.contr.Idx) :
    (dot_S32x2048_S2048x512_S32x512_1_0_0_1_n_n.rhsIdx j k 1).val = (j 1).val := by
  unfold DotDims.rhsIdx
  rw [dif_neg (show ¬(1 : Fin S2048x512.rank) ∈ dot_S32x2048_S2048x512_S32x512_1_0_0_1_n_n.rhsBatch by decide),
    dif_pos (show (1 : Fin S2048x512.rank) ∈ dot_S32x2048_S2048x512_S32x512_1_0_0_1_n_n.rhsNonContracting by decide)]
  rfl

/-- The product at entry (b, q): the sum over the 2048 contraction positions. -/
theorem product_apply (L : FVec Ideal S32x2048 .bf16) (R : FVec Ideal S2048x512 .bf16) (b : Fin 32) (q : Fin 512) :
    matmul dot_S32x2048_S2048x512_S32x512_1_0_0_1_n_n none L R (constant (F := Ideal) S32x512 .f32 0x00000000#32) (ix2 b q)
      = ∑ d : Fin 2048, L (ix2 b d) * R (ix2 d q) := by
  refine (Ideal.matmul_constant_zero_apply dot_S32x2048_S2048x512_S32x512_1_0_0_1_n_n none L R (ix2 b q)).trans ?_
  rw [← Equiv.sum_comp (contrEquiv1 dot_S32x2048_S2048x512_S32x512_1_0_0_1_n_n 2048 rfl rfl).symm]
  refine Finset.sum_congr rfl fun d _ => ?_
  have hk := contrEquiv1_symm_val dot_S32x2048_S2048x512_S32x512_1_0_0_1_n_n 2048 rfl rfl d
  have el : dot_S32x2048_S2048x512_S32x512_1_0_0_1_n_n.lhsIdx (ix2 b q) ((contrEquiv1 dot_S32x2048_S2048x512_S32x512_1_0_0_1_n_n 2048 rfl rfl).symm d) = ix2 b d :=
    funext fun a => Fin.ext (by
      match a with
      | ⟨0, _⟩ => exact leftIdx_0 _ _
      | ⟨1, _⟩ => exact (leftIdx_1 _ _).trans hk)
  have er : dot_S32x2048_S2048x512_S32x512_1_0_0_1_n_n.rhsIdx (ix2 b q) ((contrEquiv1 dot_S32x2048_S2048x512_S32x512_1_0_0_1_n_n 2048 rfl rfl).symm d) = ix2 d q :=
    funext fun a => Fin.ext (by
      match a with
      | ⟨0, _⟩ => exact (rightIdx_0 _ _).trans hk
      | ⟨1, _⟩ => exact rightIdx_1 _ _)
  rw [el, er]

/-- THE BODY'S VALUE AT AN ENTRY: entry (b, q) of the block the body stores is the inner product over the 2048 inputs
    of (row b of the row block + the position row - the decoder bias) with column q of the matrix tile, plus entry q
    of the encoder-bias tile. -/
theorem stored_apply (x0 : Vec Ideal S1x32x2048 .f32) (x1 : Vec Ideal S1x1x2048 .f32) (x2 : Vec Ideal S1x2048 .f32) (x3 : Vec Ideal S1x2048x512 .f32) (x4 : Vec Ideal S1x1x512 .f32)
    (b : Fin 32) (q : Fin 512) :
    k0_pay1 (F := Ideal) x0 x1 x2 x3 x4 (ix3 0 b q)
      = (∑ d : Fin 2048, ((x0 (ix3 0 b d) + x1 (ix3 0 0 d)) - x2 (ix2 0 d)) * x3 (ix3 0 d q)) + x4 (ix3 0 0 q) := by
  rw [stored_eq]
  refine (shapeCast_ab_1ab_apply _ shapeCasts_S32x512_S1x32x512 (0 : Fin 1) b q).trans ?_
  rw [addf_apply]
  have eb : broadcastTo S32x512 (shapeCast S1x512 x4 shapeCasts_S1x1x512_S1x512) broadcasts_S1x512_S32x512 (ix2 b q) = x4 (ix3 0 0 q) :=
    (broadcastTo_apply _ broadcasts_S1x512_S32x512 (ix2 b q) (ix2 (0 : Fin 1) q) (fun a => by
      match a with
      | ⟨0, _⟩ => rfl
      | ⟨1, _⟩ => rfl)).trans (shapeCast_1ab_ab_apply x4 shapeCasts_S1x1x512_S1x512 (0 : Fin 1) q)
  rw [eb, product_apply]
  exact congrArg (· + x4 (ix3 0 0 q)) (Finset.sum_congr rfl fun d _ => by rw [leftFactor_apply, rightFactor_apply])

/-! ## From the blocks to the array -/

theorem zero3 : (![0, 0, 0] : Fin 3 → Nat) = fun _ => 0 := funext fun a => by fin_cases a <;> rfl
theorem zero2 : (![0, 0] : Fin 2 → Nat) = fun _ => 0 := funext fun a => by fin_cases a <;> rfl

/-- The block index of every window at every point, in terms of the range t / 8 and the tile t % 8. -/
theorem blockIndex : ∀ t : Fin cfg0.N,
    win0_0.index t (0 : Fin 3) = t.val / 8 ∧ win0_0.index t (1 : Fin 3) = 0 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val / 8 ∧ win0_3.index t (1 : Fin 3) = 0 ∧ win0_3.index t (2 : Fin 3) = t.val % 8
    ∧ win0_4.index t (0 : Fin 3) = t.val / 8 ∧ win0_4.index t (1 : Fin 3) = 0 ∧ win0_4.index t (2 : Fin 3) = t.val % 8
    ∧ win0_5.index t (0 : Fin 3) = t.val / 8 ∧ win0_5.index t (1 : Fin 3) = 0 ∧ win0_5.index t (2 : Fin 3) = t.val % 8 :=
  (by decide +kernel : ∀ t : Fin grid0.N, _)

theorem point_lt (t : Fin cfg0.N) : t.val < 32 := lt_of_lt_of_eq t.isLt N_0

/-- The range point t works on, -/
def rangeOf (t : Fin cfg0.N) : Fin 4 := ⟨t.val / 8, by have := point_lt t; omega⟩
/-- its tile of hidden units, -/
def tileOf (t : Fin cfg0.N) : Fin 8 := ⟨t.val % 8, Nat.mod_lt _ (by decide)⟩
/-- and hidden unit q of tile s among the range's 4096. -/
def unitOf (s : Fin 8) (q : Fin 512) : Fin 4096 := ⟨512 * s.val + q.val, by omega⟩

variable (V : (c : Dev nD) → (b : Ref sig .tc) → Buf (Elt Ideal) ((c : Thread nD τ).loc b))

/-! Each input block at point t, entry by entry, in the array it is a block of. -/

theorem rows_apply (c : Dev nD) (t : Fin cfg0.N) (b : Fin 32) (d : Fin 2048) :
    (Fr.iblk0 V c 0 t : Vec Ideal S1x32x2048 .f32) (ix3 0 b d) = (V c main_v0 : S4x32x2048.Idx → Elt Ideal .f32) (ix3 (rangeOf t) b d) := by
  obtain ⟨e0, e1, e2, -⟩ := blockIndex t
  unfold Fr.iblk0
  rw [View.read_apply]
  show V c main_v0 _ = V c main_v0 _
  refine congrArg (V c main_v0) (funext fun a => Fin.ext ?_)
  match a with
  | ⟨0, _⟩ => show win0_0.index t (0 : Fin 3) * 1 + 1 * 0 = t.val / 8; omega
  | ⟨1, _⟩ => show win0_0.index t (1 : Fin 3) * 32 + 1 * b.val = b.val; omega
  | ⟨2, _⟩ => show win0_0.index t (2 : Fin 3) * 2048 + 1 * d.val = d.val; omega

theorem posRow_apply (c : Dev nD) (t : Fin cfg0.N) (d : Fin 2048) :
    (Fr.iblk0 V c 1 t : Vec Ideal S1x1x2048 .f32) (ix3 0 0 d) = (V c main_v1 : S4x1x2048.Idx → Elt Ideal .f32) (ix3 (rangeOf t) 0 d) := by
  obtain ⟨-, -, -, e0, e1, e2, -⟩ := blockIndex t
  unfold Fr.iblk0
  rw [View.read_apply]
  show V c main_v1 _ = V c main_v1 _
  refine congrArg (V c main_v1) (funext fun a => Fin.ext ?_)
  match a with
  | ⟨0, _⟩ => show win0_1.index t (0 : Fin 3) * 1 + 1 * 0 = t.val / 8; omega
  | ⟨1, _⟩ => show win0_1.index t (1 : Fin 3) * 1 + 1 * 0 = 0; omega
  | ⟨2, _⟩ => show win0_1.index t (2 : Fin 3) * 2048 + 1 * d.val = d.val; omega

theorem decBias_apply (c : Dev nD) (t : Fin cfg0.N) (d : Fin 2048) :
    (Fr.iblk0 V c 2 t : Vec Ideal S1x2048 .f32) (ix2 0 d) = (V c main_v2 : S1x2048.Idx → Elt Ideal .f32) (ix2 0 d) := by
  obtain ⟨-, -, -, -, -, -, e0, e1, -⟩ := blockIndex t
  unfold Fr.iblk0
  rw [View.read_apply]
  show V c main_v2 _ = V c main_v2 _
  refine congrArg (V c main_v2) (funext fun a => Fin.ext ?_)
  match a with
  | ⟨0, _⟩ => show win0_2.index t (0 : Fin 2) * 1 + 1 * 0 = 0; omega
  | ⟨1, _⟩ => show win0_2.index t (1 : Fin 2) * 2048 + 1 * d.val = d.val; omega

theorem matrixTile_apply (c : Dev nD) (t : Fin cfg0.N) (d : Fin 2048) (q : Fin 512) :
    (Fr.iblk0 V c 3 t : Vec Ideal S1x2048x512 .f32) (ix3 0 d q) = (V c main_arg1 : S4x2048x4096.Idx → Elt Ideal .f32) (ix3 (rangeOf t) d (unitOf (tileOf t) q)) := by
  obtain ⟨-, -, -, -, -, -, -, -, e0, e1, e2, -⟩ := blockIndex t
  unfold Fr.iblk0
  rw [View.read_apply]
  show V c main_arg1 _ = V c main_arg1 _
  refine congrArg (V c main_arg1) (funext fun a => Fin.ext ?_)
  match a with
  | ⟨0, _⟩ => show win0_3.index t (0 : Fin 3) * 1 + 1 * 0 = t.val / 8; omega
  | ⟨1, _⟩ => show win0_3.index t (1 : Fin 3) * 2048 + 1 * d.val = d.val; omega
  | ⟨2, _⟩ => show win0_3.index t (2 : Fin 3) * 512 + 1 * q.val = 512 * (t.val % 8) + q.val; omega

theorem encBiasTile_apply (c : Dev nD) (t : Fin cfg0.N) (q : Fin 512) :
    (Fr.iblk0 V c 4 t : Vec Ideal S1x1x512 .f32) (ix3 0 0 q) = (V c main_v3 : S4x1x4096.Idx → Elt Ideal .f32) (ix3 (rangeOf t) 0 (unitOf (tileOf t) q)) := by
  obtain ⟨-, -, -, -, -, -, -, -, -, -, -, e0, e1, e2, -⟩ := blockIndex t
  unfold Fr.iblk0
  rw [View.read_apply]
  show V c main_v3 _ = V c main_v3 _
  refine congrArg (V c main_v3) (funext fun a => Fin.ext ?_)
  match a with
  | ⟨0, _⟩ => show win0_4.index t (0 : Fin 3) * 1 + 1 * 0 = t.val / 8; omega
  | ⟨1, _⟩ => show win0_4.index t (1 : Fin 3) * 1 + 1 * 0 = 0; omega
  | ⟨2, _⟩ => show win0_4.index t (2 : Fin 3) * 512 + 1 * q.val = 512 * (t.val % 8) + q.val; omega

/-- ONE TILE: if the five blocks are the rows of range r, its position row, the bias, tile s of the range's matrix
    and tile s of its bias, then entry (b, q) of what the body stores is entry (r, b, 512 s + q) of the encoder's
    function of the whole arrays. -/
theorem tile_entry (X : FVec Ideal ⟨3, ![4, 32, 2048]⟩ .f32) (P : FVec Ideal ⟨3, ![4, 1, 2048]⟩ .f32) (bd : FVec Ideal ⟨2, ![1, 2048]⟩ .f32)
    (we : FVec Ideal ⟨3, ![4, 2048, 4096]⟩ .f32) (be : FVec Ideal ⟨3, ![4, 1, 4096]⟩ .f32)
    (x0 : Vec Ideal S1x32x2048 .f32) (x1 : Vec Ideal S1x1x2048 .f32) (x2 : Vec Ideal S1x2048 .f32) (x3 : Vec Ideal S1x2048x512 .f32) (x4 : Vec Ideal S1x1x512 .f32)
    (r : Fin 4) (s : Fin 8)
    (h0 : ∀ (b : Fin 32) (d : Fin 2048), x0 (ix3 0 b d) = X (ix3 r b d))
    (h1 : ∀ d : Fin 2048, x1 (ix3 0 0 d) = P (ix3 r 0 d))
    (h2 : ∀ d : Fin 2048, x2 (ix2 0 d) = bd (ix2 0 d))
    (h3 : ∀ (d : Fin 2048) (q : Fin 512), x3 (ix3 0 d q) = we (ix3 r d (unitOf s q)))
    (h4 : ∀ q : Fin 512, x4 (ix3 0 0 q) = be (ix3 r 0 (unitOf s q)))
    (y : S1x32x512.Idx) :
    k0_pay1 (F := Ideal) x0 x1 x2 x3 x4 y = Cert.Spec.encOf X P bd we be (ix3 r (y 1) (unitOf s (y 2))) := by
  obtain ⟨u, b, q, rfl⟩ : ∃ (u : Fin 1) (b : Fin 32) (q : Fin 512), y = ix3 u b q := ⟨y 0, y 1, y 2, eq_ix3 y⟩
  obtain rfl : u = 0 := Subsingleton.elim _ _
  refine (stored_apply x0 x1 x2 x3 x4 b q).trans ?_
  unfold Cert.Spec.encOf
  show _ = (∑ d : Fin 2048, ((X (ix3 r b d) + P (ix3 r 0 d)) - bd (ix2 0 d)) * we (ix3 r d (unitOf s q))) + be (ix3 r 0 (unitOf s q))
  rw [h4]
  exact congrArg (· + be (ix3 r 0 (unitOf s q))) (Finset.sum_congr rfl fun d _ => by rw [h0, h1, h2, h3])

/-- WHAT POINT t WRITES BACK is its tile of the encoder's function of the arrays as the call finds them. -/
theorem writeback_eq (c : Dev nD) (t : Fin cfg0.N) :
    (Fr.dat0 (F := Ideal) V c).flushed 5 t = ((cfg0.win 5).blk t).view.read (Elt Ideal)
      (Cert.Spec.encOf (V c main_v0) (V c main_v1) (V c main_v2) (V c main_arg1) (V c main_v3)) := by
  show (cfg0.win 5).cut (grid0.coords t) ((Fr.dat0 V c).after 5 t) = _
  rw [Fr.after0_5]
  unfold Fr.out0_5
  rw [View.canon_unit_zero zero3]
  simp only [View.ld_unit_zero (S := S1x32x2048) zero3, View.ld_unit_zero (S := S1x1x2048) zero3, View.ld_unit_zero (S := S1x2048) zero2,
    View.ld_unit_zero (S := S1x2048x512) zero3, View.ld_unit_zero (S := S1x1x512) zero3]
  obtain ⟨-, -, -, -, -, -, -, -, -, -, -, -, -, -, e0, e1, e2⟩ := blockIndex t
  funext j
  refine (tile_entry (V c main_v0) (V c main_v1) (V c main_v2) (V c main_arg1) (V c main_v3)
    (Fr.iblk0 V c 0 t) (Fr.iblk0 V c 1 t) (Fr.iblk0 V c 2 t) (Fr.iblk0 V c 3 t) (Fr.iblk0 V c 4 t) (rangeOf t) (tileOf t)
    (rows_apply V c t) (posRow_apply V c t) (decBias_apply V c t) (matrixTile_apply V c t) (encBiasTile_apply V c t) j).trans ?_
  rw [View.read_apply]
  show Cert.Spec.encOf (V c main_v0) (V c main_v1) (V c main_v2) (V c main_arg1) (V c main_v3) _
    = Cert.Spec.encOf (V c main_v0) (V c main_v1) (V c main_v2) (V c main_arg1) (V c main_v3) (((cfg0.win 5).blk t).view.emb j)
  refine congrArg _ (funext fun a => Fin.ext ?_)
  match a with
  | ⟨0, _⟩ => show t.val / 8 = win0_5.index t (0 : Fin 3) * 1 + 1 * (j 0).val; have hj : (j 0).val < 1 := (j 0).isLt; omega
  | ⟨1, _⟩ => show (j 1).val = win0_5.index t (1 : Fin 3) * 32 + 1 * (j 1).val; omega
  | ⟨2, _⟩ => show 512 * (t.val % 8) + (j 2).val = win0_5.index t (2 : Fin 3) * 512 + 1 * (j 2).val; omega

/-- An entry of the array is in point t's tile iff each coordinate is in the tile's range on its axis. -/
theorem mem_tile (t : Fin cfg0.N) (i : S4x32x4096.Idx) :
    i ∈ ((cfg0.win 5).blk t).view.set ↔ ∀ a : Fin 3, win0_5.index t a * S1x32x512.size a ≤ (i a).val ∧ (i a).val < win0_5.index t a * S1x32x512.size a + S1x32x512.size a := by
  show i ∈ ((View.whole main_v7).slice (win0_5.rect t)).set ↔ _
  rw [View.set_slice_whole, Rect.mem_set_unit]
  exact Iff.rfl

/-- Every entry (r, b, s) is in the tile of the point 8 r + s / 512, which writes its tile back. -/
theorem tiles_cover (i : S4x32x4096.Idx) : ∃ t : Fin cfg0.N, (cfg0.win 5).flush t = true ∧ i ∈ ((cfg0.win 5).blk t).view.set := by
  have h0 : (i 0).val < 4 := (i 0).isLt
  have h1 : (i 1).val < 32 := (i 1).isLt
  have h2 : (i 2).val < 4096 := (i 2).isLt
  let t : Fin cfg0.N := ⟨8 * (i 0).val + (i 2).val / 512, by rw [show cfg0.N = 32 from N_0]; omega⟩
  have ht : t.val = 8 * (i 0).val + (i 2).val / 512 := rfl
  obtain ⟨-, -, -, -, -, -, -, -, -, -, -, -, -, -, e0, e1, e2⟩ := blockIndex t
  refine ⟨t, flush0_5 t, ?_⟩
  rw [mem_tile]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 32 ≤ (i 1).val ∧ (i 1).val < win0_5.index t (1 : Fin 3) * 32 + 32; omega
  | ⟨2, _⟩ => show win0_5.index t (2 : Fin 3) * 512 ≤ (i 2).val ∧ (i 2).val < win0_5.index t (2 : Fin 3) * 512 + 512; omega

end Enc

variable (V : (c : Dev nD) → (b : Ref sig .tc) → Buf (Elt Ideal) ((c : Thread nD τ).loc b))

/-- THE ARRAY AFTER THE CALL: the encoder's function of the arrays the call found. -/
theorem enc_final (c : Dev nD) :
    (Fr.dat0 (F := Ideal) V c).arrAt 5 cfg0.N = Cert.Spec.encOf (V c main_v0) (V c main_v1) (V c main_v2) (V c main_arg1) (V c main_v3) :=
  (Fr.dat0 (F := Ideal) V c).arrAt_eq_of_cover 5 (Cert.Spec.encOf (V c main_v0) (V c main_v1) (V c main_v2) (V c main_arg1) (V c main_v3))
    (fun t _ => Enc.writeback_eq V c t) Enc.tiles_cover

end Cert.KernelIdeal.Val

end
-- ==== Proof.KIVal.DecPayload.lean ====
/-
  The decoder's four stored values, read entry by entry on the extended reals.

  The decoder call stores four things. At the first tile of a range it stores the whole range's features — the layer norm of the
  encoder's row, scaled, shifted and cut at zero — and a zero accumulator; at every tile it adds to the accumulator the
  product of a 512-column strip of the features with the 512 matching decoder rows; at the last tile it stores the
  accumulator plus the decoder bias. On the extended reals a change of float format is the identity and every operation
  is exact, so each stored value is, at an entry, the textbook expression of the values loaded.
-/
import proofs.«109662_j11768210391682_2_alg».proof.Proof.Gen.KernelIdeal.Skeleton
import proofs.«109662_j11768210391682_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen
open Idealize.ShloMosaic Idealize.ShloMosaic.ValueIdx

/-! ## A column: a vector cast to one, a column spread over many, a row's sum -/

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the rows of an `[a, b]` array reads, at `p`, the sum of row `p`. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction (F := Ideal) .add [1] ⟨1, ![a]⟩ src 0x00000000#32 h hφ hacc (ix1 p) = ∑ c : Fin b, src (ix2 p c) :=
  (Ideal.multiReduction_add_single src 0x00000000#32 h hφ hacc (ix1 p)).trans
    (Finset.sum_congr rfl fun k _ => congrArg src (funext fun d => Fin.ext (by
      match d with
      | ⟨0, _⟩ => rfl
      | ⟨1, _⟩ => rfl)))

/-! ## The zero accumulator and the last tile's store -/

/-- The accumulator a range starts from is the zero word at every entry. -/
theorem k1_pay2_apply (b : Fin 32) (j : Fin 2048) : k1_pay2 (F := Ideal) (ix2 b j) = Cert.Spec.cZero := by
  unfold k1_pay2
  rw [shapeCast_self]
  rfl

/-- The last tile stores the accumulator plus the decoder bias, entry by entry. -/
theorem k1_pay4_apply (v19 : FVec Ideal S1x2048 .f32) (v21 : FVec Ideal S32x2048 .f32) (b : Fin 32) (j : Fin 2048) :
    k1_pay4 (F := Ideal) v19 v21 (ix3 (0 : Fin 1) b j) = v21 (ix2 b j) + v19 (ix2 (0 : Fin 1) j) := by
  unfold k1_pay4
  rw [shapeCast_self, shapeCast_ab_1ab_apply]
  show v21 (ix2 b j) + broadcastTo S32x2048 v19 broadcasts_S1x2048_S32x2048 (ix2 b j) = _
  rw [broadcastTo_1b_ab_apply]

/-! ## One tile's product added to the accumulator -/

/-- In the tile's product at entry `i = (b, j)` and hidden unit `q`, the strip's factor sits at row `b`. -/
theorem tile_lhs_0 (i : S32x2048.Idx) (q : dot_S32x512_S512x2048_S32x2048_1_0_0_1_n_n.contr.Idx) :
    (dot_S32x512_S512x2048_S32x2048_1_0_0_1_n_n.lhsIdx i q 0).val = (i 0).val := by
  unfold DotDims.lhsIdx
  rw [dif_neg (show ¬(0 : Fin S32x512.rank) ∈ dot_S32x512_S512x2048_S32x2048_1_0_0_1_n_n.lhsBatch by decide),
    dif_pos (show (0 : Fin S32x512.rank) ∈ dot_S32x512_S512x2048_S32x2048_1_0_0_1_n_n.lhsNonContracting by decide)]
  rfl
/-- In the tile's product at entry `(b, j)` and hidden unit `q`, the strip's factor sits at column `q`. -/
theorem tile_lhs_1 (i : S32x2048.Idx) (q : dot_S32x512_S512x2048_S32x2048_1_0_0_1_n_n.contr.Idx) :
    (dot_S32x512_S512x2048_S32x2048_1_0_0_1_n_n.lhsIdx i q 1).val = (q ⟨0, by decide⟩).val :=
  dot_S32x512_S512x2048_S32x2048_1_0_0_1_n_n.lhsIdx_val_of_single rfl i q
/-- In the tile's product at entry `(b, j)` and hidden unit `q`, the decoder rows' factor sits at row `q`. -/
theorem tile_rhs_0 (i : S32x2048.Idx) (q : dot_S32x512_S512x2048_S32x2048_1_0_0_1_n_n.contr.Idx) :
    (dot_S32x512_S512x2048_S32x2048_1_0_0_1_n_n.rhsIdx i q 0).val = (q ⟨0, by decide⟩).val :=
  dot_S32x512_S512x2048_S32x2048_1_0_0_1_n_n.rhsIdx_val_of_single rfl i q
/-- In the tile's product at entry `i = (b, j)` and hidden unit `q`, the decoder rows' factor sits at column `j`. -/
theorem tile_rhs_1 (i : S32x2048.Idx) (q : dot_S32x512_S512x2048_S32x2048_1_0_0_1_n_n.contr.Idx) :
    (dot_S32x512_S512x2048_S32x2048_1_0_0_1_n_n.rhsIdx i q 1).val = (i 1).val := by
  unfold DotDims.rhsIdx
  rw [dif_neg (show ¬(1 : Fin S512x2048.rank) ∈ dot_S32x512_S512x2048_S32x2048_1_0_0_1_n_n.rhsBatch by decide),
    dif_pos (show (1 : Fin S512x2048.rank) ∈ dot_S32x512_S512x2048_S32x2048_1_0_0_1_n_n.rhsNonContracting by decide)]
  rfl

/-- A tile adds to the accumulator, at `(b, j)`, the sum over the strip's 512 hidden units of the feature times the
    decoder row's entry `j`. -/
theorem k1_pay3_apply (v6 : FVec Ideal S32x512 .bf16) (v7 : FVec Ideal S1x512x2048 .f32) (v10 : FVec Ideal S32x2048 .f32)
    (b : Fin 32) (j : Fin 2048) :
    k1_pay3 (F := Ideal) v6 v7 v10 (ix2 b j) = v10 (ix2 b j) + ∑ q : Fin 512, v6 (ix2 b q) * v7 (ix3 (0 : Fin 1) q j) := by
  unfold k1_pay3
  rw [shapeCast_self]
  refine congrArg (v10 (ix2 b j) + ·) ?_
  refine (Ideal.matmul_constant_zero_apply dot_S32x512_S512x2048_S32x2048_1_0_0_1_n_n none v6 _ (ix2 b j)).trans ?_
  rw [← Equiv.sum_comp (contrEquiv1 dot_S32x512_S512x2048_S32x2048_1_0_0_1_n_n 512 rfl rfl).symm]
  refine Finset.sum_congr rfl fun q _ => ?_
  have hq := contrEquiv1_symm_val dot_S32x512_S512x2048_S32x2048_1_0_0_1_n_n 512 rfl rfl q
  have el : dot_S32x512_S512x2048_S32x2048_1_0_0_1_n_n.lhsIdx (ix2 b j)
      ((contrEquiv1 dot_S32x512_S512x2048_S32x2048_1_0_0_1_n_n 512 rfl rfl).symm q) = ix2 b q :=
    funext fun a => Fin.ext (by
      match a with
      | ⟨0, _⟩ => exact tile_lhs_0 _ _
      | ⟨1, _⟩ => exact (tile_lhs_1 _ _).trans hq)
  have er : dot_S32x512_S512x2048_S32x2048_1_0_0_1_n_n.rhsIdx (ix2 b j)
      ((contrEquiv1 dot_S32x512_S512x2048_S32x2048_1_0_0_1_n_n 512 rfl rfl).symm q) = ix2 q j :=
    funext fun a => Fin.ext (by
      match a with
      | ⟨0, _⟩ => exact (tile_rhs_0 _ _).trans hq
      | ⟨1, _⟩ => exact tile_rhs_1 _ _)
  rw [el, er]
  show v6 (ix2 b q) * shapeCast S512x2048 v7 shapeCasts_S1x512x2048_S512x2048 (ix2 q j) = _
  rw [shapeCast_1ab_ab_apply]

/-! ## The features of a range -/

/-- The reciprocal square root of a vector, entry by entry. -/
theorem rsqrt_apply {s : Shape} {φ : FTy} (a : FVec Ideal s φ) (i : s.Idx) : rsqrt a i = Ideal.rsqrt (a i) := rfl

/-- The first tile of a range stores, at `(b, s)`, the feature `s` of the encoder's row `b`: the row centred by its
    mean, divided by the root of its variance plus epsilon, scaled, shifted and cut at zero. -/
theorem k1_pay1_apply (v19 : FVec Ideal S1x32x4096 .f32) (v37 v39 : FVec Ideal S1x1x4096 .f32) (b : Fin 32) (s : Fin 4096) :
    k1_pay1 (F := Ideal) v19 v37 v39 (ix2 b s)
      = Cert.Spec.feat (fun s => v19 (ix3 (0 : Fin 1) b s)) (fun s => v37 (ix3 (0 : Fin 1) (0 : Fin 1) s))
          (fun s => v39 (ix3 (0 : Fin 1) (0 : Fin 1) s)) s := by
  unfold k1_pay1
  rw [shapeCast_self]
  simp only [truncf_apply (φ := .f32) (ψ := .bf16), maximumf_apply, addf_apply, mulf_apply, subf_apply, divf_apply, rsqrt_apply,
    broadcast_apply, broadcastTo_a1_ab_apply, broadcastTo_1b_ab_apply, shapeCast_a_a1_apply, shapeCast_1ab_ab_apply]
  rw [rowSum_apply, rowSum_apply]
  simp only [mulf_apply, subf_apply, divf_apply, broadcast_apply, broadcastTo_a1_ab_apply, shapeCast_a_a1_apply,
    shapeCast_1ab_ab_apply]
  rw [rowSum_apply]
  simp only [shapeCast_1ab_ab_apply]
  rfl

end Cert.KernelIdeal.Val

end
-- ==== Proof.KIVal.DecBlocks.lean ====
/-
  The decoder call's blocks, entry by entry, on the extended reals.

  Point t of the 4 x 8 grid works on range r = t / 8 and on slab k = t % 8 of 512 consecutive hidden units. Its
  input blocks are: the 32 rows of range r of the encoder's output; the range's layer-norm scale row and shift row;
  rows 512 k .. 512 k + 511 of the range's decoder matrix; and the decoder bias. This file decides each window's
  block index at every point and reads each input block at explicit coordinates in the array it is a block of, at an
  arbitrary contents V of the arrays on entry.
-/
import proofs.«109662_j11768210391682_2_alg».proof.Proof.KIFrame.DecShared
import proofs.«109662_j11768210391682_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val.Dec1

open Cert.KernelIdeal Cert.KernelIdeal.Gen
open Idealize.ShloMosaic Idealize.ShloMosaic.TcCoe Idealize.SL.Sem Idealize.ShloMosaic.ValueIdx
open Idealize.ShloMosaic.Pipeline (Dat)

/-! ## The block index of every window at every point -/

/-- In terms of the range t / 8 and the slab t % 8: the encoder's output, the scale row, the shift row and the
    output move with the range alone; the decoder matrix with the range and the slab; the bias not at all. -/
theorem blockIndex : ∀ t : Fin cfg1.N,
    win1_0.index t (0 : Fin 3) = t.val / 8 ∧ win1_0.index t (1 : Fin 3) = 0 ∧ win1_0.index t (2 : Fin 3) = 0
    ∧ win1_1.index t (0 : Fin 3) = t.val / 8 ∧ win1_1.index t (1 : Fin 3) = 0 ∧ win1_1.index t (2 : Fin 3) = 0
    ∧ win1_2.index t (0 : Fin 3) = t.val / 8 ∧ win1_2.index t (1 : Fin 3) = 0 ∧ win1_2.index t (2 : Fin 3) = 0
    ∧ win1_3.index t (0 : Fin 3) = t.val / 8 ∧ win1_3.index t (1 : Fin 3) = t.val % 8 ∧ win1_3.index t (2 : Fin 3) = 0
    ∧ win1_4.index t (0 : Fin 2) = 0 ∧ win1_4.index t (1 : Fin 2) = 0
    ∧ win1_5.index t (0 : Fin 3) = t.val / 8 ∧ win1_5.index t (1 : Fin 3) = 0 ∧ win1_5.index t (2 : Fin 3) = 0 :=
  (by decide +kernel : ∀ t : Fin grid1.N, _)

/-- The output window's block index alone (what the cover of the output array needs). -/
theorem outIndex (t : Fin cfg1.N) :
    win1_5.index t (0 : Fin 3) = t.val / 8 ∧ win1_5.index t (1 : Fin 3) = 0 ∧ win1_5.index t (2 : Fin 3) = 0 := by
  obtain ⟨-, -, -, -, -, -, -, -, -, -, -, -, -, -, e0, e1, e2⟩ := blockIndex t
  exact ⟨e0, e1, e2⟩

/-- The grid has 32 points. -/
theorem point_lt (t : Fin cfg1.N) : t.val < 32 := lt_of_lt_of_eq t.isLt N_1

/-- The range point t works on, -/
def rangeOf (t : Fin cfg1.N) : Fin 4 := ⟨t.val / 8, by have := point_lt t; omega⟩
/-- its slab of hidden units, -/
def tileOf (t : Fin cfg1.N) : Fin 8 := ⟨t.val % 8, Nat.mod_lt _ (by decide)⟩
/-- and hidden unit q of slab k among the range's 4096. -/
def unitOf (k : Fin 8) (q : Fin 512) : Fin 4096 := ⟨512 * k.val + q.val, by omega⟩

theorem rangeOf_val (t : Fin cfg1.N) : (rangeOf t).val = t.val / 8 := rfl
theorem tileOf_val (t : Fin cfg1.N) : (tileOf t).val = t.val % 8 := rfl
theorem unitOf_val (k : Fin 8) (q : Fin 512) : (unitOf k q).val = 512 * k.val + q.val := rfl
/-- A point is its range and its slab. -/
theorem point_eq (t : Fin cfg1.N) : t.val = 8 * (rangeOf t).val + (tileOf t).val := by
  rw [rangeOf_val, tileOf_val]; omega

variable (V : (c : Dev nD) → (b : Ref sig .tc) → Buf (Elt Ideal) ((c : Thread nD τ).loc b))

/-! ## Each input block at point t, entry by entry, in the array it is a block of -/

/-- The encoder's output: row b of range r, all 4096 hidden units. -/
theorem preRows_apply (c : Dev nD) (t : Fin cfg1.N) (b : Fin 32) (s : Fin 4096) :
    (Fr.iblk1 V c 0 t : Vec Ideal S1x32x4096 .f32) (ix3 0 b s) = (V c main_v7 : S4x32x4096.Idx → Elt Ideal .f32) (ix3 (rangeOf t) b s) := by
  obtain ⟨e0, e1, e2, -⟩ := blockIndex t
  unfold Fr.iblk1
  rw [View.read_apply]
  show V c main_v7 _ = V c main_v7 _
  refine congrArg (V c main_v7) (funext fun a => Fin.ext ?_)
  match a with
  | ⟨0, _⟩ => show win1_0.index t (0 : Fin 3) * 1 + 1 * 0 = t.val / 8; omega
  | ⟨1, _⟩ => show win1_0.index t (1 : Fin 3) * 32 + 1 * b.val = b.val; omega
  | ⟨2, _⟩ => show win1_0.index t (2 : Fin 3) * 4096 + 1 * s.val = s.val; omega

/-- The layer-norm scale: the range's row. -/
theorem scaleRow_apply (c : Dev nD) (t : Fin cfg1.N) (s : Fin 4096) :
    (Fr.iblk1 V c 1 t : Vec Ideal S1x1x4096 .f32) (ix3 0 0 s) = (V c main_v4 : S4x1x4096.Idx → Elt Ideal .f32) (ix3 (rangeOf t) 0 s) := by
  obtain ⟨-, -, -, e0, e1, e2, -⟩ := blockIndex t
  unfold Fr.iblk1
  rw [View.read_apply]
  show V c main_v4 _ = V c main_v4 _
  refine congrArg (V c main_v4) (funext fun a => Fin.ext ?_)
  match a with
  | ⟨0, _⟩ => show win1_1.index t (0 : Fin 3) * 1 + 1 * 0 = t.val / 8; omega
  | ⟨1, _⟩ => show win1_1.index t (1 : Fin 3) * 1 + 1 * 0 = 0; omega
  | ⟨2, _⟩ => show win1_1.index t (2 : Fin 3) * 4096 + 1 * s.val = s.val; omega

/-- The layer-norm shift: the range's row. -/
theorem shiftRow_apply (c : Dev nD) (t : Fin cfg1.N) (s : Fin 4096) :
    (Fr.iblk1 V c 2 t : Vec Ideal S1x1x4096 .f32) (ix3 0 0 s) = (V c main_v5 : S4x1x4096.Idx → Elt Ideal .f32) (ix3 (rangeOf t) 0 s) := by
  obtain ⟨-, -, -, -, -, -, e0, e1, e2, -⟩ := blockIndex t
  unfold Fr.iblk1
  rw [View.read_apply]
  show V c main_v5 _ = V c main_v5 _
  refine congrArg (V c main_v5) (funext fun a => Fin.ext ?_)
  match a with
  | ⟨0, _⟩ => show win1_2.index t (0 : Fin 3) * 1 + 1 * 0 = t.val / 8; omega
  | ⟨1, _⟩ => show win1_2.index t (1 : Fin 3) * 1 + 1 * 0 = 0; omega
  | ⟨2, _⟩ => show win1_2.index t (2 : Fin 3) * 4096 + 1 * s.val = s.val; omega

/-- The decoder matrix: row q of slab k of range r, all 2048 outputs. -/
theorem decSlab_apply (c : Dev nD) (t : Fin cfg1.N) (q : Fin 512) (j : Fin 2048) :
    (Fr.iblk1 V c 3 t : Vec Ideal S1x512x2048 .f32) (ix3 0 q j) = (V c main_v6 : S4x4096x2048.Idx → Elt Ideal .f32) (ix3 (rangeOf t) (unitOf (tileOf t) q) j) := by
  obtain ⟨-, -, -, -, -, -, -, -, -, e0, e1, e2, -⟩ := blockIndex t
  unfold Fr.iblk1
  rw [View.read_apply]
  show V c main_v6 _ = V c main_v6 _
  refine congrArg (V c main_v6) (funext fun a => Fin.ext ?_)
  match a with
  | ⟨0, _⟩ => show win1_3.index t (0 : Fin 3) * 1 + 1 * 0 = t.val / 8; omega
  | ⟨1, _⟩ => show win1_3.index t (1 : Fin 3) * 512 + 1 * q.val = 512 * (t.val % 8) + q.val; omega
  | ⟨2, _⟩ => show win1_3.index t (2 : Fin 3) * 2048 + 1 * j.val = j.val; omega

/-- The decoder bias: the whole row, at every point. -/
theorem decBias_apply (c : Dev nD) (t : Fin cfg1.N) (j : Fin 2048) :
    (Fr.iblk1 V c 4 t : Vec Ideal S1x2048 .f32) (ix2 0 j) = (V c main_v2 : S1x2048.Idx → Elt Ideal .f32) (ix2 0 j) := by
  obtain ⟨-, -, -, -, -, -, -, -, -, -, -, -, e0, e1, -⟩ := blockIndex t
  unfold Fr.iblk1
  rw [View.read_apply]
  show V c main_v2 _ = V c main_v2 _
  refine congrArg (V c main_v2) (funext fun a => Fin.ext ?_)
  match a with
  | ⟨0, _⟩ => show win1_4.index t (0 : Fin 2) * 1 + 1 * 0 = 0; omega
  | ⟨1, _⟩ => show win1_4.index t (1 : Fin 2) * 2048 + 1 * j.val = j.val; omega

end Cert.KernelIdeal.Val.Dec1

end
-- ==== Proof.KIVal.DecCover.lean ====
/-
  The decoder call's output array from the last slab of each range, on the extended reals.

  The output block of range r is stored by the body at the last of the range's eight points only, t = 8 r + 7, and the
  pipeline writes it back at those four points only; elsewhere the output window is left alone. The four blocks are the
  four ranges of the [4, 32, 2048] output array, so the array after the call is determined by what the body leaves in
  the output block at those four points.
-/
import proofs.«109662_j11768210391682_2_alg».proof.Proof.KIFrame.Dec
import proofs.«109662_j11768210391682_2_alg».proof.Proof.KIVal.DecBlocks

set_option maxRecDepth 16384

noncomputable section

namespace Cert.KernelIdeal.Val.Dec1

open Cert.KernelIdeal Cert.KernelIdeal.Gen
open Idealize.ShloMosaic Idealize.ShloMosaic.TcCoe Idealize.SL.Sem Idealize.ShloMosaic.ValueIdx
open Idealize.ShloMosaic.Pipeline (Dat)

/-! ## From the last slab's write-back to the array -/

/-- A [1, 32, 2048] block that agrees, row by row, with range r of a [4, 32, 2048] array agrees with it at every one of
    its indices (the leading coordinate of a block index is 0). -/
theorem tile_eq (A : Vec Ideal S1x32x2048 .f32) (G : FVec Ideal ⟨3, ![4, 32, 2048]⟩ .f32) (r : Fin 4)
    (h : ∀ (b : Fin 32) (j : Fin 2048), A (ix3 0 b j) = G (ix3 r b j)) (y : S1x32x2048.Idx) :
    A y = G (ix3 r (y 1) (y 2)) := by
  obtain ⟨u, b, j, rfl⟩ : ∃ (u : Fin 1) (b : Fin 32) (j : Fin 2048), y = ix3 u b j := ⟨y 0, y 1, y 2, eq_ix3 y⟩
  obtain rfl : u = 0 := Subsingleton.elim _ _
  exact h b j

/-- An entry of the output array is in point t's block iff each coordinate is in the block's range on its axis. -/
theorem mem_outBlock (t : Fin cfg1.N) (i : S4x32x2048.Idx) :
    i ∈ ((cfg1.win 5).blk t).view.set ↔ ∀ a : Fin 3, win1_5.index t a * S1x32x2048.size a ≤ (i a).val ∧ (i a).val < win1_5.index t a * S1x32x2048.size a + S1x32x2048.size a := by
  show i ∈ ((View.whole main_v8).slice (win1_5.rect t)).set ↔ _
  rw [View.set_slice_whole, Rect.mem_set_unit]
  exact Iff.rfl

/-- Every entry (r, b, j) is in the block of the point 8 r + 7, the last slab of range r, which writes its block back. -/
theorem lastTiles_cover (i : S4x32x2048.Idx) : ∃ t : Fin cfg1.N, (cfg1.win 5).flush t = true ∧ i ∈ ((cfg1.win 5).blk t).view.set := by
  have h0 : (i 0).val < 4 := (i 0).isLt
  have h1 : (i 1).val < 32 := (i 1).isLt
  have h2 : (i 2).val < 2048 := (i 2).isLt
  let t : Fin cfg1.N := ⟨8 * (i 0).val + 7, by rw [show cfg1.N = 32 from N_1]; omega⟩
  have ht : t.val = 8 * (i 0).val + 7 := rfl
  obtain ⟨e0, e1, e2⟩ := outIndex t
  refine ⟨t, (flush1_5 t).mpr (by omega), ?_⟩
  rw [mem_outBlock]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 32 ≤ (i 1).val ∧ (i 1).val < win1_5.index t (1 : Fin 3) * 32 + 32; omega
  | ⟨2, _⟩ => show win1_5.index t (2 : Fin 3) * 2048 ≤ (i 2).val ∧ (i 2).val < win1_5.index t (2 : Fin 3) * 2048 + 2048; omega

/-- THE ARRAY FROM THE LAST SLABS, for any data of the decoder call's pipeline: the output block is written back at the
    points with t % 8 = 7 only, one per range, and their four blocks fill the array; so if at each of those points the
    block the body leaves is range t / 8 of G, row by row, the array ends holding G. -/
theorem array_of_lastTile {c : Dev nD} (dat : Dat τ (Elt Ideal) Unit ℕ (UR sig nD τ) ℕ cfg1 c) (G : FVec Ideal ⟨3, ![4, 32, 2048]⟩ .f32)
    (h : ∀ t : Fin cfg1.N, t.val % 8 = 7 → ∀ (b : Fin 32) (j : Fin 2048),
      (dat.after 5 t : Vec Ideal S1x32x2048 .f32) (ix3 0 b j) = G (ix3 (rangeOf t) b j)) :
    dat.arrAt 5 cfg1.N = G :=
  dat.arrAt_eq_of_cover 5 G (fun t hf => by
    have h7 : t.val % 8 = 7 := (flush1_5 t).mp hf
    obtain ⟨e0, e1, e2⟩ := outIndex t
    funext y
    refine (tile_eq (dat.after 5 t) G (rangeOf t) (h t h7) y).trans ?_
    rw [View.read_apply]
    show G _ = G (((cfg1.win 5).blk t).view.emb y)
    refine congrArg G (funext fun a => Fin.ext ?_)
    match a with
    | ⟨0, _⟩ => show t.val / 8 = win1_5.index t (0 : Fin 3) * 1 + 1 * (y 0).val; have hy : (y 0).val < 1 := (y 0).isLt; omega
    | ⟨1, _⟩ => show (y 1).val = win1_5.index t (1 : Fin 3) * 32 + 1 * (y 1).val; omega
    | ⟨2, _⟩ => show (y 2).val = win1_5.index t (2 : Fin 3) * 2048 + 1 * (y 2).val; omega) lastTiles_cover

variable (V : (c : Dev nD) → (b : Ref sig .tc) → Buf (Elt Ideal) ((c : Thread nD τ).loc b))

/-- THE DECODER CALL'S OUTPUT ARRAY, from the value of the output block at the last slab of each range: if at every
    point t with t % 8 = 7 the block the body leaves is, row by row, range t / 8 of the decoder's function of the
    arrays the call found, then after the call the output array holds that function. -/
theorem final_of_lastTile (c : Dev nD)
    (h : ∀ t : Fin cfg1.N, t.val % 8 = 7 → ∀ (b : Fin 32) (j : Fin 2048),
      ((Fr.dat1 (F := Ideal) V c).after 5 t : Vec Ideal S1x32x2048 .f32) (ix3 0 b j)
        = Cert.Spec.decOf (V c main_v7) (V c main_v4) (V c main_v5) (V c main_v6) (V c main_v2) (ix3 (rangeOf t) b j)) :
    (Fr.dat1 (F := Ideal) V c).arrAt 5 cfg1.N = Cert.Spec.decOf (V c main_v7) (V c main_v4) (V c main_v5) (V c main_v6) (V c main_v2) :=
  array_of_lastTile (Fr.dat1 (F := Ideal) V c) (Cert.Spec.decOf (V c main_v7) (V c main_v4) (V c main_v5) (V c main_v6) (V c main_v2)) h

end Cert.KernelIdeal.Val.Dec1

end
-- ==== Proof.LibTileSum.lean ====
/-
  A sum over `m * n` consecutive indices, taken tile by tile.

  The indices `0, …, m * n - 1` fall into `m` tiles of `n` consecutive ones: index `s` is entry `s % n` of tile
  `s / n`, and entry `q` of tile `k` is index `n * k + q`. In a commutative additive monoid the sum over all indices is
  the sum, over the tiles, of each tile's sum.
-/
import Mathlib.Algebra.BigOperators.Fin
import Mathlib.Data.Fintype.BigOperators
import Mathlib.Logic.Equiv.Fin.Basic

namespace Cert.TileSum

/-- Entry `q` of tile `k` lies below `m * n`. -/
theorem tile_lt {m n N : ℕ} (h : m * n = N) (k : Fin m) (q : Fin n) : n * k.val + q.val < N := by
  subst h
  calc n * k.val + q.val < n * k.val + n := Nat.add_lt_add_left q.isLt _
    _ = n * (k.val + 1) := (Nat.mul_succ _ _).symm
    _ ≤ n * m := Nat.mul_le_mul_left _ k.isLt
    _ = m * n := Nat.mul_comm _ _

/-- A sum over `N = m * n` indices is the sum over the `m` tiles of each tile's `n` terms, entry `q` of tile `k`
    being index `n * k + q`. -/
theorem sum_tiles {M : Type*} [AddCommMonoid M] {m n N : ℕ} (h : m * n = N) (f : Fin N → M) :
    ∑ k : Fin m, ∑ q : Fin n, f ⟨n * k.val + q.val, tile_lt h k q⟩ = ∑ s : Fin N, f s := by
  subst h
  rw [← Equiv.sum_comp finProdFinEquiv f, Fintype.sum_prod_type]
  refine Finset.sum_congr rfl fun k _ => Finset.sum_congr rfl fun q _ => congrArg f (Fin.ext ?_)
  show n * k.val + q.val = q.val + n * k.val
  exact Nat.add_comm _ _

end Cert.TileSum
-- ==== Proof.KIVal.DecValue.lean ====
/-
  What the decoder call leaves in its output array, on the extended reals.

  The grid has 4 x 8 points; point t = 8 r + k works on range r and on tile k, the hidden units 512 k … 512 k + 511 of the
  range's 4096. Two buffers live across the points of a range: a feature buffer [32, 4096] and an accumulator [32, 2048].

    k = 0       the features of the range's 32 rows — the layer norm of each row of the encoder's output, scaled, shifted
                and cut at zero — are stored over the feature buffer, the accumulator is zeroed, and the first tile's
                product is added to it;
    every k     the accumulator gains, at (b, j), the sum over the tile's 512 hidden units s of feature (b, s) times
                entry (s, j) of the range's decoder matrix;
    k = 7       the accumulator plus the decoder bias is stored over the output block, which is then written back as
                rows 32 r … 32 r + 31 of the output array.

  So after point 8 r + k the feature buffer holds range r's features and the accumulator holds the parts of tiles 0 … k
  of the decoder's sum (by induction along the points); at k = 7 the eight parts are the whole sum over the 4096 hidden
  units, and the block written back is the decoder's entry. The output array's four row ranges are covered by the four
  points with k = 7, so the array ends holding the decoder of the arrays the call finds.

  The first part reads what each kind of point stores as the stored values of Proof/Gen/KernelIdeal/Skeleton.lean applied
  to the point's blocks and to the carried buffers' contents, at any float instance; the rest is at the extended reals,
  where Proof/KIVal/DecPayload.lean reads each stored value entry by entry.
-/
import proofs.«109662_j11768210391682_2_alg».proof.Proof.KIFrame.Dec
import proofs.«109662_j11768210391682_2_alg».proof.Proof.KIVal.DecPayload
import proofs.«109662_j11768210391682_2_alg».proof.Proof.KIVal.DecBlocks
import proofs.«109662_j11768210391682_2_alg».proof.Proof.KIVal.DecCover
import proofs.«109662_j11768210391682_2_alg».proof.Proof.LibTileSum
import Idealize.ShloMosaic.Lib.Pipeline.Value
import Idealize.ShloMosaic.Lib.Tactic

set_option maxRecDepth 16384

noncomputable section

namespace Cert.KernelIdeal.Val.Dec

open Cert.KernelIdeal Cert.KernelIdeal.Gen Cert.KernelIdeal.Fr
open Idealize.ShloMosaic Idealize.ShloMosaic.TcCoe Idealize.SL.Sem Idealize.ShloMosaic.Tactic Idealize.ShloMosaic.ValueIdx
open Cert.KernelIdeal.Val.Dec1 (rangeOf tileOf unitOf)

/-! ## What each kind of point leaves in the carried buffers and in the output block -/

section Pieces

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- The strip of the feature buffer the tile at grid coordinates `i` reads: 512 columns from column 512 k on. -/
abbrev strip (i : grid1.Coords) (xs0 : Vec F S32x4096 .bf16) : Vec F S32x512 .bf16 :=
  View.ld xs0 (Rect.unit (s := S32x4096) (k1_off1 i) S32x512.size (k1_off1_inb i))

/-- At k = 0 the feature buffer is left holding the range's features. -/
theorem sout1_A_0_eq (c : Dev nD) (i : grid1.Coords) (arg2 : Memref sig .tc .vmem S1x32x4096 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x512x2048 .f32) (harg5 : arg5.IsWhole) (arg6 : Memref sig .tc .vmem S1x2048 .f32) (harg6 : arg6.IsWhole) (arg7 : Memref sig .tc .vmem S1x32x2048 .f32) (harg7 : arg7.IsWhole) (arg8 : Memref sig .tc .vmem S32x4096 .bf16) (harg8 : arg8.IsWhole) (arg9 : Memref sig .tc .vmem S32x2048 .f32) (harg9 : arg9.IsWhole) (hc0 : cond1_0 i) (hc1 : ¬cond1_1 i)
    (x0 : Vec F S1x32x4096 .f32) (x1 : Vec F S1x1x4096 .f32) (x2 : Vec F S1x1x4096 .f32) (x3 : Vec F S1x512x2048 .f32) (x4 : Vec F S1x2048 .f32) :
    sout1_A_0 c i arg2 harg2 arg3 harg3 arg4 harg4 arg5 harg5 arg6 harg6 arg7 harg7 arg8 harg8 arg9 harg9 hc0 hc1 x0 x1 x2 x3 x4 = k1_pay1 x0 x1 x2 := by
  unfold sout1_A_0
  rw [View.read_writes_eq_canon _ _ _ (scover1_A_0 c i arg2 harg2 arg3 harg3 arg4 harg4 arg5 harg5 arg6 harg6 arg7 harg7 arg8 harg8 arg9 harg9 hc0 hc1 x0 x1 x2 x3 x4)]
  unfold kernelRun1_A
  dsimp only
  sl_unfold_words
  rw [View.canon_unit_zero (S := S32x4096) zeros2]
  simp only [View.readAt_eq_ld, harg2.read_unread, harg3.read_unread, harg4.read_unread, View.ld_unit_zero (S := S1x32x4096) zeros3,
    View.ld_unit_zero (S := S1x1x4096) zeros3]

/-- At k = 0 the accumulator is left holding zero plus the first tile's product. -/
theorem sout1_A_1_eq (c : Dev nD) (i : grid1.Coords) (arg2 : Memref sig .tc .vmem S1x32x4096 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x512x2048 .f32) (harg5 : arg5.IsWhole) (arg6 : Memref sig .tc .vmem S1x2048 .f32) (harg6 : arg6.IsWhole) (arg7 : Memref sig .tc .vmem S1x32x2048 .f32) (harg7 : arg7.IsWhole) (arg8 : Memref sig .tc .vmem S32x4096 .bf16) (harg8 : arg8.IsWhole) (arg9 : Memref sig .tc .vmem S32x2048 .f32) (harg9 : arg9.IsWhole) (hc0 : cond1_0 i) (hc1 : ¬cond1_1 i)
    (x0 : Vec F S1x32x4096 .f32) (x1 : Vec F S1x1x4096 .f32) (x2 : Vec F S1x1x4096 .f32) (x3 : Vec F S1x512x2048 .f32) (x4 : Vec F S1x2048 .f32) :
    sout1_A_1 c i arg2 harg2 arg3 harg3 arg4 harg4 arg5 harg5 arg6 harg6 arg7 harg7 arg8 harg8 arg9 harg9 hc0 hc1 x0 x1 x2 x3 x4 = k1_pay3 (strip i (k1_pay1 x0 x1 x2)) x3 k1_pay2 := by
  unfold sout1_A_1
  rw [View.read_writes_eq_canon _ _ _ (scover1_A_1 c i arg2 harg2 arg3 harg3 arg4 harg4 arg5 harg5 arg6 harg6 arg7 harg7 arg8 harg8 arg9 harg9 hc0 hc1 x0 x1 x2 x3 x4)]
  unfold kernelRun1_A
  dsimp only
  sl_unfold_words
  rw [View.canon_cons_unit_zero (S := S32x2048) zeros2, View.readAt_writes_junk_eq_canon,
    View.canon_unit_zero (S := S32x4096) zeros2, View.readCov_unit_zero (S := S32x2048) _ zeros2]
  simp only [View.readAt_eq_ld, harg2.read_unread, harg3.read_unread, harg4.read_unread, harg5.read_unread,
    View.ld_unit_zero (S := S1x32x4096) zeros3, View.ld_unit_zero (S := S1x1x4096) zeros3, View.ld_unit_zero (S := S1x512x2048) zeros3]
  rfl

/-- At 1 ≤ k ≤ 6 the accumulator is left holding what it held plus the tile's product. -/
theorem sout1_B_1_eq (c : Dev nD) (i : grid1.Coords) (arg2 : Memref sig .tc .vmem S1x32x4096 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x512x2048 .f32) (harg5 : arg5.IsWhole) (arg6 : Memref sig .tc .vmem S1x2048 .f32) (harg6 : arg6.IsWhole) (arg7 : Memref sig .tc .vmem S1x32x2048 .f32) (harg7 : arg7.IsWhole) (arg8 : Memref sig .tc .vmem S32x4096 .bf16) (harg8 : arg8.IsWhole) (arg9 : Memref sig .tc .vmem S32x2048 .f32) (harg9 : arg9.IsWhole) (hc0 : ¬cond1_0 i) (hc1 : ¬cond1_1 i)
    (x0 : Vec F S1x32x4096 .f32) (x1 : Vec F S1x1x4096 .f32) (x2 : Vec F S1x1x4096 .f32) (x3 : Vec F S1x512x2048 .f32) (x4 : Vec F S1x2048 .f32) (xs0 : Vec F S32x4096 .bf16) (xs1 : Vec F S32x2048 .f32) :
    sout1_B_1 c i arg2 harg2 arg3 harg3 arg4 harg4 arg5 harg5 arg6 harg6 arg7 harg7 arg8 harg8 arg9 harg9 hc0 hc1 x0 x1 x2 x3 x4 xs0 xs1 = k1_pay3 (strip i xs0) x3 xs1 := by
  unfold sout1_B_1
  rw [View.read_writes_eq_canon _ _ _ (scover1_B_1 c i arg2 harg2 arg3 harg3 arg4 harg4 arg5 harg5 arg6 harg6 arg7 harg7 arg8 harg8 arg9 harg9 hc0 hc1 x0 x1 x2 x3 x4 xs0 xs1)]
  unfold kernelRun1_B
  dsimp only
  rw [View.canon_unit_zero (S := S32x2048) zeros2]
  simp only [View.readAt_eq_ld, harg8.read_unread, harg5.read_unread, harg9.read_unread, View.ld_unit_zero (S := S1x512x2048) zeros3,
    View.ld_unit_zero (S := S32x2048) zeros2]

/-- At k = 7 the accumulator is left holding what it held plus the last tile's product. -/
theorem sout1_C_1_eq (c : Dev nD) (i : grid1.Coords) (arg2 : Memref sig .tc .vmem S1x32x4096 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x512x2048 .f32) (harg5 : arg5.IsWhole) (arg6 : Memref sig .tc .vmem S1x2048 .f32) (harg6 : arg6.IsWhole) (arg7 : Memref sig .tc .vmem S1x32x2048 .f32) (harg7 : arg7.IsWhole) (arg8 : Memref sig .tc .vmem S32x4096 .bf16) (harg8 : arg8.IsWhole) (arg9 : Memref sig .tc .vmem S32x2048 .f32) (harg9 : arg9.IsWhole) (hc0 : ¬cond1_0 i) (hc1 : cond1_1 i)
    (x0 : Vec F S1x32x4096 .f32) (x1 : Vec F S1x1x4096 .f32) (x2 : Vec F S1x1x4096 .f32) (x3 : Vec F S1x512x2048 .f32) (x4 : Vec F S1x2048 .f32) (xs0 : Vec F S32x4096 .bf16) (xs1 : Vec F S32x2048 .f32) :
    sout1_C_1 c i arg2 harg2 arg3 harg3 arg4 harg4 arg5 harg5 arg6 harg6 arg7 harg7 arg8 harg8 arg9 harg9 hc0 hc1 x0 x1 x2 x3 x4 xs0 xs1 = k1_pay3 (strip i xs0) x3 xs1 := by
  unfold sout1_C_1
  rw [View.read_writes_eq_canon _ _ _ (scover1_C_1 c i arg2 harg2 arg3 harg3 arg4 harg4 arg5 harg5 arg6 harg6 arg7 harg7 arg8 harg8 arg9 harg9 hc0 hc1 x0 x1 x2 x3 x4 xs0 xs1)]
  unfold kernelRun1_C
  dsimp only
  sl_unfold_words
  rw [View.canon_unit_zero (S := S32x2048) zeros2]
  simp only [View.readAt_eq_ld, harg8.read_unread, harg5.read_unread, harg9.read_unread, View.ld_unit_zero (S := S1x512x2048) zeros3,
    View.ld_unit_zero (S := S32x2048) zeros2]
  rfl

/-- At k = 7 the output block is left holding that accumulator plus the decoder bias. -/
theorem out1_C_5_eq (c : Dev nD) (i : grid1.Coords) (arg2 : Memref sig .tc .vmem S1x32x4096 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x512x2048 .f32) (harg5 : arg5.IsWhole) (arg6 : Memref sig .tc .vmem S1x2048 .f32) (harg6 : arg6.IsWhole) (arg7 : Memref sig .tc .vmem S1x32x2048 .f32) (harg7 : arg7.IsWhole) (arg8 : Memref sig .tc .vmem S32x4096 .bf16) (harg8 : arg8.IsWhole) (arg9 : Memref sig .tc .vmem S32x2048 .f32) (harg9 : arg9.IsWhole) (hc0 : ¬cond1_0 i) (hc1 : cond1_1 i)
    (x0 : Vec F S1x32x4096 .f32) (x1 : Vec F S1x1x4096 .f32) (x2 : Vec F S1x1x4096 .f32) (x3 : Vec F S1x512x2048 .f32) (x4 : Vec F S1x2048 .f32) (xs0 : Vec F S32x4096 .bf16) (xs1 : Vec F S32x2048 .f32) :
    out1_C_5 c i arg2 harg2 arg3 harg3 arg4 harg4 arg5 harg5 arg6 harg6 arg7 harg7 arg8 harg8 arg9 harg9 hc0 hc1 x0 x1 x2 x3 x4 xs0 xs1 = k1_pay4 x4 (k1_pay3 (strip i xs0) x3 xs1) := by
  unfold out1_C_5
  rw [View.read_writes_eq_canon _ _ _ (cover1_C_5 c i arg2 harg2 arg3 harg3 arg4 harg4 arg5 harg5 arg6 harg6 arg7 harg7 arg8 harg8 arg9 harg9 hc0 hc1 x0 x1 x2 x3 x4 xs0 xs1)]
  unfold kernelRun1_C
  dsimp only
  sl_unfold_words
  rw [View.canon_unit_zero (S := S1x32x2048) zeros3, View.readCov_unit_zero (S := S32x2048) _ zeros2]
  simp only [View.readAt_eq_ld, harg6.read_unread, harg8.read_unread, harg5.read_unread, harg9.read_unread,
    View.ld_unit_zero (S := S1x2048) zeros2, View.ld_unit_zero (S := S1x512x2048) zeros3, View.ld_unit_zero (S := S32x2048) zeros2]
  rfl

end Pieces

/-! ## The strip of the feature buffer a tile reads -/

/-- The strip starts at column 512 k, whatever the range. -/
theorem stripStart : ∀ t : Fin cfg1.N, k1_off1 (grid1.coords t) = ![0, 512 * (t.val % 8)] :=
  (by decide +kernel : ∀ t : Fin grid1.N, k1_off1 (grid1.coords t) = ![0, 512 * (t.val % 8)])

/-- A load of 512 columns from column `o` on reads, at `(b, q)`, the contents at `(b, o + q)`. -/
theorem strip_apply {Val : EltTy → Type} {e : EltTy} (X : S32x4096.Idx → Val e) (off : Fin 2 → Nat)
    (inb : ∀ a, off a + S32x512.size a ≤ S32x4096.size a) (o : ℕ) (hoff : off = ![0, o]) (b : Fin 32) (q : Fin 512)
    (hlt : o + q.val < 4096) :
    View.ld X (Rect.unit (s := S32x4096) off S32x512.size inb) (ix2 b q) = X (ix2 b ⟨o + q.val, hlt⟩) := by
  subst hoff
  refine congrArg X (funext fun a => Fin.ext ?_)
  match a with
  | ⟨0, _⟩ => show 0 + 1 * b.val = b.val; omega
  | ⟨1, _⟩ => show o + 1 * q.val = o + q.val; omega

/-! ## The decoder's sum over the hidden units, tile by tile -/

/-- Tile `n`'s part of a sum over the 4096 hidden units (nothing past the eighth tile). -/
def tilePart (f : Fin 4096 → EReal) (n : ℕ) : EReal := if h : n < 8 then ∑ q : Fin 512, f (unitOf ⟨n, h⟩ q) else 0

/-- The sum of the first `n` tiles' parts. -/
def upTo (f : Fin 4096 → EReal) (n : ℕ) : EReal := ∑ k ∈ Finset.range n, tilePart f k

theorem upTo_one (f : Fin 4096 → EReal) : upTo f 1 = 0 + tilePart f 0 := by
  unfold upTo; rw [Finset.sum_range_one, zero_add]

theorem upTo_succ (f : Fin 4096 → EReal) (n : ℕ) : upTo f (n + 1) = upTo f n + tilePart f n := Finset.sum_range_succ _ _

theorem tilePart_tile (f : Fin 4096 → EReal) (k : Fin 8) : tilePart f k.val = ∑ q : Fin 512, f (unitOf k q) := dif_pos k.isLt

/-- All eight tiles' parts make the whole sum. -/
theorem upTo_eight (f : Fin 4096 → EReal) : upTo f 8 = ∑ s : Fin 4096, f s := by
  unfold upTo
  rw [Finset.sum_range, ← Cert.TileSum.sum_tiles (m := 8) (n := 512) rfl f]
  exact Finset.sum_congr rfl fun k _ => tilePart_tile f k

/-! ## The contents after a point, as stored values of the point's blocks -/

section Outs

variable {F : FTy → Type} [FloatOps F]
variable (V : (c : Dev nD) → (b : Ref sig .tc) → Buf (Elt F) ((c : Thread nD τ).loc b)) (c : Dev nD)

/-- After a range's first tile: the features of the range's blocks, and zero plus the first tile's product. -/
theorem outs_first (t : Fin cfg1.N) (h0 : t.val % 8 = 0) :
    (outsAt1 V c t.val t.isLt).2.1 = k1_pay1 (iblk1 V c 0 t) (iblk1 V c 1 t) (iblk1 V c 2 t)
    ∧ (outsAt1 V c t.val t.isLt).2.2
        = k1_pay3 (strip (grid1.coords t) (k1_pay1 (iblk1 V c 0 t) (iblk1 V c 1 t) (iblk1 V c 2 t))) (iblk1 V c 3 t) k1_pay2 := by
  have h1 : ¬t.val % 8 = 7 := by omega
  rw [outsAt1_A V c t h0 h1]
  dsimp only
  exact ⟨sout1_A_0_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t),
    sout1_A_1_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t)⟩

/-- After a later tile: the features as the tile before left them, and the accumulator it left plus the tile's product. -/
theorem outs_next (t : Fin cfg1.N) (h0 : ¬t.val % 8 = 0) :
    (outsAt1 V c t.val t.isLt).2.1 = (outsAt1 V c (t.val - 1) (Nat.lt_of_le_of_lt (Nat.sub_le _ _) t.isLt)).2.1
    ∧ (outsAt1 V c t.val t.isLt).2.2
        = k1_pay3 (strip (grid1.coords t) (outsAt1 V c (t.val - 1) (Nat.lt_of_le_of_lt (Nat.sub_le _ _) t.isLt)).2.1) (iblk1 V c 3 t) (outsAt1 V c (t.val - 1) (Nat.lt_of_le_of_lt (Nat.sub_le _ _) t.isLt)).2.2 := by
  by_cases h1 : t.val % 8 = 7
  · rw [outsAt1_C V c t h0 h1]
    dsimp only
    exact ⟨rfl, sout1_C_1_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2⟩
  · rw [outsAt1_B V c t h0 h1]
    dsimp only
    exact ⟨rfl, sout1_B_1_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2⟩

/-- After a range's last tile the output block holds the accumulator the tile left plus the decoder bias. -/
theorem outs_last (t : Fin cfg1.N) (h7 : t.val % 8 = 7) :
    (outsAt1 V c t.val t.isLt).1 = k1_pay4 (iblk1 V c 4 t) (outsAt1 V c t.val t.isLt).2.2 := by
  have h0 : ¬t.val % 8 = 0 := by omega
  rw [outsAt1_C V c t h0 h7]
  dsimp only
  exact (out1_C_5_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h7) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2).trans
    (congrArg (k1_pay4 (iblk1 V c 4 t)) (sout1_C_1_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h7) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2).symm)

end Outs

/-! ## What the carried buffers hold after each point, on the extended reals -/

section Invariant

variable (V : (c : Dev nD) → (b : Ref sig .tc) → Buf (Elt Ideal) ((c : Thread nD τ).loc b)) (c : Dev nD)

/-- Feature `s` of row `b` of range `r`: the layer norm of the encoder's row, scaled, shifted and cut at zero, from
    the arrays as the call finds them. -/
def featAt (r : Fin 4) (b : Fin 32) (s : Fin 4096) : EReal :=
  Cert.Spec.feat (fun s => (V c main_v7 : S4x32x4096.Idx → Elt Ideal .f32) (ix3 r b s))
    (fun s => (V c main_v4 : S4x1x4096.Idx → Elt Ideal .f32) (ix3 r 0 s))
    (fun s => (V c main_v5 : S4x1x4096.Idx → Elt Ideal .f32) (ix3 r 0 s)) s

/-- Hidden unit `s`'s term of entry `j` of the decoded row `b` of range `r`: its feature times the decoder row's entry. -/
def termAt (r : Fin 4) (b : Fin 32) (j : Fin 2048) (s : Fin 4096) : EReal :=
  featAt V c r b s * (V c main_v6 : S4x4096x2048.Idx → Elt Ideal .f32) (ix3 r s j)

/-- The stored features of blocks that are range `r`'s rows of the three arrays are range `r`'s features. -/
theorem feat_of_blocks (x0 : FVec Ideal S1x32x4096 .f32) (x1 x2 : FVec Ideal S1x1x4096 .f32) (r : Fin 4)
    (h0 : ∀ (b : Fin 32) (s : Fin 4096), x0 (ix3 0 b s) = (V c main_v7 : S4x32x4096.Idx → Elt Ideal .f32) (ix3 r b s))
    (h1 : ∀ s : Fin 4096, x1 (ix3 0 0 s) = (V c main_v4 : S4x1x4096.Idx → Elt Ideal .f32) (ix3 r 0 s))
    (h2 : ∀ s : Fin 4096, x2 (ix3 0 0 s) = (V c main_v5 : S4x1x4096.Idx → Elt Ideal .f32) (ix3 r 0 s))
    (b : Fin 32) (s : Fin 4096) : k1_pay1 (F := Ideal) x0 x1 x2 (ix2 b s) = featAt V c r b s := by
  have e0 : (fun s => x0 (ix3 (0 : Fin 1) b s)) = fun s => (V c main_v7 : S4x32x4096.Idx → Elt Ideal .f32) (ix3 r b s) := funext (h0 b)
  have e1 : (fun s => x1 (ix3 (0 : Fin 1) (0 : Fin 1) s)) = fun s => (V c main_v4 : S4x1x4096.Idx → Elt Ideal .f32) (ix3 r 0 s) := funext h1
  have e2 : (fun s => x2 (ix3 (0 : Fin 1) (0 : Fin 1) s)) = fun s => (V c main_v5 : S4x1x4096.Idx → Elt Ideal .f32) (ix3 r 0 s) := funext h2
  rw [k1_pay1_apply, e0, e1, e2]
  rfl

/-- A tile's stored accumulator, when the feature buffer holds range `r`'s features and the tile's block is rows
    512 k … 512 k + 511 of range `r`'s decoder matrix, is the accumulator before plus tile `k`'s part of the sum. -/
theorem tile_of_blocks (xs0 : FVec Ideal S32x4096 .bf16) (x3 : FVec Ideal S1x512x2048 .f32) (xs1 : FVec Ideal S32x2048 .f32)
    (off : Fin 2 → ℕ) (inb : ∀ a, off a + S32x512.size a ≤ S32x4096.size a) (r : Fin 4) (k : Fin 8)
    (hoff : off = ![0, 512 * k.val]) (hs0 : ∀ (b : Fin 32) (s : Fin 4096), xs0 (ix2 b s) = featAt V c r b s)
    (h3 : ∀ (q : Fin 512) (j : Fin 2048), x3 (ix3 0 q j) = (V c main_v6 : S4x4096x2048.Idx → Elt Ideal .f32) (ix3 r (unitOf k q) j))
    (b : Fin 32) (j : Fin 2048) :
    k1_pay3 (F := Ideal) (View.ld xs0 (Rect.unit (s := S32x4096) off S32x512.size inb)) x3 xs1 (ix2 b j)
      = xs1 (ix2 b j) + tilePart (termAt V c r b j) k.val := by
  rw [k1_pay3_apply, tilePart_tile]
  refine congrArg (xs1 (ix2 b j) + ·) (Finset.sum_congr rfl fun q _ => ?_)
  rw [strip_apply (Val := Elt Ideal) (e := .bf16) xs0 off inb (512 * k.val) hoff b q (by have := k.isLt; have := q.isLt; omega), hs0, h3]
  rfl

/-- After a range's first tile: the feature buffer holds the range's features, the accumulator the first tile's part. -/
theorem carried_first (t : Fin cfg1.N) (h0 : t.val % 8 = 0) :
    (∀ (b : Fin 32) (s : Fin 4096), ((outsAt1 V c t.val t.isLt).2.1 : Vec Ideal S32x4096 .bf16) (ix2 b s) = featAt V c (rangeOf t) b s)
    ∧ (∀ (b : Fin 32) (j : Fin 2048), ((outsAt1 V c t.val t.isLt).2.2 : Vec Ideal S32x2048 .f32) (ix2 b j) = upTo (termAt V c (rangeOf t) b j) 1) := by
  obtain ⟨e1, e2⟩ := outs_first V c t h0
  have hf : ∀ (b : Fin 32) (s : Fin 4096), k1_pay1 (F := Ideal) (iblk1 V c 0 t) (iblk1 V c 1 t) (iblk1 V c 2 t) (ix2 b s) = featAt V c (rangeOf t) b s :=
    feat_of_blocks V c (iblk1 V c 0 t) (iblk1 V c 1 t) (iblk1 V c 2 t) (rangeOf t) (Dec1.preRows_apply V c t) (Dec1.scaleRow_apply V c t)
      (Dec1.shiftRow_apply V c t)
  refine ⟨fun b s => (congrFun e1 (ix2 b s)).trans (hf b s), fun b j => (congrFun e2 (ix2 b j)).trans ?_⟩
  refine (tile_of_blocks V c (k1_pay1 (F := Ideal) (iblk1 V c 0 t) (iblk1 V c 1 t) (iblk1 V c 2 t)) (iblk1 V c 3 t) (k1_pay2 (F := Ideal))
    (k1_off1 (grid1.coords t)) (k1_off1_inb (grid1.coords t)) (rangeOf t) (tileOf t) (stripStart t) hf (Dec1.decSlab_apply V c t) b j).trans ?_
  rw [k1_pay2_apply, show Cert.Spec.cZero = 0 from Ideal.ofBits_zero_f32, upTo_one]
  exact congrArg (fun n => (0 : EReal) + tilePart (termAt V c (rangeOf t) b j) n) h0

/-- After a later tile, from what the tile before left: the features stay, the accumulator gains the tile's part. -/
theorem carried_next (t : Fin cfg1.N) (h0 : ¬t.val % 8 = 0)
    (ih1 : ∀ (b : Fin 32) (s : Fin 4096), ((outsAt1 V c (t.val - 1) (Nat.lt_of_le_of_lt (Nat.sub_le _ _) t.isLt)).2.1 : Vec Ideal S32x4096 .bf16) (ix2 b s) = featAt V c (rangeOf t) b s)
    (ih2 : ∀ (b : Fin 32) (j : Fin 2048), ((outsAt1 V c (t.val - 1) (Nat.lt_of_le_of_lt (Nat.sub_le _ _) t.isLt)).2.2 : Vec Ideal S32x2048 .f32) (ix2 b j) = upTo (termAt V c (rangeOf t) b j) (t.val % 8)) :
    (∀ (b : Fin 32) (s : Fin 4096), ((outsAt1 V c t.val t.isLt).2.1 : Vec Ideal S32x4096 .bf16) (ix2 b s) = featAt V c (rangeOf t) b s)
    ∧ (∀ (b : Fin 32) (j : Fin 2048), ((outsAt1 V c t.val t.isLt).2.2 : Vec Ideal S32x2048 .f32) (ix2 b j) = upTo (termAt V c (rangeOf t) b j) (t.val % 8 + 1)) := by
  obtain ⟨e1, e2⟩ := outs_next V c t h0
  refine ⟨fun b s => (congrFun e1 (ix2 b s)).trans (ih1 b s), fun b j => (congrFun e2 (ix2 b j)).trans ?_⟩
  refine (tile_of_blocks V c (outsAt1 V c (t.val - 1) (Nat.lt_of_le_of_lt (Nat.sub_le _ _) t.isLt)).2.1 (iblk1 V c 3 t) (outsAt1 V c (t.val - 1) (Nat.lt_of_le_of_lt (Nat.sub_le _ _) t.isLt)).2.2
    (k1_off1 (grid1.coords t)) (k1_off1_inb (grid1.coords t)) (rangeOf t) (tileOf t) (stripStart t) ih1 (Dec1.decSlab_apply V c t) b j).trans ?_
  rw [ih2, upTo_succ]
  rfl

/-- AFTER EVERY POINT t = 8 r + k: the feature buffer holds range r's features, and the accumulator holds, at (b, j),
    the parts of tiles 0 … k of the decoder's sum for row b of range r. By induction along the points. -/
theorem carried : ∀ (n : ℕ) (hn : n < cfg1.N),
    (∀ (b : Fin 32) (s : Fin 4096), ((outsAt1 V c n hn).2.1 : Vec Ideal S32x4096 .bf16) (ix2 b s) = featAt V c (rangeOf ⟨n, hn⟩) b s)
    ∧ (∀ (b : Fin 32) (j : Fin 2048), ((outsAt1 V c n hn).2.2 : Vec Ideal S32x2048 .f32) (ix2 b j) = upTo (termAt V c (rangeOf ⟨n, hn⟩) b j) (n % 8 + 1))
  | 0, hn => carried_first V c ⟨0, hn⟩ rfl
  | n + 1, hn => by
    have ih := carried n (Nat.lt_of_succ_lt hn)
    by_cases h0 : (n + 1) % 8 = 0
    · rw [h0]
      exact carried_first V c ⟨n + 1, hn⟩ h0
    · have hr : rangeOf ⟨n + 1, hn⟩ = rangeOf ⟨n, Nat.lt_of_succ_lt hn⟩ := Fin.ext (by show (n + 1) / 8 = n / 8; omega)
      have hk : (n + 1) % 8 = n % 8 + 1 := by omega
      refine carried_next V c ⟨n + 1, hn⟩ h0 (fun b s => ?_) (fun b j => ?_)
      · rw [hr]; exact ih.1 b s
      · rw [hr]; show _ = upTo _ ((n + 1) % 8); rw [hk]; exact ih.2 b j

/-- AT A RANGE'S LAST TILE the output block holds, at (0, b, j), entry (r, b, j) of the decoder of the arrays the call
    finds: all eight tiles' parts of the sum, plus the bias. -/
theorem lastTile (t : Fin cfg1.N) (h7 : t.val % 8 = 7) (b : Fin 32) (j : Fin 2048) :
    ((dat1 (F := Ideal) V c).after 5 t : Vec Ideal S1x32x2048 .f32) (ix3 0 b j)
      = Cert.Spec.decOf (V c main_v7) (V c main_v4) (V c main_v5) (V c main_v6) (V c main_v2) (ix3 (rangeOf t) b j) := by
  rw [after1_5]
  refine (congrFun (outs_last V c t h7) (ix3 0 b j)).trans ?_
  refine (k1_pay4_apply (iblk1 V c 4 t) (outsAt1 V c t.val t.isLt).2.2 b j).trans ?_
  rw [(carried V c t.val t.isLt).2 b j, Dec1.decBias_apply V c t j, show t.val % 8 + 1 = 8 from by omega, upTo_eight]
  rfl

end Invariant

end Cert.KernelIdeal.Val.Dec

namespace Cert.KernelIdeal.Val

open Cert.KernelIdeal Cert.KernelIdeal.Gen
open Idealize.ShloMosaic Idealize.ShloMosaic.TcCoe Idealize.SL.Sem

/-- THE DECODER CALL'S RESULT: whatever the arrays hold when the call is entered, its output array ends holding the
    decoder of them — for each range, the features of the encoder's rows times the range's decoder rows, plus the bias. -/
theorem dec_final (V : (c : Dev nD) → (b : Ref sig .tc) → Buf (Elt Ideal) ((c : Thread nD τ).loc b)) (c : Dev nD) :
    (Fr.dat1 (F := Ideal) V c).arrAt 5 cfg1.N = Cert.Spec.decOf (V c main_v7) (V c main_v4) (V c main_v5) (V c main_v6) (V c main_v2) :=
  Dec1.final_of_lastTile V c (Dec.lastTile V c)

end Cert.KernelIdeal.Val

end
-- ==== Proof.KIVal.Reshapes.lean ====
/-
  The host reshapes around the two kernel regions, read at an index: laying the 128 rows out as 4 ranges of 32, the
  16384 hidden units as 4 ranges of 4096, a vector as a one-row matrix — and the way back for the result. A reshape
  keeps the row-major position, so each is the slice the specification reads by index arithmetic.
-/
import proofs.«109662_j11768210391682_2_alg».proof.Proof.Spec
import Idealize.ShloMosaic.Lib.Pipeline.Value
import Idealize.ShloMosaic.Lib.ValueIdx

noncomputable section

namespace Cert.Reshapes

open Idealize.ShloMosaic Idealize.ShloMosaic.ValueIdx Cert.Spec

/-- [128, 2048] as [4, 32, 2048]: entry (r, b, d) is row r·32 + b. -/
theorem acts_eq (x0 : FVec Ideal ⟨2, ![128, 2048]⟩ .f32) (h : (⟨2, ![128, 2048]⟩ : Shape).ShapeCasts ⟨3, ![4, 32, 2048]⟩) :
    shapeCast ⟨3, ![4, 32, 2048]⟩ x0 h = actsR x0 := by
  funext j
  unfold actsR row
  refine shapeCast_apply x0 h j _ ?_
  rewrite [Shape.rowMajor_val_two, Shape.rowMajor_val_three]
  have h0 : (j 0).val < 4 := (j 0).isLt; have h1 : (j 1).val < 32 := (j 1).isLt; have h2 : (j 2).val < 2048 := (j 2).isLt
  show ((j 0).val * 32 + (j 1).val) * 2048 + (j 2).val = ((j 0).val * 32 + (j 1).val) * 2048 + (j 2).val
  rfl

/-- [4, 2048] as [4, 1, 2048]. -/
theorem pos_eq (x4 : FVec Ideal ⟨2, ![4, 2048]⟩ .f32) (h : (⟨2, ![4, 2048]⟩ : Shape).ShapeCasts ⟨3, ![4, 1, 2048]⟩) :
    shapeCast ⟨3, ![4, 1, 2048]⟩ x4 h = posR x4 := by
  funext j
  unfold posR
  refine shapeCast_apply x4 h j _ ?_
  rewrite [Shape.rowMajor_val_two, Shape.rowMajor_val_three]
  have h1 : (j 1).val < 1 := (j 1).isLt
  show (j 0).val * 2048 + (j 2).val = ((j 0).val * 1 + (j 1).val) * 2048 + (j 2).val
  omega

/-- [2048] as [1, 2048]. -/
theorem bdec_eq (x3 : FVec Ideal ⟨1, ![2048]⟩ .f32) (h : (⟨1, ![2048]⟩ : Shape).ShapeCasts ⟨2, ![1, 2048]⟩) :
    shapeCast ⟨2, ![1, 2048]⟩ x3 h = bdecR x3 := by
  funext j
  unfold bdecR
  refine shapeCast_apply x3 h j _ ?_
  rewrite [Shape.rowMajor_val_one, Shape.rowMajor_val_two]
  have h0 : (j 0).val < 1 := (j 0).isLt
  show (j 1).val = (j 0).val * 2048 + (j 1).val
  omega

/-- [16384] as [4, 1, 4096]: entry (r, 0, s) is unit r·4096 + s. -/
theorem units_eq (x : FVec Ideal ⟨1, ![16384]⟩ .f32) (h : (⟨1, ![16384]⟩ : Shape).ShapeCasts ⟨3, ![4, 1, 4096]⟩) :
    shapeCast ⟨3, ![4, 1, 4096]⟩ x h = unitsR x := by
  funext j
  unfold unitsR unit
  refine shapeCast_apply x h j _ ?_
  rewrite [Shape.rowMajor_val_one, Shape.rowMajor_val_three]
  have h1 : (j 1).val < 1 := (j 1).isLt
  show (j 0).val * 4096 + (j 2).val = ((j 0).val * 1 + (j 1).val) * 4096 + (j 2).val
  omega

/-- [16384, 2048] as [4, 4096, 2048]: slab r holds rows r·4096 … r·4096 + 4095. -/
theorem wdec_eq (x7 : FVec Ideal ⟨2, ![16384, 2048]⟩ .f32) (h : (⟨2, ![16384, 2048]⟩ : Shape).ShapeCasts ⟨3, ![4, 4096, 2048]⟩) :
    shapeCast ⟨3, ![4, 4096, 2048]⟩ x7 h = wdecR x7 := by
  funext j
  unfold wdecR unit
  refine shapeCast_apply x7 h j _ ?_
  rewrite [Shape.rowMajor_val_two, Shape.rowMajor_val_three]
  show ((j 0).val * 4096 + (j 1).val) * 2048 + (j 2).val = ((j 0).val * 4096 + (j 1).val) * 2048 + (j 2).val
  rfl

/-- The way back, [4, 32, 2048] as [128, 2048]: row p is row p % 32 of range p / 32. -/
theorem result_eq (y : FVec Ideal ⟨3, ![4, 32, 2048]⟩ .f32) (h : (⟨3, ![4, 32, 2048]⟩ : Shape).ShapeCasts ⟨2, ![128, 2048]⟩)
    (i : (⟨2, ![128, 2048]⟩ : Shape).Idx) :
    shapeCast ⟨2, ![128, 2048]⟩ y h i
      = y (ix3 ⟨(i 0).val / 32, by have h : (i 0).val < 128 := (i 0).isLt; omega⟩ ⟨(i 0).val % 32, Nat.mod_lt _ (by decide)⟩ (i 1)) := by
  refine shapeCast_apply y h i _ ?_
  rewrite [Shape.rowMajor_val_two, Shape.rowMajor_val_three]
  have h0 : (i 0).val < 128 := (i 0).isLt
  show ((i 0).val / 32 * 32 + (i 0).val % 32) * 2048 + (i 1).val = (i 0).val * 2048 + (i 1).val
  omega

end Cert.Reshapes

end
-- ==== Proof.KIVal.Glue.lean ====
/-
  The kernel program's result array, at the ideal instance, as the specification's function of the argument arrays.
  The result buffer ends at the last reshape of the decoder's output array; that array is the decoder's function of its
  five operand arrays as the decoder finds them; of those, the encoder's output array is the encoder's function of its
  operands, and every other one is a host reshape of an argument — the slice the specification reads.
-/
import proofs.«109662_j11768210391682_2_alg».proof.Proof.KIFrame.Run
import proofs.«109662_j11768210391682_2_alg».proof.Proof.KIVal.EncValue
import proofs.«109662_j11768210391682_2_alg».proof.Proof.KIVal.DecValue
import proofs.«109662_j11768210391682_2_alg».proof.Proof.KIVal.Reshapes
import Idealize.ShloMosaic.Lib.StableHlo.Run

noncomputable section

namespace Cert.KernelIdeal.Val

open Cert.KernelIdeal Cert.KernelIdeal.Gen
open Idealize.ShloMosaic Idealize.ShloMosaic.TcCoe Idealize.ShloMosaic.Tactic Idealize.SL.Sem Idealize.ShloMosaic.StableHlo

variable (m : (ℓ : Loc nD τ sig) → Buf (Elt Ideal) ℓ)

/-! ## The arrays the encoder is entered with: the seven reshapes -/

theorem V1_v0 (c : Dev nD) : Fr.V1 m c main_v0 = Cert.Spec.actsR (m ((c : Thread nD τ).loc main_arg0)) := by
  refine Eq.trans ?_ (Cert.Reshapes.acts_eq _ shapeCasts_S128x2048_S4x32x2048)
  show StableHlo.after hostOps0 (fun b => m (c, b)) (Proc.devRef .tc main_v0) = _
  after_results; rfl
theorem V1_v1 (c : Dev nD) : Fr.V1 m c main_v1 = Cert.Spec.posR (m ((c : Thread nD τ).loc main_arg4)) := by
  refine Eq.trans ?_ (Cert.Reshapes.pos_eq _ shapeCasts_S4x2048_S4x1x2048)
  show StableHlo.after hostOps0 (fun b => m (c, b)) (Proc.devRef .tc main_v1) = _
  after_results; rfl
theorem V1_v2 (c : Dev nD) : Fr.V1 m c main_v2 = Cert.Spec.bdecR (m ((c : Thread nD τ).loc main_arg3)) := by
  refine Eq.trans ?_ (Cert.Reshapes.bdec_eq _ shapeCasts_S2048_S1x2048)
  show StableHlo.after hostOps0 (fun b => m (c, b)) (Proc.devRef .tc main_v2) = _
  after_results; rfl
theorem V1_v3 (c : Dev nD) : Fr.V1 m c main_v3 = Cert.Spec.unitsR (m ((c : Thread nD τ).loc main_arg2)) := by
  refine Eq.trans ?_ (Cert.Reshapes.units_eq _ shapeCasts_S16384_S4x1x4096)
  show StableHlo.after hostOps0 (fun b => m (c, b)) (Proc.devRef .tc main_v3) = _
  after_results; rfl
theorem V1_v4 (c : Dev nD) : Fr.V1 m c main_v4 = Cert.Spec.unitsR (m ((c : Thread nD τ).loc main_arg5)) := by
  refine Eq.trans ?_ (Cert.Reshapes.units_eq _ shapeCasts_S16384_S4x1x4096)
  show StableHlo.after hostOps0 (fun b => m (c, b)) (Proc.devRef .tc main_v4) = _
  after_results; rfl
theorem V1_v5 (c : Dev nD) : Fr.V1 m c main_v5 = Cert.Spec.unitsR (m ((c : Thread nD τ).loc main_arg6)) := by
  refine Eq.trans ?_ (Cert.Reshapes.units_eq _ shapeCasts_S16384_S4x1x4096)
  show StableHlo.after hostOps0 (fun b => m (c, b)) (Proc.devRef .tc main_v5) = _
  after_results; rfl
theorem V1_v6 (c : Dev nD) : Fr.V1 m c main_v6 = Cert.Spec.wdecR (m ((c : Thread nD τ).loc main_arg7)) := by
  refine Eq.trans ?_ (Cert.Reshapes.wdec_eq _ shapeCasts_S16384x2048_S4x4096x2048)
  show StableHlo.after hostOps0 (fun b => m (c, b)) (Proc.devRef .tc main_v6) = _
  after_results; rfl
/-- The encoder stack is no reshape's result: it is the argument itself. -/
theorem V1_arg1 (c : Dev nD) : Fr.V1 m c main_arg1 = (m ((c : Thread nD τ).loc main_arg1)) :=
  StableHlo.after_of_writes_sub hostOps0 _ hostOps0_writes (r := main_arg1) (by decide)

/-! ## The arrays the decoder is entered with -/

/-- The encoder's output array. -/
theorem V2_v7 (c : Dev nD) :
    Fr.V2 m c main_v7 = Cert.Spec.encOf (Cert.Spec.actsR (m ((c : Thread nD τ).loc main_arg0))) (Cert.Spec.posR (m ((c : Thread nD τ).loc main_arg4))) (Cert.Spec.bdecR (m ((c : Thread nD τ).loc main_arg3)))
      (m ((c : Thread nD τ).loc main_arg1)) (Cert.Spec.unitsR (m ((c : Thread nD τ).loc main_arg2))) := by
  have h := (Fr.W2_arr m c 5).trans (enc_final (Fr.V1 m) c)
  rw [V1_v0, V1_v1, V1_v2, V1_arg1, V1_v3] at h
  exact h
/-- The layer-norm scale, shift and the decoder rows: reshapes the encoder does not touch. -/
theorem V2_v4 (c : Dev nD) : Fr.V2 m c main_v4 = Cert.Spec.unitsR (m ((c : Thread nD τ).loc main_arg5)) :=
  (Fr.W2_of_ne m c main_v4 (by decide)).trans (V1_v4 m c)
theorem V2_v5 (c : Dev nD) : Fr.V2 m c main_v5 = Cert.Spec.unitsR (m ((c : Thread nD τ).loc main_arg6)) :=
  (Fr.W2_of_ne m c main_v5 (by decide)).trans (V1_v5 m c)
theorem V2_v6 (c : Dev nD) : Fr.V2 m c main_v6 = Cert.Spec.wdecR (m ((c : Thread nD τ).loc main_arg7)) :=
  (Fr.W2_of_ne m c main_v6 (by decide)).trans (V1_v6 m c)
/-- The decoder bias row: an input of the encoder too, which leaves it as entered. -/
theorem V2_v2 (c : Dev nD) : Fr.V2 m c main_v2 = Cert.Spec.bdecR (m ((c : Thread nD τ).loc main_arg3)) :=
  (Fr.W2_arr m c 2).trans (((Fr.dat0 (Fr.V1 m) c).arrAt_in 2 rfl _).trans ((Fr.A_eq0 (Fr.V1 m) c 2).trans (V1_v2 m c)))

/-! ## The decoder's output array and the result -/

theorem W3_v8 (c : Dev nD) :
    Fr.W3 m c (Proc.devRef .tc main_v8) = Cert.Spec.GR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have h := (Fr.W3_arr m c 5).trans (dec_final (Fr.V2 m) c)
  rw [V2_v7, V2_v4, V2_v5, V2_v6, V2_v2] at h
  exact h

/-- THE KERNEL'S RESULT: the result buffer after the run is the specification's function of the argument arrays. -/
theorem kernel_result (c : Dev nD) :
    Fr.W4 m c (Proc.devRef .tc main_v9) = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have e : Fr.W4 m c (Proc.devRef .tc main_v9)
      = shapeCast ⟨2, ![128, 2048]⟩ (Fr.W3 m c (Proc.devRef .tc main_v8)) shapeCasts_S4x32x2048_S128x2048 := by
    show StableHlo.after hostOps2 (Fr.W3 m c) (Proc.devRef .tc main_v9) = _
    after_results; rfl
  rw [e, W3_v8]
  funext i
  exact Cert.Reshapes.result_eq _ _ i

end Cert.KernelIdeal.Val

end
-- ==== Proof.RefEnc.lean ====
/-
  The reference's first half, read at an index: the encoder's pre-activation is the specification's `encOf` over the
  argument arrays sliced range by range, a row's mean and variance are `mean` and `var` of that row, and the
  normalised, scaled, shifted row cut at zero is `feat`.
-/
import proofs.«109662_j11768210391682_2_alg».proof.Proof.Gen.ReferenceIdeal.Read
import proofs.«109662_j11768210391682_2_alg».proof.Proof.Spec

noncomputable section

namespace Cert.RefEnc

open Cert.ReferenceIdeal Cert.ReferenceIdeal.Gen Cert.ReferenceIdeal.Read Idealize.ShloMosaic Idealize.ShloMosaic.ValueIdx Cert.Spec

variable (x0 : FVec Ideal ⟨2, ![128, 2048]⟩ .f32) (x1 : FVec Ideal ⟨3, ![4, 2048, 4096]⟩ .f32)
  (x2 : FVec Ideal ⟨1, ![16384]⟩ .f32) (x3 : FVec Ideal ⟨1, ![2048]⟩ .f32) (x4 : FVec Ideal ⟨2, ![4, 2048]⟩ .f32)
  (x5 x6 : FVec Ideal ⟨1, ![16384]⟩ .f32)

/-! ## Index arithmetic: a row of a range among the 128 rows, a unit of a range among the 16384 units -/

theorem acts_idx (i : S4x32x4096.Idx) (d : Fin 2048) :
    idx_main_v0 (lidx_main_v7 i d) = ix2 (row (i 0) (i 1)) d := by
  have h0 : (i 0).val < 4 := (i 0).isLt
  have h1 : (i 1).val < 32 := (i 1).isLt
  have h2 : d.val < 2048 := d.isLt
  funext a
  refine Fin.ext ?_
  match a with
  | ⟨0, _⟩ => show (((i 0).val * 32 + (i 1).val) * 2048 + d.val) / 2048 = (i 0).val * 32 + (i 1).val; omega
  | ⟨1, _⟩ => show (((i 0).val * 32 + (i 1).val) * 2048 + d.val) % 2048 = d.val; omega

theorem pos_idx (i : S4x32x4096.Idx) (d : Fin 2048) :
    idx_main_v1 (idx_main_v2 (lidx_main_v7 i d)) = ix2 (i 0) d := by
  funext a
  match a with
  | ⟨0, _⟩ => rfl
  | ⟨1, _⟩ => rfl

theorem bdec_idx (i : S4x32x4096.Idx) (d : Fin 2048) :
    idx_main_v4 (idx_main_v5 (lidx_main_v7 i d)) = ix1 d := by
  funext a
  match a with
  | ⟨0, _⟩ => rfl

theorem wenc_idx (i : S4x32x4096.Idx) (d : Fin 2048) : ridx_main_v7 i d = ix3 (i 0) d (i 2) := by
  funext a
  match a with
  | ⟨0, _⟩ => rfl
  | ⟨1, _⟩ => rfl
  | ⟨2, _⟩ => rfl

theorem unit_idx (i : S4x32x4096.Idx) : idx_main_v8 (idx_main_v9 i) = ix1 (unit (i 0) (i 2)) := by
  funext a
  refine Fin.ext ?_
  match a with
  | ⟨0, _⟩ => show ((i 0).val * 1 + 0) * 4096 + (i 2).val = (i 0).val * 4096 + (i 2).val; omega

/-! ## The encoder -/

/-- The pre-activation at (r, b, s) is `(acts + pos_r - b_dec) · W_enc[r] + b_enc_r` there. -/
theorem pre_eq (i : S4x32x4096.Idx) :
    val_main_v10 (F := Ideal) x0 x1 x2 x3 x4 i = encOf (actsR x0) (posR x4) (bdecR x3) x1 (unitsR x2) i := by
  rw [val_main_v10_apply, val_main_v7_apply, val_main_v9_apply, val_main_v8_apply, Ideal.addf_def, unit_idx]
  unfold encOf
  refine congrArg₂ (· + ·) (Finset.sum_congr rfl fun d _ => ?_) rfl
  rw [val_main_v6_apply, val_main_v3_apply, val_main_v0_apply, val_main_v2_apply, val_main_v1_apply,
    val_main_v5_apply, val_main_v4_apply, Ideal.addf_def, Ideal.subf_def, acts_idx, pos_idx, bdec_idx, wenc_idx]
  rfl

/-- The same as an equation of arrays. -/
theorem pre_eq_fun :
    val_main_v10 (F := Ideal) x0 x1 x2 x3 x4 = encOf (actsR x0) (posR x4) (bdecR x3) x1 (unitsR x2) :=
  funext (pre_eq x0 x1 x2 x3 x4)

/-! ## Layer norm over a row's 4096 entries -/

/-- Row (r, b) of the pre-activation. -/
abbrev preRow (r : Fin 4) (b : Fin 32) : Fin 4096 → EReal :=
  fun s => val_main_v10 (F := Ideal) x0 x1 x2 x3 x4 (ix3 r b s)

theorem mean_eq (j : S4x32x1.Idx) :
    val_main_v14 (F := Ideal) x0 x1 x2 x3 x4 j = mean (preRow x0 x1 x2 x3 x4 (j 0) (j 1)) := by
  rw [val_main_v14_apply, val_main_v12_apply, val_main_v11_apply, val_main_v13_apply, val_main_cst_0_apply,
    val_main_cst_apply, Ideal.hostDivf_def, Ideal.ofBits_def, Ideal.ofBits_def, Ideal.ofBits_zero_f32, zero_add]
  unfold mean
  refine congrArg (fun z => Ideal.div z c4096) (Finset.sum_congr rfl fun k _ => congrArg _ (funext fun a => ?_))
  match a with
  | ⟨0, _⟩ => rfl
  | ⟨1, _⟩ => rfl
  | ⟨2, _⟩ => rfl

theorem var_eq (j : S4x32x1.Idx) :
    val_main_v21 (F := Ideal) x0 x1 x2 x3 x4 j = var (preRow x0 x1 x2 x3 x4 (j 0) (j 1)) := by
  rw [val_main_v21_apply, val_main_v19_apply, val_main_v18_apply, val_main_v20_apply, val_main_cst_2_apply,
    val_main_cst_1_apply, Ideal.hostDivf_def, Ideal.ofBits_def, Ideal.ofBits_def, Ideal.ofBits_zero_f32, zero_add]
  unfold var
  refine congrArg (fun z => Ideal.div z c4096) (Finset.sum_congr rfl fun k _ => ?_)
  rw [val_main_v17_apply, val_main_v16_apply, val_main_v15_apply, mean_eq, Ideal.mulf_def, Ideal.subf_def]
  have e : idx_main_v18 (idx_main_v19 j) k = ix3 (j 0) (j 1) k := by
    funext a
    match a with
    | ⟨0, _⟩ => rfl
    | ⟨1, _⟩ => rfl
    | ⟨2, _⟩ => rfl
  rw [e]
  rfl

/-! ## The features -/

/-- The feature at (r, b, s): the row normalised, scaled by the range's `γ`, shifted by its `β`, cut at zero. -/
theorem feat_eq (r : Fin 4) (b : Fin 32) (s : Fin 4096) :
    val_main_v35 (F := Ideal) x0 x1 x2 x3 x4 x5 x6 (ix3 r b s)
      = feat (preRow x0 x1 x2 x3 x4 r b) (fun s => unitsR x5 (ix3 r 0 s)) (fun s => unitsR x6 (ix3 r 0 s)) s := by
  have e29 : idx_main_v29 (idx_main_v30 (ix3 r b s)) = ix1 (unit r s) := by
    funext a
    refine Fin.ext ?_
    match a with
    | ⟨0, _⟩ => show (r.val * 1 + 0) * 4096 + s.val = r.val * 4096 + s.val; omega
  have e32 : idx_main_v32 (idx_main_v33 (ix3 r b s)) = ix1 (unit r s) := by
    funext a
    refine Fin.ext ?_
    match a with
    | ⟨0, _⟩ => show (r.val * 1 + 0) * 4096 + s.val = r.val * 4096 + s.val; omega
  rw [val_main_v35_apply, val_main_v34_apply, val_main_v31_apply, val_main_v28_apply, val_main_v23_apply,
    val_main_v22_apply, val_main_v27_apply, val_main_v26_apply, val_main_v25_apply, val_main_v24_apply,
    val_main_cst_3_apply, val_main_v30_apply, val_main_v29_apply, val_main_v33_apply, val_main_v32_apply,
    val_main_call0_v0_apply, val_main_call0_cst_apply, mean_eq, var_eq, e29, e32,
    Ideal.maximumf_def, Ideal.addf_def, Ideal.mulf_def, Ideal.mulf_def, Ideal.subf_def, Ideal.hostUnary_rsqrt_def,
    Ideal.addf_def, Ideal.ofBits_def, Ideal.ofBits_def]
  rfl

end Cert.RefEnc

end
-- ==== Proof.LibScatterSet.lean ====
/-
  `stablehlo.scatter` whose body returns the update (`x.at[…].set(u)`), read at an index.

  The scatter is a left fold over the update's indices: update index `j` lands at the operand index
  `resultIdx? j` (start index plus window coordinate) when that is inside the operand and is dropped when it is not.
  Two facts about that fold, for any dimension numbers:
    * an operand index no update lands at keeps the operand's element (whatever the body);
    * an operand index exactly one update index `j` lands at holds the update's element at `j`.
  Then the form `x.at[r0 : r0 + r, c0 : c0 + c].set(u)` of a rank-2 operand `[R, C]`, a start index of two words and
  a rank-2 update `[r, c]` lying inside the operand: at `(p, q)` the result is `u (p - r0, q - c0)` inside the window
  and `x (p, q)` outside it.
-/
import Idealize.ShloMosaic.PureOps.ShapeOps
import Idealize.ShloMosaic.Lib.ValueIdx

namespace ScatterSet

open Idealize.ShloMosaic Idealize.ShloMosaic.ValueIdx

section Fold
variable {α : Type} {s si u : Shape} {w : Nat}

/-- One step of the scatter's fold: update index number `n` (row-major) applied to the array `r`. -/
def step (d : ScatterDims s si u) (f : α → α → α) (idx : IVec si w) (upd : u.Idx → α) (r : s.Idx → α)
    (n : Fin u.numel) : s.Idx → α :=
  match d.resultIdx? (u.rowMajor.symm n) idx with
  | some i => fun i' => if i' = i then f (r i) (upd (u.rowMajor.symm n)) else r i'
  | none => r

theorem scatter_eq_foldl (d : ScatterDims s si u) (f : α → α → α) (x : s.Idx → α) (idx : IVec si w) (upd : u.Idx → α) :
    Host.scatter d f x idx upd = (List.finRange u.numel).foldl (step d f idx upd) x := rfl

/-- A step whose update lands elsewhere (or nowhere) leaves index `i` alone. -/
theorem step_of_ne (d : ScatterDims s si u) (f : α → α → α) (idx : IVec si w) (upd : u.Idx → α) (r : s.Idx → α)
    (n : Fin u.numel) (i : s.Idx) (h : d.resultIdx? (u.rowMajor.symm n) idx ≠ some i) : step d f idx upd r n i = r i := by
  unfold step
  cases hm : d.resultIdx? (u.rowMajor.symm n) idx with
  | none => rfl
  | some i0 =>
    have hne : i ≠ i0 := fun e => h (by rw [hm, e])
    show (if i = i0 then _ else r i) = r i
    rw [if_neg hne]

/-- A step whose update lands at `i`, with the body that returns the update, puts the update's element there. -/
theorem step_set_of_eq (d : ScatterDims s si u) (idx : IVec si w) (upd : u.Idx → α) (r : s.Idx → α)
    (n : Fin u.numel) (i : s.Idx) (h : d.resultIdx? (u.rowMajor.symm n) idx = some i) :
    step d (fun _ b => b) idx upd r n i = upd (u.rowMajor.symm n) := by
  unfold step
  rw [h]
  show (if i = i then _ else r i) = _
  rw [if_pos rfl]

/-- Steps none of which lands at `i` leave index `i` alone. -/
theorem foldl_of_miss (d : ScatterDims s si u) (f : α → α → α) (idx : IVec si w) (upd : u.Idx → α) (i : s.Idx) :
    ∀ (l : List (Fin u.numel)) (x : s.Idx → α), (∀ n ∈ l, d.resultIdx? (u.rowMajor.symm n) idx ≠ some i) →
      l.foldl (step d f idx upd) x i = x i
  | [], _, _ => rfl
  | a :: l, x, h => by
    rw [List.foldl_cons, foldl_of_miss d f idx upd i l _ fun n hn => h n (List.mem_cons_of_mem a hn)]
    exact step_of_ne d f idx upd x a i (h a (List.mem_cons_self ..))

/-- Steps exactly one of which (`n`, possibly repeated) lands at `i` leave the update's element at `n` there. -/
theorem foldl_set_of_hit (d : ScatterDims s si u) (idx : IVec si w) (upd : u.Idx → α) (i : s.Idx) (n : Fin u.numel)
    (hn : d.resultIdx? (u.rowMajor.symm n) idx = some i) :
    ∀ (l : List (Fin u.numel)) (x : s.Idx → α), n ∈ l →
      (∀ n' ∈ l, d.resultIdx? (u.rowMajor.symm n') idx = some i → n' = n) →
      l.foldl (step d (fun _ b => b) idx upd) x i = upd (u.rowMajor.symm n)
  | [], _, hm, _ => absurd hm (List.not_mem_nil)
  | a :: l, x, hm, huniq => by
    rw [List.foldl_cons]
    by_cases hl : n ∈ l
    · exact foldl_set_of_hit d idx upd i n hn l _ hl fun n' hn' => huniq n' (List.mem_cons_of_mem a hn')
    · have ha : a = n := by
        rcases List.mem_cons.1 hm with h | h
        · exact h.symm
        · exact absurd h hl
      rw [foldl_of_miss d _ idx upd i l _ fun n' hn' e => hl (huniq n' (List.mem_cons_of_mem a hn') e ▸ hn')]
      rw [ha]
      exact step_set_of_eq d idx upd x n i hn

/-- An operand index no update lands at keeps the operand's element. -/
theorem scatter_apply_of_miss (d : ScatterDims s si u) (f : α → α → α) (x : s.Idx → α) (idx : IVec si w)
    (upd : u.Idx → α) (i : s.Idx) (h : ∀ j : u.Idx, d.resultIdx? j idx ≠ some i) :
    Host.scatter d f x idx upd i = x i := by
  rw [scatter_eq_foldl]
  exact foldl_of_miss d f idx upd i _ x fun n _ => h _

/-- An operand index exactly one update index `j` lands at holds, after a set, the update's element at `j`. -/
theorem scatter_set_apply_of_hit (d : ScatterDims s si u) (x : s.Idx → α) (idx : IVec si w) (upd : u.Idx → α)
    (i : s.Idx) (j : u.Idx) (hj : d.resultIdx? j idx = some i) (huniq : ∀ j' : u.Idx, d.resultIdx? j' idx = some i → j' = j) :
    Host.scatter d (fun _ b => b) x idx upd i = upd j := by
  rw [scatter_eq_foldl]
  have hs : u.rowMajor.symm (u.rowMajor j) = j := u.rowMajor.symm_apply_apply j
  have := foldl_set_of_hit d idx upd i (u.rowMajor j) (by rw [hs]; exact hj) (List.finRange u.numel) x
    (List.mem_finRange _) fun n' _ e => by
      have := huniq _ e
      rw [← this]; exact (u.rowMajor.apply_symm_apply n').symm
  rw [this, hs]

end Fold

/-! ## A rank-2 window set at one start index: `x.at[r0 : r0 + r, c0 : c0 + c].set(u)` -/

section Window
variable {α : Type} {R C r c w : Nat}

/-- The dimension numbers of that form: operand `[R, C]`, a start index of two words, update `[r, c]`; both update
    axes are window axes, no operand axis is inserted, start component `k` goes to operand axis `k`. -/
abbrev windowDims (R C r c : Nat) (wf : ScatterDims.WF ⟨2, ![R, C]⟩ ⟨1, ![2]⟩ ⟨2, ![r, c]⟩ [0, 1] [] [0, 1] 0) :
    ScatterDims ⟨2, ![R, C]⟩ ⟨1, ![2]⟩ ⟨2, ![r, c]⟩ where
  updateWindowDims := [0, 1]
  insertedWindowDims := []
  scatterDimsToOperandDims := [0, 1]
  indexVectorDim := 0
  wf := wf

variable (wf : ScatterDims.WF ⟨2, ![R, C]⟩ ⟨1, ![2]⟩ ⟨2, ![r, c]⟩ [0, 1] [] [0, 1] 0)

theorem window_start0 (j : (⟨2, ![r, c]⟩ : Shape).Idx) (idx : IVec ⟨1, ![2]⟩ w) :
    (windowDims R C r c wf).start j idx 0 = (idx (ix1 0)).toInt := by
  unfold ScatterDims.start
  rw [dif_pos (show (0 : Fin 2) ∈ (windowDims R C r c wf).scatterDimsToOperandDims from List.mem_cons_self ..)]
  refine congrArg (fun k => (idx k).toInt) (funext fun b => Fin.ext ?_)
  match b with
  | ⟨0, _⟩ => rfl

theorem window_start1 (j : (⟨2, ![r, c]⟩ : Shape).Idx) (idx : IVec ⟨1, ![2]⟩ w) :
    (windowDims R C r c wf).start j idx 1 = (idx (ix1 1)).toInt := by
  unfold ScatterDims.start
  rw [dif_pos (show (1 : Fin 2) ∈ (windowDims R C r c wf).scatterDimsToOperandDims from List.mem_cons_of_mem _ (List.mem_cons_self ..))]
  refine congrArg (fun k => (idx k).toInt) (funext fun b => Fin.ext ?_)
  match b with
  | ⟨0, _⟩ => rfl

theorem window_coord0 (j : (⟨2, ![r, c]⟩ : Shape).Idx) : (windowDims R C r c wf).window j 0 = (j 0).val := rfl

theorem window_coord1 (j : (⟨2, ![r, c]⟩ : Shape).Idx) : (windowDims R C r c wf).window j 1 = (j 1).val := rfl

/-- Where update index `j` lands when the start index is `(r0, c0)` and the window lies inside the operand:
    at `(r0 + j₀, c0 + j₁)`. -/
theorem window_resultIdx (idx : IVec ⟨1, ![2]⟩ w) (r0 c0 : Nat) (h0 : (idx (ix1 0)).toInt = (r0 : Int))
    (h1 : (idx (ix1 1)).toInt = (c0 : Int)) (hr : r0 + r ≤ R) (hc : c0 + c ≤ C) (j : (⟨2, ![r, c]⟩ : Shape).Idx) :
    (windowDims R C r c wf).resultIdx? j idx
      = some (ix2 (⟨r0 + (j 0).val, by have := idx2_lt0 j; omega⟩ : Fin R) (⟨c0 + (j 1).val, by have := idx2_lt1 j; omega⟩ : Fin C)) := by
  have hj0 := idx2_lt0 j; have hj1 := idx2_lt1 j
  have H : ∀ a : Fin 2, 0 ≤ (windowDims R C r c wf).start j idx a + (windowDims R C r c wf).window j a ∧
      (windowDims R C r c wf).start j idx a + (windowDims R C r c wf).window j a < ((⟨2, ![R, C]⟩ : Shape).size a : Nat) := by
    intro a
    match a with
    | ⟨0, _⟩ =>
      show 0 ≤ (windowDims R C r c wf).start j idx 0 + ((windowDims R C r c wf).window j 0 : Nat) ∧
        (windowDims R C r c wf).start j idx 0 + ((windowDims R C r c wf).window j 0 : Nat) < (R : Nat)
      rw [window_start0, window_coord0, h0]; omega
    | ⟨1, _⟩ =>
      show 0 ≤ (windowDims R C r c wf).start j idx 1 + ((windowDims R C r c wf).window j 1 : Nat) ∧
        (windowDims R C r c wf).start j idx 1 + ((windowDims R C r c wf).window j 1 : Nat) < (C : Nat)
      rw [window_start1, window_coord1, h1]; omega
  unfold ScatterDims.resultIdx?
  rw [dif_pos H]
  refine congrArg some (funext fun a => Fin.ext ?_)
  match a with
  | ⟨0, _⟩ =>
    show ((windowDims R C r c wf).start j idx 0 + ((windowDims R C r c wf).window j 0 : Nat)).toNat = r0 + (j 0).val
    rw [window_start0, window_coord0, h0]; omega
  | ⟨1, _⟩ =>
    show ((windowDims R C r c wf).start j idx 1 + ((windowDims R C r c wf).window j 1 : Nat)).toNat = c0 + (j 1).val
    rw [window_start1, window_coord1, h1]; omega

/-- THE WINDOW SET READ AT `(p, q)`: the update at `(p - r0, q - c0)` inside the window `[r0, r0 + r) × [c0, c0 + c)`,
    the operand's own element outside it. -/
theorem scatter_window_apply (x : (⟨2, ![R, C]⟩ : Shape).Idx → α) (idx : IVec ⟨1, ![2]⟩ w)
    (upd : (⟨2, ![r, c]⟩ : Shape).Idx → α) (r0 c0 : Nat) (h0 : (idx (ix1 0)).toInt = (r0 : Int))
    (h1 : (idx (ix1 1)).toInt = (c0 : Int)) (hr : r0 + r ≤ R) (hc : c0 + c ≤ C) (p : (⟨2, ![R, C]⟩ : Shape).Idx) :
    Host.scatter (windowDims R C r c wf) (fun _ b => b) x idx upd p =
      if h : (r0 ≤ (p 0).val ∧ (p 0).val < r0 + r) ∧ (c0 ≤ (p 1).val ∧ (p 1).val < c0 + c) then
        upd (ix2 (⟨(p 0).val - r0, by omega⟩ : Fin r) (⟨(p 1).val - c0, by omega⟩ : Fin c))
      else x p := by
  by_cases h : (r0 ≤ (p 0).val ∧ (p 0).val < r0 + r) ∧ (c0 ≤ (p 1).val ∧ (p 1).val < c0 + c)
  · rw [dif_pos h]
    refine scatter_set_apply_of_hit _ x idx upd p _ ?_ ?_
    · rw [window_resultIdx wf idx r0 c0 h0 h1 hr hc]
      refine congrArg some (funext fun a => Fin.ext ?_)
      match a with
      | ⟨0, _⟩ => show r0 + ((p 0).val - r0) = (p 0).val; omega
      | ⟨1, _⟩ => show c0 + ((p 1).val - c0) = (p 1).val; omega
    · intro j' e
      rw [window_resultIdx wf idx r0 c0 h0 h1 hr hc] at e
      have e' := Option.some.inj e
      have e0 : r0 + (j' 0).val = (p 0).val := congrArg Fin.val (congrFun e' 0)
      have e1 : c0 + (j' 1).val = (p 1).val := congrArg Fin.val (congrFun e' 1)
      funext a
      refine Fin.ext ?_
      match a with
      | ⟨0, _⟩ => show (j' 0).val = (p 0).val - r0; omega
      | ⟨1, _⟩ => show (j' 1).val = (p 1).val - c0; omega
  · rw [dif_neg h]
    refine scatter_apply_of_miss _ _ x idx upd p fun j e => h ?_
    rw [window_resultIdx wf idx r0 c0 h0 h1 hr hc] at e
    have e' := Option.some.inj e
    have e0 : r0 + (j 0).val = (p 0).val := congrArg Fin.val (congrFun e' 0)
    have e1 : c0 + (j 1).val = (p 1).val := congrArg Fin.val (congrFun e' 1)
    have hj0 := idx2_lt0 j; have hj1 := idx2_lt1 j
    omega

end Window

end ScatterSet
-- ==== Proof.RefScatter.lean ====
/-
  The reference's block-diagonal matrix, read at an index. Four windows of 32 rows by 4096 columns are set, one after
  another, into a [128, 16384] array of zeros, window `t` at the start index (32 t, 4096 t) and holding range `t` of the
  features. The windows do not overlap, so entry (p, k) of the result is the feature at (p / 32, p % 32, k % 4096)
  when column `k` lies in the block of row `p`'s range (k / 4096 = p / 32), and zero otherwise.
-/
import proofs.«109662_j11768210391682_2_alg».proof.Proof.Gen.ReferenceIdeal.Read
import proofs.«109662_j11768210391682_2_alg».proof.Proof.LibScatterSet

noncomputable section

namespace Cert.RefScatter

open Cert.ReferenceIdeal Cert.ReferenceIdeal.Gen Cert.ReferenceIdeal.Read Idealize.ShloMosaic Idealize.ShloMosaic.ValueIdx

/-! ## The start indices: two one-word arrays joined -/

theorem pair_at0 (a b : IVec S1 32) (h : Shape.Concatenates [S1, S1] S2 0) :
    concatenate S2 0 [⟨S1, a⟩, ⟨S1, b⟩] h (ix1 0) = a (ix1 0) :=
  concatenate_pair_apply_left (0 : Fin S2.rank) a b h (ix1 0) rfl (ix1 0) (fun c => by match c with | ⟨0, _⟩ => rfl)

theorem pair_at1 (a b : IVec S1 32) (h : Shape.Concatenates [S1, S1] S2 0) :
    concatenate S2 0 [⟨S1, a⟩, ⟨S1, b⟩] h (ix1 1) = b (ix1 0) :=
  concatenate_pair_apply_right (0 : Fin S2.rank) a b h (ix1 1) rfl rfl (ix1 0)
    (fun c hc => absurd (Subsingleton.elim _ _) hc) rfl

theorem start0_row : (val_main_v41 (F := Ideal) (ix1 0)).toInt = ((32 * 0 : Nat) : Int) := by
  unfold val_main_v41; rw [pair_at0, val_main_v39_apply, val_main_c_apply]; decide
theorem start0_col : (val_main_v41 (F := Ideal) (ix1 1)).toInt = ((4096 * 0 : Nat) : Int) := by
  unfold val_main_v41; rw [pair_at1, val_main_v40_apply, val_main_c_5_apply]; decide
theorem start1_row : (val_main_v47 (F := Ideal) (ix1 0)).toInt = ((32 * 1 : Nat) : Int) := by
  unfold val_main_v47; rw [pair_at0, val_main_v45_apply, val_main_c_6_apply]; decide
theorem start1_col : (val_main_v47 (F := Ideal) (ix1 1)).toInt = ((4096 * 1 : Nat) : Int) := by
  unfold val_main_v47; rw [pair_at1, val_main_v46_apply, val_main_c_7_apply]; decide
theorem start2_row : (val_main_v53 (F := Ideal) (ix1 0)).toInt = ((32 * 2 : Nat) : Int) := by
  unfold val_main_v53; rw [pair_at0, val_main_v51_apply, val_main_c_8_apply]; decide
theorem start2_col : (val_main_v53 (F := Ideal) (ix1 1)).toInt = ((4096 * 2 : Nat) : Int) := by
  unfold val_main_v53; rw [pair_at1, val_main_v52_apply, val_main_c_9_apply]; decide
theorem start3_row : (val_main_v59 (F := Ideal) (ix1 0)).toInt = ((32 * 3 : Nat) : Int) := by
  unfold val_main_v59; rw [pair_at0, val_main_v57_apply, val_main_c_10_apply]; decide
theorem start3_col : (val_main_v59 (F := Ideal) (ix1 1)).toInt = ((4096 * 3 : Nat) : Int) := by
  unfold val_main_v59; rw [pair_at1, val_main_v58_apply, val_main_c_11_apply]; decide

/-! ## One window set -/

section Stage
variable (t : Nat) (ht : t < 4) (x : FVec Ideal S128x16384 .f32) (idx : IVec S2 32) (upd : FVec Ideal S32x4096 .f32)
  (h0 : (idx (ix1 0)).toInt = ((32 * t : Nat) : Int)) (h1 : (idx (ix1 1)).toInt = ((4096 * t : Nat) : Int))

include ht h0 h1

/-- Inside window `t`: the update at the position within the window. -/
theorem stage_in (p : Fin 128) (k : Fin 16384) (hp : p.val / 32 = t) (hk : k.val / 4096 = t) :
    Host.scatter scatter_S128x16384_S2_S32x4096_01_n_01_0 (fun _ b => b) x idx upd (ix2 p k)
      = upd (ix2 (⟨p.val % 32, Nat.mod_lt _ (by decide)⟩ : Fin 32) (⟨k.val % 4096, Nat.mod_lt _ (by decide)⟩ : Fin 4096)) := by
  have hp' := p.isLt; have hk' := k.isLt
  refine (ScatterSet.scatter_window_apply Facts₀.scatter_S128x16384_S2_S32x4096_01_n_01_0_wf x idx upd (32 * t) (4096 * t)
    h0 h1 (by omega) (by omega) (ix2 p k)).trans ?_
  rw [dif_pos (show (32 * t ≤ p.val ∧ p.val < 32 * t + 32) ∧ (4096 * t ≤ k.val ∧ k.val < 4096 * t + 4096) by omega)]
  refine congrArg upd (funext fun a => Fin.ext ?_)
  match a with
  | ⟨0, _⟩ => show p.val - 32 * t = p.val % 32; omega
  | ⟨1, _⟩ => show k.val - 4096 * t = k.val % 4096; omega

/-- Outside window `t`: the array as it was. -/
theorem stage_out (p : Fin 128) (k : Fin 16384) (h : ¬(p.val / 32 = t ∧ k.val / 4096 = t)) :
    Host.scatter scatter_S128x16384_S2_S32x4096_01_n_01_0 (fun _ b => b) x idx upd (ix2 p k) = x (ix2 p k) := by
  have hp' := p.isLt; have hk' := k.isLt
  refine (ScatterSet.scatter_window_apply Facts₀.scatter_S128x16384_S2_S32x4096_01_n_01_0_wf x idx upd (32 * t) (4096 * t)
    h0 h1 (by omega) (by omega) (ix2 p k)).trans ?_
  rw [dif_neg (show ¬((32 * t ≤ p.val ∧ p.val < 32 * t + 32) ∧ (4096 * t ≤ k.val ∧ k.val < 4096 * t + 4096)) by omega)]

end Stage

/-! ## The four updates are the four ranges of the features -/

variable (x0 : FVec Ideal ⟨2, ![128, 2048]⟩ .f32) (x1 : FVec Ideal ⟨3, ![4, 2048, 4096]⟩ .f32)
  (x2 : FVec Ideal ⟨1, ![16384]⟩ .f32) (x3 : FVec Ideal ⟨1, ![2048]⟩ .f32) (x4 : FVec Ideal ⟨2, ![4, 2048]⟩ .f32)
  (x5 x6 : FVec Ideal ⟨1, ![16384]⟩ .f32)

theorem upd0 (a : Fin 32) (b : Fin 4096) :
    val_main_v38 (F := Ideal) x0 x1 x2 x3 x4 x5 x6 (ix2 a b) = val_main_v35 (F := Ideal) x0 x1 x2 x3 x4 x5 x6 (ix3 0 a b) := by
  have ha := a.isLt; have hb := b.isLt
  rw [val_main_v38_apply, val_main_v37_apply]
  refine congrArg _ (funext fun c => Fin.ext ?_)
  match c with
  | ⟨0, _⟩ => rfl
  | ⟨1, _⟩ => show (a.val * 4096 + b.val) / 4096 % 32 = a.val; omega
  | ⟨2, _⟩ => show (a.val * 4096 + b.val) % 4096 = b.val; omega

theorem upd1 (a : Fin 32) (b : Fin 4096) :
    val_main_v44 (F := Ideal) x0 x1 x2 x3 x4 x5 x6 (ix2 a b) = val_main_v35 (F := Ideal) x0 x1 x2 x3 x4 x5 x6 (ix3 1 a b) := by
  have ha := a.isLt; have hb := b.isLt
  rw [val_main_v44_apply, val_main_v43_apply]
  refine congrArg _ (funext fun c => Fin.ext ?_)
  match c with
  | ⟨0, _⟩ => rfl
  | ⟨1, _⟩ => show (a.val * 4096 + b.val) / 4096 % 32 = a.val; omega
  | ⟨2, _⟩ => show (a.val * 4096 + b.val) % 4096 = b.val; omega

theorem upd2 (a : Fin 32) (b : Fin 4096) :
    val_main_v50 (F := Ideal) x0 x1 x2 x3 x4 x5 x6 (ix2 a b) = val_main_v35 (F := Ideal) x0 x1 x2 x3 x4 x5 x6 (ix3 2 a b) := by
  have ha := a.isLt; have hb := b.isLt
  rw [val_main_v50_apply, val_main_v49_apply]
  refine congrArg _ (funext fun c => Fin.ext ?_)
  match c with
  | ⟨0, _⟩ => rfl
  | ⟨1, _⟩ => show (a.val * 4096 + b.val) / 4096 % 32 = a.val; omega
  | ⟨2, _⟩ => show (a.val * 4096 + b.val) % 4096 = b.val; omega

theorem upd3 (a : Fin 32) (b : Fin 4096) :
    val_main_v56 (F := Ideal) x0 x1 x2 x3 x4 x5 x6 (ix2 a b) = val_main_v35 (F := Ideal) x0 x1 x2 x3 x4 x5 x6 (ix3 3 a b) := by
  have ha := a.isLt; have hb := b.isLt
  rw [val_main_v56_apply, val_main_v55_apply]
  refine congrArg _ (funext fun c => Fin.ext ?_)
  match c with
  | ⟨0, _⟩ => rfl
  | ⟨1, _⟩ => show (a.val * 4096 + b.val) / 4096 % 32 = a.val; omega
  | ⟨2, _⟩ => show (a.val * 4096 + b.val) % 4096 = b.val; omega

/-! ## The block-diagonal matrix at an index -/

/-- The range a row belongs to, its place in the range, and a column's place in its block. -/
abbrev rangeOf (p : Fin 128) : Fin 4 := ⟨p.val / 32, by have := p.isLt; omega⟩
abbrev inRange (p : Fin 128) : Fin 32 := ⟨p.val % 32, Nat.mod_lt _ (by decide)⟩
abbrev inBlock (k : Fin 16384) : Fin 4096 := ⟨k.val % 4096, Nat.mod_lt _ (by decide)⟩

/-- On the diagonal blocks: the features. -/
theorem scattered_on (p : Fin 128) (k : Fin 16384) (h : k.val / 4096 = p.val / 32) :
    val_main_v60 (F := Ideal) x0 x1 x2 x3 x4 x5 x6 (ix2 p k)
      = val_main_v35 (F := Ideal) x0 x1 x2 x3 x4 x5 x6 (ix3 (rangeOf p) (inRange p) (inBlock k)) := by
  have hp := p.isLt
  have hr : ∀ (t : Fin 4), p.val / 32 = t.val → rangeOf p = t := fun t e => Fin.ext e
  unfold val_main_v60
  by_cases c3 : p.val / 32 = 3
  · rw [stage_in 3 (by decide) _ _ _ start3_row start3_col p k c3 (h.trans c3), upd3, hr 3 c3]
  rw [stage_out 3 (by decide) _ _ _ start3_row start3_col p k (fun e => c3 e.1)]
  unfold val_main_v54
  by_cases c2 : p.val / 32 = 2
  · rw [stage_in 2 (by decide) _ _ _ start2_row start2_col p k c2 (h.trans c2), upd2, hr 2 c2]
  rw [stage_out 2 (by decide) _ _ _ start2_row start2_col p k (fun e => c2 e.1)]
  unfold val_main_v48
  by_cases c1 : p.val / 32 = 1
  · rw [stage_in 1 (by decide) _ _ _ start1_row start1_col p k c1 (h.trans c1), upd1, hr 1 c1]
  rw [stage_out 1 (by decide) _ _ _ start1_row start1_col p k (fun e => c1 e.1)]
  unfold val_main_v42
  have c0 : p.val / 32 = 0 := by omega
  rw [stage_in 0 (by decide) _ _ _ start0_row start0_col p k c0 (h.trans c0), upd0, hr 0 c0]

/-- Off the diagonal blocks: zero. -/
theorem scattered_off (p : Fin 128) (k : Fin 16384) (h : k.val / 4096 ≠ p.val / 32) :
    val_main_v60 (F := Ideal) x0 x1 x2 x3 x4 x5 x6 (ix2 p k) = 0 := by
  unfold val_main_v60
  rw [stage_out 3 (by decide) _ _ _ start3_row start3_col p k (fun e => h (e.2.trans e.1.symm))]
  unfold val_main_v54
  rw [stage_out 2 (by decide) _ _ _ start2_row start2_col p k (fun e => h (e.2.trans e.1.symm))]
  unfold val_main_v48
  rw [stage_out 1 (by decide) _ _ _ start1_row start1_col p k (fun e => h (e.2.trans e.1.symm))]
  unfold val_main_v42
  rw [stage_out 0 (by decide) _ _ _ start0_row start0_col p k (fun e => h (e.2.trans e.1.symm)),
    val_main_v36_apply, val_main_cst_4_apply, Ideal.ofBits_def, Ideal.ofBits_zero_f32]

end Cert.RefScatter

end
-- ==== Proof.LibBlockDiag.lean ====
/-
  A sum over `Fin N`, with `N = R * S` read as `R` consecutive blocks of `S` indices, of a function that vanishes
  off one block is the sum over that block. With a product under the sum this is a row of a block-diagonal matrix
  times a matrix: the row's entries outside its own block are zero, and zero times anything is zero, so only the
  block's `S` columns contribute. The laws used are those of an additive commutative monoid and, for the product
  form, `0 * x = 0` (taken as a hypothesis about the monoid's own zero, so that no structure tying the product to the
  sum is asked for); no distributivity and no finiteness, so the statements hold on the extended reals.
-/
import Mathlib.Algebra.BigOperators.Fin
import Mathlib.Algebra.BigOperators.GroupWithZero.Finset
import Mathlib.Logic.Equiv.Fin.Basic

open scoped BigOperators

namespace BlockDiag

variable {M : Type*}

/-- Index `s` of block `r` among `N = R * S` indices laid out block after block. -/
def blockIdx {N R S : Nat} (hN : R * S = N) (r : Fin R) (s : Fin S) : Fin N :=
  ⟨r.val * S + s.val, by
    have hr := r.isLt; have hs := s.isLt
    calc r.val * S + s.val < r.val * S + S := by omega
      _ = (r.val + 1) * S := by rw [Nat.add_mul, Nat.one_mul]
      _ ≤ R * S := Nat.mul_le_mul_right S hr
      _ = N := hN⟩

@[simp] theorem blockIdx_val {N R S : Nat} (hN : R * S = N) (r : Fin R) (s : Fin S) :
    (blockIdx hN r s).val = r.val * S + s.val := rfl

/-- A function on `Fin (R * S)` that vanishes at every index outside block `r` sums to its sum over block `r`. -/
theorem sum_eq_sum_block [AddCommMonoid M] {N R S : Nat} (hN : R * S = N) (r : Fin R) (f : Fin N → M)
    (hout : ∀ k : Fin N, k.val / S ≠ r.val → f k = 0) :
    ∑ k : Fin N, f k = ∑ s : Fin S, f (blockIdx hN r s) := by
  subst hN
  rw [← Equiv.sum_comp finProdFinEquiv f, Fintype.sum_prod_type]
  rw [Finset.sum_eq_single r]
  · refine Finset.sum_congr rfl fun s _ => congrArg f (Fin.ext ?_)
    show s.val + S * r.val = r.val * S + s.val
    rw [Nat.mul_comm, Nat.add_comm]
  · intro a _ ha
    refine Finset.sum_eq_zero fun s _ => hout _ ?_
    show (s.val + S * a.val) / S ≠ r.val
    have hS : 0 < S := Nat.pos_of_ne_zero (fun h => by have := s.isLt; omega)
    rw [Nat.add_mul_div_left _ _ hS, Nat.div_eq_of_lt s.isLt, Nat.zero_add]
    exact fun h => ha (Fin.ext h)
  · intro h; exact absurd (Finset.mem_univ r) h

/-- THE BLOCK-DIAGONAL COLLAPSE: if `E` vanishes outside block `r`, then `∑ k, E k * W k` is the sum over block `r`
    alone — `0 * x = 0` for every `x`, so the other blocks' columns of `W` are never looked at. -/
theorem sum_mul_eq_sum_block [AddCommMonoid M] [Mul M] (zero_mul' : ∀ x : M, 0 * x = 0) {N R S : Nat}
    (hN : R * S = N) (r : Fin R) (E W : Fin N → M) (hout : ∀ k : Fin N, k.val / S ≠ r.val → E k = 0) :
    ∑ k : Fin N, E k * W k = ∑ s : Fin S, E (blockIdx hN r s) * W (blockIdx hN r s) :=
  sum_eq_sum_block hN r (fun k => E k * W k) fun k hk => by
    show E k * W k = 0
    rw [hout k hk, zero_mul']

end BlockDiag
-- ==== Proof.RefValue.lean ====
/-
  The reference computes the specification's `G`.

  Entry (p, j) of the reference's result is `∑ k, E (p, k) * W_dec (k, j) + b_dec j` over all 16384 hidden units `k`,
  where `E` is the block-diagonal matrix holding range `p / 32` of the features in row `p`'s own 4096 columns and
  zero elsewhere. Zero times anything is zero on the extended reals, so the sum collapses to the 4096 units of the
  row's range, which is the specification's decoder applied to the specification's features.
-/
import proofs.«109662_j11768210391682_2_alg».proof.Proof.RefEnc
import proofs.«109662_j11768210391682_2_alg».proof.Proof.RefScatter
import proofs.«109662_j11768210391682_2_alg».proof.Proof.LibBlockDiag

noncomputable section

namespace Cert.RefValue

open Cert.ReferenceIdeal Cert.ReferenceIdeal.Gen Cert.ReferenceIdeal.Read Idealize.ShloMosaic Idealize.ShloMosaic.ValueIdx
  Cert.Spec Cert.RefEnc Cert.RefScatter

variable (x0 : FVec Ideal ⟨2, ![128, 2048]⟩ .f32) (x1 : FVec Ideal ⟨3, ![4, 2048, 4096]⟩ .f32)
  (x2 : FVec Ideal ⟨1, ![16384]⟩ .f32) (x3 : FVec Ideal ⟨1, ![2048]⟩ .f32) (x4 : FVec Ideal ⟨2, ![4, 2048]⟩ .f32)
  (x5 x6 : FVec Ideal ⟨1, ![16384]⟩ .f32) (x7 : FVec Ideal ⟨2, ![16384, 2048]⟩ .f32)

/-- The 16384 hidden units are 4 blocks of 4096. -/
theorem units_blocks : 4 * 4096 = 16384 := rfl

/-- Unit `s` of range `r` is index `s` of block `r`. -/
theorem unit_eq_blockIdx (r : Fin 4) (s : Fin 4096) : BlockDiag.blockIdx units_blocks r s = unit r s := Fin.ext rfl

/-- THE COLLAPSE: row `p` of the block-diagonal matrix times column `j` of the decoder matrix is the sum over the
    4096 units of the row's range of the specification's features times the range's rows of the decoder matrix. -/
theorem decode_sum (p : Fin 128) (j : Fin 2048) :
    (∑ k : Fin 16384, val_main_v60 (F := Ideal) x0 x1 x2 x3 x4 x5 x6 (lidx_main_v61 (ix2 p j) k) * x7 (ridx_main_v61 (ix2 p j) k))
      = ∑ s : Fin 4096,
          feat (fun s => encOf (actsR x0) (posR x4) (bdecR x3) x1 (unitsR x2) (ix3 (rangeOf p) (inRange p) s))
            (fun s => unitsR x5 (ix3 (rangeOf p) 0 s)) (fun s => unitsR x6 (ix3 (rangeOf p) 0 s)) s
          * wdecR x7 (ix3 (rangeOf p) s j) := by
  have hp := p.isLt
  have collapse := BlockDiag.sum_mul_eq_sum_block (M := EReal) zero_mul units_blocks (rangeOf p)
    (fun k => val_main_v60 (F := Ideal) x0 x1 x2 x3 x4 x5 x6 (ix2 p k)) (fun k => x7 (ix2 k j))
    (fun k hk => scattered_off x0 x1 x2 x3 x4 x5 x6 p k hk)
  refine Eq.trans (Finset.sum_congr rfl fun k _ => ?_) (collapse.trans (Finset.sum_congr rfl fun s _ => ?_))
  · exact congrArg₂ (· * ·)
      (congrArg _ (funext fun a => by match a with | ⟨0, _⟩ => rfl | ⟨1, _⟩ => rfl))
      (congrArg _ (funext fun a => by match a with | ⟨0, _⟩ => rfl | ⟨1, _⟩ => rfl))
  · have hs := s.isLt
    have hblk : (BlockDiag.blockIdx units_blocks (rangeOf p) s).val / 4096 = p.val / 32 := by
      show ((p.val / 32) * 4096 + s.val) / 4096 = p.val / 32
      omega
    have hin : inBlock (BlockDiag.blockIdx units_blocks (rangeOf p) s) = s := by
      refine Fin.ext ?_
      show ((p.val / 32) * 4096 + s.val) % 4096 = s.val
      omega
    show val_main_v60 (F := Ideal) x0 x1 x2 x3 x4 x5 x6 (ix2 p (BlockDiag.blockIdx units_blocks (rangeOf p) s))
        * x7 (ix2 (BlockDiag.blockIdx units_blocks (rangeOf p) s) j) = _
    rw [scattered_on x0 x1 x2 x3 x4 x5 x6 p _ hblk, hin, feat_eq, unit_eq_blockIdx]
    unfold preRow
    rw [pre_eq_fun]
    rfl

/-- THE REFERENCE IS `G`. -/
theorem ref_eq (x0 : FVec Ideal ⟨2, ![128, 2048]⟩ .f32) (x1 : FVec Ideal ⟨3, ![4, 2048, 4096]⟩ .f32)
    (x2 : FVec Ideal ⟨1, ![16384]⟩ .f32) (x3 : FVec Ideal ⟨1, ![2048]⟩ .f32) (x4 : FVec Ideal ⟨2, ![4, 2048]⟩ .f32)
    (x5 x6 : FVec Ideal ⟨1, ![16384]⟩ .f32) (x7 : FVec Ideal ⟨2, ![16384, 2048]⟩ .f32) :
    Cert.ReferenceIdeal.Read.val_main_v64 (F := Ideal) x0 x1 x2 x3 x4 x5 x6 x7 = Cert.Spec.G x0 x1 x2 x3 x4 x5 x6 x7 := by
  funext i
  obtain ⟨p, j, rfl⟩ : ∃ (p : Fin 128) (j : Fin 2048), i = ix2 p j := ⟨i 0, i 1, eq_ix2 i⟩
  have ebias : idx_main_v62 (idx_main_v63 (ix2 p j)) = ix1 j := by
    funext a
    match a with
    | ⟨0, _⟩ => rfl
  rw [val_main_v64_apply, val_main_v61_apply, val_main_v63_apply, val_main_v62_apply, Ideal.addf_def, decode_sum, ebias]
  rfl

end Cert.RefValue

end
-- ==== Proof.lean ====
/-
  The certificate of a two-stage sparse-autoencoder forward pass: 128 rows in four ranges of 32, each range with its
  own encoder matrix and its own 4096 hidden units.

    pre  = (acts + pos_r - b_dec) · W_enc[r] + b_enc_r
    feat = max (layernorm (pre) · γ_r + β_r) 0
    out  = feat · W_dec[rows of r] + b_dec

  The kernel program computes this range by range in two grid regions: the encoder region writes `pre` in column
  tiles of 512; the decoder region, at the first tile of a range, normalises the whole range into a scratch buffer and
  clears an accumulator, adds one tile's product `feat[:, tile] · W_dec[tile, :]` per grid point, and at the last tile
  writes accumulator + b_dec. The reference lays `feat` out as a block-diagonal [128, 16384] matrix of zeros and
  multiplies by the whole decoder matrix.

  On the extended reals the two agree: a change of float format is the identity; the sum over 16384 hidden units of a
  row of the block-diagonal matrix keeps only the 4096 terms of the row's own range, since 0 · x = 0 for every x; and
  a sum of 4096 terms may be taken as eight sums of 512, addition being commutative and associative. No law used needs
  the inputs finite, so the precondition is never opened.

  Frames: each kernel region's body is run symbolically at every grid point and both regions are chained through
  @main's host reshapes, at the word-level instance and at the ideal one; the reference is a straight line of host
  operations. The idealisation rewrote no operation, so `preserves` states nothing.
-/
import proofs.«109662_j11768210391682_2_alg».proof.Defs
import proofs.«109662_j11768210391682_2_alg».proof.Proof.Gen.Kernel
import proofs.«109662_j11768210391682_2_alg».proof.Proof.Gen.Kernel.Skeleton
import proofs.«109662_j11768210391682_2_alg».proof.Proof.Gen.Kernel.Launch
import proofs.«109662_j11768210391682_2_alg».proof.Proof.Gen.Kernel.Regions
import proofs.«109662_j11768210391682_2_alg».proof.Proof.Gen.Kernel.Points
import proofs.«109662_j11768210391682_2_alg».proof.Proof.Gen.KernelIdeal
import proofs.«109662_j11768210391682_2_alg».proof.Proof.Gen.KernelIdeal.Skeleton
import proofs.«109662_j11768210391682_2_alg».proof.Proof.Gen.KernelIdeal.Launch
import proofs.«109662_j11768210391682_2_alg».proof.Proof.Gen.KernelIdeal.Regions
import proofs.«109662_j11768210391682_2_alg».proof.Proof.Gen.KernelIdeal.Points
import proofs.«109662_j11768210391682_2_alg».proof.Proof.Gen.ReferenceIdeal
import proofs.«109662_j11768210391682_2_alg».proof.Proof.Gen.Pre_finite_inputs
import proofs.«109662_j11768210391682_2_alg».proof.Proof.Gen.ReferenceIdeal.Run
import proofs.«109662_j11768210391682_2_alg».proof.Proof.Gen.ReferenceIdeal.Read
import proofs.«109662_j11768210391682_2_alg».proof.Proof.KFrame.Run
import proofs.«109662_j11768210391682_2_alg».proof.Proof.KIFrame.Run
import proofs.«109662_j11768210391682_2_alg».proof.Proof.KIVal.Glue
import proofs.«109662_j11768210391682_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs to the end, faults nowhere and leaves its arguments as launched. -/
theorem frame_kernel : Cert.frame_Kernel := fun m ρ _ => Cert.Kernel.Fr.frame (F := Bits) m ρ

/-- So does the idealised kernel program. -/
theorem frame_kernelIdeal : Cert.frame_KernelIdeal := fun m ρ _ => Cert.KernelIdeal.Fr.frame (F := Ideal) m ρ

/-- And the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote nothing. -/
theorem preserves : Cert.preserves_Kernel_KernelIdeal := trivial

/-- From memories agreeing on the arguments both programs end with the specification's function of the arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run (Cert.KernelIdeal.defs (F := Ideal)) _ _).mono
      (fun r h c => ⟨(h c).1.trans (Cert.KernelIdeal.Val.kernel_result m c), (h c).2⟩)
      (Cert.KernelIdeal.Fr.run_result (F := Ideal) m ρ)
  · refine (θ_run (Cert.ReferenceIdeal.defs (F := Ideal)) _ _).mono (fun r h c => ⟨?_, (h c).2⟩)
      (Cert.ReferenceIdeal.Value.run (F := Ideal) m' ρ')
    rw [(h c).1, Cert.ReferenceIdeal.Read.val_main_v64_eq, Cert.RefValue.ref_eq,
      (hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
